-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10 : Shape := ⟨2, ![16384, 10]⟩
abbrev S16384x10x10 : Shape := ⟨3, ![16384, 10, 10]⟩
abbrev S16384x50 : Shape := ⟨2, ![16384, 50]⟩
abbrev S16384 : Shape := ⟨1, ![16384]⟩
abbrev S100001x64 : Shape := ⟨2, ![100001, 64]⟩
abbrev S2001x64 : Shape := ⟨2, ![2001, 64]⟩
abbrev S64x64 : Shape := ⟨2, ![64, 64]⟩
abbrev S_ : Shape := ⟨0, ![]⟩

class Facts : Prop where
  bcast_S_S100001x64 : S_.BroadcastsInDim S100001x64 (![] : Fin 0 → Fin S100001x64.rank)
  reducesTo_S100001x64_S_d0_1 : S100001x64.ReducesTo [0, 1] S_
  h_S_ : 0 < S_.numel
  bcast_S_S2001x64 : S_.BroadcastsInDim S2001x64 (![] : Fin 0 → Fin S2001x64.rank)
  reducesTo_S2001x64_S_d0_1 : S2001x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg8 : FVec F S64x64 .f32) (main_arg9 : FVec F S64x64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : IVec S16384x10 32) (main_arg1 : IVec S16384x10x10 32) (main_arg2 : IVec S16384x50 32) (main_arg3 : IVec S16384 32) (main_arg4 : FVec F S100001x64 .f32) (main_arg5 : FVec F S2001x64 .f32) (main_arg6 : FVec F S64x64 .f32) (main_arg7 : FVec F S64x64 .f32) (main_arg8 : FVec F S64x64 .f32) (main_arg9 : FVec F S64x64 .f32) (main_arg10 : FVec F S64x64 .f32) : IVec S_ 1 :=
  let main_v0 : FVec F S100001x64 .f32 := Host.absf main_arg4
  let main_cst : FVec F S_ .f32 := constant S_ .f32 0x7F800000#32
  let main_v1 : FVec F S100001x64 .f32 := broadcastInDim S100001x64 ![] bcast_S_S100001x64 main_cst
  let main_v2 : IVec S100001x64 1 := cmpf .olt main_v0 main_v1
  let main_c : IVec S_ 1 := constantI S_ 1 1#1
  let main_v3 : IVec S_ 1 := (fun x v => Host.reduce IntOp.andi x v reducesTo_S100001x64_S_d0_1 h_S_) main_v2 main_c
  let main_v4 : FVec F S2001x64 .f32 := Host.absf main_arg5
  let main_cst_0 : FVec F S_ .f32 := constant S_ .f32 0x7F800000#32
  let main_v5 : FVec F S2001x64 .f32 := broadcastInDim S2001x64 ![] bcast_S_S2001x64 main_cst_0
  let main_v6 : IVec S2001x64 1 := cmpf .olt main_v4 main_v5
  let main_c_1 : IVec S_ 1 := constantI S_ 1 1#1
  let main_v7 : IVec S_ 1 := (fun x v => Host.reduce IntOp.andi x v reducesTo_S2001x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_v13 main_v16
-- ==== Kernel.lean ====
abbrev S16384x10 : Shape := ⟨2, ![16384, 10]⟩
abbrev S16384x10x10 : Shape := ⟨3, ![16384, 10, 10]⟩
abbrev S16384x50 : Shape := ⟨2, ![16384, 50]⟩
abbrev S16384 : Shape := ⟨1, ![16384]⟩
abbrev S100001x64 : Shape := ⟨2, ![100001, 64]⟩
abbrev S2001x64 : Shape := ⟨2, ![2001, 64]⟩
abbrev S64x64 : Shape := ⟨2, ![64, 64]⟩
abbrev S_ : Shape := ⟨0, ![]⟩
abbrev S16384x10x1 : Shape := ⟨3, ![16384, 10, 1]⟩
abbrev S16384x10x64 : Shape := ⟨3, ![16384, 10, 64]⟩
abbrev S16384x10x10x1 : Shape := ⟨4, ![16384, 10, 10, 1]⟩
abbrev S16384x10x10x64 : Shape := ⟨4, ![16384, 10, 10, 64]⟩
abbrev S16384x1 : Shape := ⟨2, ![16384, 1]⟩
abbrev S16384x64 : Shape := ⟨2, ![16384, 64]⟩
abbrev S16384x50x1 : Shape := ⟨3, ![16384, 50, 1]⟩
abbrev S16384x50x64 : Shape := ⟨3, ![16384, 50, 64]⟩
abbrev S256x10x64 : Shape := ⟨3, ![256, 10, 64]⟩
abbrev S256x64 : Shape := ⟨2, ![256, 64]⟩
abbrev S256x10 : Shape := ⟨2, ![256, 10]⟩
abbrev S256 : Shape := ⟨1, ![256]⟩
abbrev S2560x64 : Shape := ⟨2, ![2560, 64]⟩
abbrev S256x10x1 : Shape := ⟨3, ![256, 10, 1]⟩
abbrev S256x1 : Shape := ⟨2, ![256, 1]⟩

abbrev nBuf : Space → Nat
  | .hbm => 117
  | .vmem => 21
  | .smem => 0
  | _ => 0

abbrev bufTy : (tb : Table) → Fin (tcTables nBuf tb) → BufTy
  | .hbm, ⟨0, _⟩ => ⟨S16384x10, .i32⟩
  | .hbm, ⟨1, _⟩ => ⟨S16384x10x10, .i32⟩
  | .hbm, ⟨2, _⟩ => ⟨S16384x50, .i32⟩
  | .hbm, ⟨3, _⟩ => ⟨S16384, .i32⟩
  | .hbm, ⟨4, _⟩ => ⟨S100001x64, .f32⟩
  | .hbm, ⟨5, _⟩ => ⟨S2001x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .i32⟩
  | .hbm, ⟨12, _⟩ => ⟨S16384x10x10, .i32⟩
  | .hbm, ⟨13, _⟩ => ⟨S16384x10x10, .i1⟩
  | .hbm, ⟨14, _⟩ => ⟨S16384x10x10, .i32⟩
  | .hbm, ⟨15, _⟩ => ⟨S_, .i32⟩
  | .hbm, ⟨16, _⟩ => ⟨S16384x10, .i32⟩
  | .hbm, ⟨17, _⟩ => ⟨S16384x10, .f32⟩
  | .hbm, ⟨18, _⟩ => ⟨S_, .f32⟩
  | .hbm, ⟨19, _⟩ => ⟨S16384x10, .f32⟩
  | .hbm, ⟨20, _⟩ => ⟨S16384x10, .f32⟩
  | .hbm, ⟨21, _⟩ => ⟨S_, .f32⟩
  | .hbm, ⟨22, _⟩ => ⟨S16384x10, .f32⟩
  | .hbm, ⟨23, _⟩ => ⟨S16384x10, .f32⟩
  | .hbm, ⟨24, _⟩ => ⟨S_, .f32⟩
  | .hbm, ⟨25, _⟩ => ⟨S16384x10, .f32⟩
  | .hbm, ⟨26, _⟩ => ⟨S16384x10, .i1⟩
  | .hbm, ⟨27, _⟩ => ⟨S_, .f32⟩
  | .hbm, ⟨28, _⟩ => ⟨S_, .f32⟩
  | .hbm, ⟨29, _⟩ => ⟨S16384x10, .f32⟩
  | .hbm, ⟨30, _⟩ => ⟨S16384x10, .f32⟩
  | .hbm, ⟨31, _⟩ => ⟨S_, .i32⟩
  | .hbm, ⟨32, _⟩ => ⟨S16384x10, .i32⟩
  | .hbm, ⟨33, _⟩ => ⟨S16384x10, .i1⟩
  | .hbm, ⟨34, _⟩ => ⟨S16384x10, .i32⟩
  | .hbm, ⟨35, _⟩ => ⟨S_, .i32⟩
  | .hbm, ⟨36, _⟩ => ⟨S16384, .i32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .i1⟩
  | .hbm, ⟨47, _⟩ => ⟨S_, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .i32⟩
  | .hbm, ⟨52, _⟩ => ⟨S16384x50, .i32⟩
  | .hbm, ⟨53, _⟩ => ⟨S16384x50, .i1⟩
  | .hbm, ⟨54, _⟩ => ⟨S16384x50, .i32⟩
  | .hbm, ⟨55, _⟩ => ⟨S_, .i32⟩
  | .hbm, ⟨56, _⟩ => ⟨S16384, .i32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .i1⟩
  | .hbm, ⟨67, _⟩ => ⟨S_, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S_, .i32⟩
  | .hbm, ⟨72, _⟩ => ⟨S16384x10, .i32⟩
  | .hbm, ⟨73, _⟩ => ⟨S16384x10, .i1⟩
  | .hbm, ⟨74, _⟩ => ⟨S_, .i32⟩
  | .hbm, ⟨75, _⟩ => ⟨S16384x10, .i32⟩
  | .hbm, ⟨76, _⟩ => ⟨S16384x10, .i32⟩
  | .hbm, ⟨77, _⟩ => ⟨S16384x10, .i32⟩
  | .hbm, ⟨78, _⟩ => ⟨S16384x10x1, .i32⟩
  | .hbm, ⟨79, _⟩ => ⟨S16384x10x64, .f32⟩
  | .hbm, ⟨80, _⟩ => ⟨S_, .i32⟩
  | .hbm, ⟨81, _⟩ => ⟨S16384x10x10, .i32⟩
  | .hbm, ⟨82, _⟩ => ⟨S16384x10x10, .i1⟩
  | .hbm, ⟨83, _⟩ => ⟨S_, .i32⟩
  | .hbm, ⟨84, _⟩ => ⟨S16384x10x10, .i32⟩
  | .hbm, ⟨85, _⟩ => ⟨S16384x10x10, .i32⟩
  | .hbm, ⟨86, _⟩ => ⟨S16384x10x10, .i32⟩
  | .hbm, ⟨87, _⟩ => ⟨S16384x10x10x1, .i32⟩
  | .hbm, ⟨88, _⟩ => ⟨S16384x10x10x64, .f32⟩
  | .hbm, ⟨89, _⟩ => ⟨S_, .f32⟩
  | .hbm, ⟨90, _⟩ => ⟨S16384x10x64, .f32⟩
  | .hbm, ⟨91, _⟩ => ⟨S_, .i32⟩
  | .hbm, ⟨92, _⟩ => ⟨S16384, .i32⟩
  | .hbm, ⟨93, _⟩ => ⟨S16384, .i1⟩
  | .hbm, ⟨94, _⟩ => ⟨S_, .i32⟩
  | .hbm, ⟨95, _⟩ => ⟨S16384, .i32⟩
  | .hbm, ⟨96, _⟩ => ⟨S16384, .i32⟩
  | .hbm, ⟨97, _⟩ => ⟨S16384, .i32⟩
  | .hbm, ⟨98, _⟩ => ⟨S16384x1, .i32⟩
  | .hbm, ⟨99, _⟩ => ⟨S16384x64, .f32⟩
  | .hbm, ⟨100, _⟩ => ⟨S_, .i32⟩
  | .hbm, ⟨101, _⟩ => ⟨S16384x50, .i32⟩
  | .hbm, ⟨102, _⟩ => ⟨S16384x50, .i1⟩
  | .hbm, ⟨103, _⟩ => ⟨S_, .i32⟩
  | .hbm, ⟨104, _⟩ => ⟨S16384x50, .i32⟩
  | .hbm, ⟨105, _⟩ => ⟨S16384x50, .i32⟩
  | .hbm, ⟨106, _⟩ => ⟨S16384x50, .i32⟩
  | .hbm, ⟨107, _⟩ => ⟨S16384x50x1, .i32⟩
  | .hbm, ⟨108, _⟩ => ⟨S16384x50x64, .f32⟩
  | .hbm, ⟨109, _⟩ => ⟨S_, .f32⟩
  | .hbm, ⟨110, _⟩ => ⟨S16384x64, .f32⟩
  | .hbm, ⟨111, _⟩ => ⟨S64x64, .bf16⟩
  | .hbm, ⟨112, _⟩ => ⟨S64x64, .bf16⟩
  | .hbm, ⟨113, _⟩ => ⟨S64x64, .bf16⟩
  | .hbm, ⟨114, _⟩ => ⟨S64x64, .bf16⟩
  | .hbm, ⟨115, _⟩ => ⟨S64x64, .bf16⟩
  | .hbm, ⟨116, _⟩ => ⟨S16384, .f32⟩
  | .local _ .vmem, ⟨0, _⟩ => ⟨S256x10x64, .f32⟩
  | .local _ .vmem, ⟨1, _⟩ => ⟨S256x10x64, .f32⟩
  | .local _ .vmem, ⟨2, _⟩ => ⟨S256x10x64, .f32⟩
  | .local _ .vmem, ⟨3, _⟩ => ⟨S256x10x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x10, .f32⟩
  | .local _ .vmem, ⟨9, _⟩ => ⟨S256x10, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S64x64, .bf16⟩
  | .local _ .vmem, ⟨15, _⟩ => ⟨S64x64, .bf16⟩
  | .local _ .vmem, ⟨16, _⟩ => ⟨S64x64, .bf16⟩
  | .local _ .vmem, ⟨17, _⟩ => ⟨S64x64, .bf16⟩
  | .local _ .vmem, ⟨18, _⟩ => ⟨S64x64, .bf16⟩
  | .local _ .vmem, ⟨19, _⟩ => ⟨S256, .f32⟩
  | .local _ .vmem, ⟨20, _⟩ => ⟨S256, .f32⟩
  | _, _ => ⟨S16384x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_cst_8 : Ref sig .tc := ⟨.hbm, 44, rfl⟩
abbrev main_v21 : Ref sig .tc := ⟨.hbm, 45, rfl⟩
abbrev main_v22 : Ref sig .tc := ⟨.hbm, 46, rfl⟩
abbrev main_cst_9 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_c_10 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_11 : Ref sig .tc := ⟨.hbm, 55, rfl⟩
abbrev main_v27 : Ref sig .tc := ⟨.hbm, 56, rfl⟩
abbrev main_v28 : Ref sig .tc := ⟨.hbm, 57, rfl⟩
abbrev main_cst_12 : Ref sig .tc := ⟨.hbm, 58, rfl⟩
abbrev main_v29 : Ref sig .tc := ⟨.hbm, 59, rfl⟩
abbrev main_v30 : Ref sig .tc := ⟨.hbm, 60, rfl⟩
abbrev main_cst_13 : Ref sig .tc := ⟨.hbm, 61, rfl⟩
abbrev main_v31 : Ref sig .tc := ⟨.hbm, 62, rfl⟩
abbrev main_v32 : Ref sig .tc := ⟨.hbm, 63, rfl⟩
abbrev main_cst_14 : Ref sig .tc := ⟨.hbm, 64, rfl⟩
abbrev main_v33 : Ref sig .tc := ⟨.hbm, 65, rfl⟩
abbrev main_v34 : Ref sig .tc := ⟨.hbm, 66, rfl⟩
abbrev main_cst_15 : Ref sig .tc := ⟨.hbm, 67, rfl⟩
abbrev main_call2_v0 : Ref sig .tc := ⟨.hbm, 68, rfl⟩
abbrev main_call2_v1 : Ref sig .tc := ⟨.hbm, 69, rfl⟩
abbrev main_v35 : Ref sig .tc := ⟨.hbm, 70, rfl⟩
abbrev main_c_16 : Ref sig .tc := ⟨.hbm, 71, rfl⟩
abbrev main_v36 : Ref sig .tc := ⟨.hbm, 72, rfl⟩
abbrev main_v37 : Ref sig .tc := ⟨.hbm, 73, rfl⟩
abbrev main_c_17 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_18 : Ref sig .tc := ⟨.hbm, 80, rfl⟩
abbrev main_v43 : Ref sig .tc := ⟨.hbm, 81, rfl⟩
abbrev main_v44 : Ref sig .tc := ⟨.hbm, 82, rfl⟩
abbrev main_c_19 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_20 : Ref sig .tc := ⟨.hbm, 89, rfl⟩
abbrev main_v50 : Ref sig .tc := ⟨.hbm, 90, rfl⟩
abbrev main_c_21 : Ref sig .tc := ⟨.hbm, 91, rfl⟩
abbrev main_v51 : Ref sig .tc := ⟨.hbm, 92, rfl⟩
abbrev main_v52 : Ref sig .tc := ⟨.hbm, 93, rfl⟩
abbrev main_c_22 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_23 : Ref sig .tc := ⟨.hbm, 100, rfl⟩
abbrev main_v58 : Ref sig .tc := ⟨.hbm, 101, rfl⟩
abbrev main_v59 : Ref sig .tc := ⟨.hbm, 102, rfl⟩
abbrev main_c_24 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_25 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x10x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S16384x10x10 : S_.BroadcastsInDim S16384x10x10 (![] : Fin 0 → Fin S16384x10x10.rank)
  natLt_1_32 : 1 < 32
  reducesTo_S16384x10x10_S16384x10_d2 : S16384x10x10.ReducesTo [2] S16384x10
  h_S_ : 0 < S_.numel
  bcast_S_S16384x10 : S_.BroadcastsInDim S16384x10 (![] : Fin 0 → Fin S16384x10.rank)
  reducesTo_S16384x10_S16384_d1 : S16384x10.ReducesTo [1] S16384
  bcast_S_S16384 : S_.BroadcastsInDim S16384 (![] : Fin 0 → Fin S16384.rank)
  bcast_S_S16384x50 : S_.BroadcastsInDim S16384x50 (![] : Fin 0 → Fin S16384x50.rank)
  reducesTo_S16384x50_S16384_d1 : S16384x50.ReducesTo [1] S16384
  bcast_S16384x10_S16384x10x1_0_1 : S16384x10.BroadcastsInDim S16384x10x1 (![0, 1] : Fin 2 → Fin S16384x10x1.rank)
  bcast_S16384x10x10_S16384x10x10x1_0_1_2 : S16384x10x10.BroadcastsInDim S16384x10x10x1 (![0, 1, 2] : Fin 3 → Fin S16384x10x10x1.rank)
  reducesTo_S16384x10x10x64_S16384x10x64_d2 : S16384x10x10x64.ReducesTo [2] S16384x10x64
  bcast_S16384_S16384x1_0 : S16384.BroadcastsInDim S16384x1 (![0] : Fin 1 → Fin S16384x1.rank)
  bcast_S16384x50_S16384x50x1_0_1 : S16384x50.BroadcastsInDim S16384x50x1 (![0, 1] : Fin 2 → Fin S16384x50x1.rank)
  reducesTo_S16384x50x64_S16384x64_d1 : S16384x50x64.ReducesTo [1] S16384x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x10x64_S256x10x64_0_0_0 : ∀ a, (![0, 0, 0] : Fin 3 → Nat) a + S256x10x64.size a ≤ S256x10x64.size a
  h_S256x10x64 : 0 < S256x10x64.numel
  shapeCasts_S256x10x64_S256x10x64 : S256x10x64.ShapeCasts S256x10x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S256_S256_0 : ∀ a, (![0] : Fin 1 → Nat) a + S256.size a ≤ S256.size a
  h_S256 : 0 < S256.numel
  shapeCasts_S256_S256 : S256.ShapeCasts S256
  shapeCasts_S256x10x64_S2560x64 : S256x10x64.ShapeCasts S2560x64
  transposes_S64x64_p1_0_S64x64 : S64x64.Transposes [1, 0] S64x64
  shapeCasts_S2560x64_S256x10x64 : S2560x64.ShapeCasts S256x10x64
  shapeCasts_S256x10_S256x10x1 : S256x10.ShapeCasts S256x10x1
  broadcasts_S256x10x1_S256x10x64 : S256x10x1.Broadcasts S256x10x64
  reduces_S256x10x64_S256x10 : S256x10x64.Reduces [2] S256x10
  reduces_S256x10x64_S256x64 : S256x10x64.Reduces [1] S256x64
  shapeCasts_S256_S256x1 : S256.ShapeCasts S256x1
  broadcasts_S256x1_S256x64 : S256x1.Broadcasts S256x64
  reduces_S256x64_S256 : S256x64.Reduces [1] S256
  gather_S100001x64_S16384x10x1_S16384x10x64_2_0_n_n_0_2_164_wf : GatherDims.WF S100001x64 S16384x10x1 S16384x10x64 [2] [0] [] [0] [] 2 ![1, 64]
  gather_S2001x64_S16384x10x10x1_S16384x10x10x64_3_0_n_n_0_3_164_wf : GatherDims.WF S2001x64 S16384x10x10x1 S16384x10x10x64 [3] [0] [] [0] [] 3 ![1, 64]
  gather_S2001x64_S16384x1_S16384x64_1_0_n_n_0_1_164_wf : GatherDims.WF S2001x64 S16384x1 S16384x64 [1] [0] [] [0] [] 1 ![1, 64]
  gather_S100001x64_S16384x50x1_S16384x50x64_2_0_n_n_0_2_164_wf : GatherDims.WF S100001x64 S16384x50x1 S16384x50x64 [2] [0] [] [0] [] 2 ![1, 64]
  dot_S2560x64_S64x64_S2560x64_1_0_0_1_n_n_wf : DotDims.WF S2560x64 S64x64 S2560x64 [1] [0] [0] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10x64.size a ≤ S16384x10x64.size a
  hwx0_0 : ∀ i : grid0.Coords, EltTy.bits .f32 = 32 ∨ (Rect.block (s := S16384x10x64) S256x10x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10x64.size a ≤ S16384x10x64.size a
  hwx0_1 : ∀ i : grid0.Coords, EltTy.bits .f32 = 32 ∨ (Rect.block (s := S16384x10x64) S256x10x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x10.size a ≤ S16384x10.size a
  hwx0_4 : ∀ i : grid0.Coords, EltTy.bits .f32 = 32 ∨ (Rect.block (s := S16384x10) S256x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S16384.size a
  hwx0_5 : ∀ i : grid0.Coords, EltTy.bits .f32 = 32 ∨ (Rect.block (s := S16384) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S16384.size a
  hwx0_6 : ∀ i : grid0.Coords, EltTy.bits .f32 = 32 ∨ (Rect.block (s := S16384) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S16384.size a
  hwx0_12 : ∀ i : grid0.Coords, EltTy.bits .f32 = 32 ∨ (Rect.block (s := S16384) S256.size (cc0_transform_12 i) (hinb0_12 i)).WholeWords (EltTy.packing .f32)

variable [Facts₀]

def gather_S100001x64_S16384x10x1_S16384x10x64_2_0_n_n_0_2_164 : GatherDims S100001x64 S16384x10x1 S16384x10x64 where
  offsetDims := [2]
  collapsedSliceDims := [0]
  operandBatchingDims := []
  startIndicesBatchingDims := []
  startIndexMap := [0]
  indexVectorDim := 2
  sliceSizes := ![1, 64]
  wf := gather_S100001x64_S16384x10x1_S16384x10x64_2_0_n_n_0_2_164_wf
def gather_S2001x64_S16384x10x10x1_S16384x10x10x64_3_0_n_n_0_3_164 : GatherDims S2001x64 S16384x10x10x1 S16384x10x10x64 where
  offsetDims := [3]
  collapsedSliceDims := [0]
  operandBatchingDims := []
  startIndicesBatchingDims := []
  startIndexMap := [0]
  indexVectorDim := 3
  sliceSizes := ![1, 64]
  wf := gather_S2001x64_S16384x10x10x1_S16384x10x10x64_3_0_n_n_0_3_164_wf
def gather_S2001x64_S16384x1_S16384x64_1_0_n_n_0_1_164 : GatherDims S2001x64 S16384x1 S16384x64 where
  offsetDims := [1]
  collapsedSliceDims := [0]
  operandBatchingDims := []
  startIndicesBatchingDims := []
  startIndexMap := [0]
  indexVectorDim := 1
  sliceSizes := ![1, 64]
  wf := gather_S2001x64_S16384x1_S16384x64_1_0_n_n_0_1_164_wf
def gather_S100001x64_S16384x50x1_S16384x50x64_2_0_n_n_0_2_164 : GatherDims S100001x64 S16384x50x1 S16384x50x64 where
  offsetDims := [2]
  collapsedSliceDims := [0]
  operandBatchingDims := []
  startIndicesBatchingDims := []
  startIndexMap := [0]
  indexVectorDim := 2
  sliceSizes := ![1, 64]
  wf := gather_S100001x64_S16384x50x1_S16384x50x64_2_0_n_n_0_2_164_wf
def dot_S2560x64_S64x64_S2560x64_1_0_0_1_n_n : DotDims S2560x64 S64x64 S2560x64 where
  lhsContracting := [1]
  rhsContracting := [0]
  lhsNonContracting := [0]
  rhsNonContracting := [1]
  lhsBatch := []
  rhsBatch := []
  wf := dot_S2560x64_S64x64_S2560x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_v42) S256x10x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S256x10x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v66) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v68) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v69) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v70) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v71) S256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x10 : Shape := ⟨2, ![16384, 10]⟩
abbrev S16384x10x10 : Shape := ⟨3, ![16384, 10, 10]⟩
abbrev S16384x50 : Shape := ⟨2, ![16384, 50]⟩
abbrev S16384 : Shape := ⟨1, ![16384]⟩
abbrev S100001x64 : Shape := ⟨2, ![100001, 64]⟩
abbrev S2001x64 : Shape := ⟨2, ![2001, 64]⟩
abbrev S64x64 : Shape := ⟨2, ![64, 64]⟩
abbrev S_ : Shape := ⟨0, ![]⟩
abbrev S16384x1 : Shape := ⟨2, ![16384, 1]⟩
abbrev S16384x64 : Shape := ⟨2, ![16384, 64]⟩
abbrev S16384x10x1 : Shape := ⟨3, ![16384, 10, 1]⟩
abbrev S16384x10x64 : Shape := ⟨3, ![16384, 10, 64]⟩
abbrev S16384x10x10x1 : Shape := ⟨4, ![16384, 10, 10, 1]⟩
abbrev S16384x10x10x64 : Shape := ⟨4, ![16384, 10, 10, 64]⟩
abbrev S16384x10x1x64 : Shape := ⟨4, ![16384, 10, 1, 64]⟩
abbrev S16384x1x64 : Shape := ⟨3, ![16384, 1, 64]⟩
abbrev S16384x50x1 : Shape := ⟨3, ![16384, 50, 1]⟩
abbrev S16384x50x64 : Shape := ⟨3, ![16384, 50, 64]⟩

abbrev nBuf : Space → Nat
  | .hbm => 156
  | .vmem => 0
  | .smem => 0
  | _ => 0

abbrev hbmTy0_0 (i : Nat) : BufTy := match i % 128 with
  | 0 => ⟨S16384x10, .i32⟩
  | 1 => ⟨S16384x10x10, .i32⟩
  | 2 => ⟨S16384x50, .i32⟩
  | 3 => ⟨S16384, .i32⟩
  | 4 => ⟨S100001x64, .f32⟩
  | 5 => ⟨S2001x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384x64, .f32⟩
  | 20 => ⟨S_, .i32⟩
  | 21 => ⟨S16384x10, .i32⟩
  | 22 => ⟨S16384x10, .i1⟩
  | 23 => ⟨S_, .i32⟩
  | 24 => ⟨S16384x10, .i32⟩
  | 25 => ⟨S16384x10, .i32⟩
  | 26 => ⟨S16384x10, .i32⟩
  | 27 => ⟨S16384x10x1, .i32⟩
  | 28 => ⟨S16384x10x64, .f32⟩
  | 29 => ⟨S_, .i32⟩
  | 30 => ⟨S16384x10x10, .i32⟩
  | 31 => ⟨S16384x10x10, .i1⟩
  | 32 => ⟨S_, .i32⟩
  | 33 => ⟨S16384x10x10, .i32⟩
  | 34 => ⟨S16384x10x10, .i32⟩
  | 35 => ⟨S16384x10x10, .i32⟩
  | 36 => ⟨S16384x10x10x1, .i32⟩
  | 37 => ⟨S16384x10x10x64, .f32⟩
  | 38 => ⟨S16384x10x10x64, .f32⟩
  | 39 => ⟨S16384x10x1x64, .f32⟩
  | 40 => ⟨S16384x10x10x64, .f32⟩
  | 41 => ⟨S16384x10x10x64, .f32⟩
  | 42 => ⟨S16384x10x10x64, .f32⟩
  | 43 => ⟨S16384x10x10x64, .f32⟩
  | 44 => ⟨S16384x10x64, .f32⟩
  | 45 => ⟨S_, .i32⟩
  | 46 => ⟨S16384x10x10, .i32⟩
  | 47 => ⟨S16384x10x10, .i1⟩
  | 48 => ⟨S16384x10x10, .i32⟩
  | 49 => ⟨S_, .i32⟩
  | 50 => ⟨S16384x10, .i32⟩
  | 51 => ⟨S16384x10, .f32⟩
  | 52 => ⟨S_, .f32⟩
  | 53 => ⟨S16384x10, .f32⟩
  | 54 => ⟨S16384x10, .f32⟩
  | 55 => ⟨S_, .f32⟩
  | 56 => ⟨S16384x10, .f32⟩
  | 57 => ⟨S16384x10, .f32⟩
  | 58 => ⟨S_, .f32⟩
  | 59 => ⟨S16384x10, .f32⟩
  | 60 => ⟨S16384x10, .i1⟩
  | 61 => ⟨S_, .f32⟩
  | 62 => ⟨S_, .f32⟩
  | 63 => ⟨S16384x10, .f32⟩
  | 64 => ⟨S16384x10, .f32⟩
  | 65 => ⟨S_, .f32⟩
  | 66 => ⟨S16384x10x64, .f32⟩
  | 67 => ⟨S16384x10x1, .f32⟩
  | 68 => ⟨S16384x10x64, .f32⟩
  | 69 => ⟨S16384x10x64, .f32⟩
  | 70 => ⟨S16384x10x64, .f32⟩
  | 71 => ⟨S16384x10x64, .f32⟩
  | 72 => ⟨S16384x10x64, .f32⟩
  | 73 => ⟨S_, .f32⟩
  | 74 => ⟨S16384x10, .f32⟩
  | 75 => ⟨S16384x10x1, .f32⟩
  | 76 => ⟨S16384x10x1, .f32⟩
  | 77 => ⟨S_, .f32⟩
  | 78 => ⟨S16384x10x1, .f32⟩
  | 79 => ⟨S16384x10x1, .f32⟩
  | 80 => ⟨S16384x10x64, .f32⟩
  | 81 => ⟨S16384x10x64, .f32⟩
  | 82 => ⟨S16384x10x64, .f32⟩
  | 83 => ⟨S16384x1x64, .f32⟩
  | 84 => ⟨S16384x10x64, .f32⟩
  | 85 => ⟨S16384x10x64, .f32⟩
  | 86 => ⟨S16384x10x64, .f32⟩
  | 87 => ⟨S16384x10x64, .f32⟩
  | 88 => ⟨S_, .i32⟩
  | 89 => ⟨S16384x10, .i32⟩
  | 90 => ⟨S16384x10, .i1⟩
  | 91 => ⟨S16384x10, .i32⟩
  | 92 => ⟨S_, .i32⟩
  | 93 => ⟨S16384, .i32⟩
  | 94 => ⟨S16384, .f32⟩
  | 95 => ⟨S_, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .i1⟩
  | 104 => ⟨S_, .f32⟩
  | 105 => ⟨S_, .f32⟩
  | 106 => ⟨S16384, .f32⟩
  | 107 => ⟨S16384, .f32⟩
  | 108 => ⟨S_, .f32⟩
  | 109 => ⟨S16384x64, .f32⟩
  | 110 => ⟨S16384x1, .f32⟩
  | 111 => ⟨S16384x64, .f32⟩
  | 112 => ⟨S16384x64, .f32⟩
  | 113 => ⟨S64x64, .f32⟩
  | 114 => ⟨S16384x64, .f32⟩
  | 115 => ⟨S16384x64, .f32⟩
  | 116 => ⟨S16384x64, .f32⟩
  | 117 => ⟨S_, .i32⟩
  | 118 => ⟨S16384x50, .i32⟩
  | 119 => ⟨S16384x50, .i1⟩
  | 120 => ⟨S_, .i32⟩
  | 121 => ⟨S16384x50, .i32⟩
  | 122 => ⟨S16384x50, .i32⟩
  | 123 => ⟨S16384x50, .i32⟩
  | 124 => ⟨S16384x50x1, .i32⟩
  | 125 => ⟨S16384x50x64, .f32⟩
  | 126 => ⟨S16384x50x64, .f32⟩
  | 127 => ⟨S_, .i32⟩
  | _ => ⟨S16384x10, .i32⟩

abbrev hbmTy0_1 (i : Nat) : BufTy := match i % 128 with
  | 0 => ⟨S16384x50, .i32⟩
  | 1 => ⟨S16384x50, .i1⟩
  | 2 => ⟨S16384x50, .i32⟩
  | 3 => ⟨S_, .i32⟩
  | 4 => ⟨S16384, .i32⟩
  | 5 => ⟨S16384, .f32⟩
  | 6 => ⟨S_, .f32⟩
  | 7 => ⟨S16384, .f32⟩
  | 8 => ⟨S16384, .f32⟩
  | 9 => ⟨S_, .f32⟩
  | 10 => ⟨S16384, .f32⟩
  | 11 => ⟨S16384, .f32⟩
  | 12 => ⟨S_, .f32⟩
  | 13 => ⟨S16384, .f32⟩
  | 14 => ⟨S16384, .i1⟩
  | 15 => ⟨S_, .f32⟩
  | 16 => ⟨S_, .f32⟩
  | 17 => ⟨S16384, .f32⟩
  | 18 => ⟨S16384, .f32⟩
  | 19 => ⟨S_, .f32⟩
  | 20 => ⟨S16384x64, .f32⟩
  | 21 => ⟨S16384x1, .f32⟩
  | 22 => ⟨S16384x64, .f32⟩
  | 23 => ⟨S16384x64, .f32⟩
  | 24 => ⟨S16384x64, .f32⟩
  | 25 => ⟨S16384x64, .f32⟩
  | 26 => ⟨S_, .f32⟩
  | 27 => ⟨S16384, .f32⟩
  | _ => ⟨S16384x10, .i32⟩

abbrev hbmTy (i : Nat) : BufTy := match i / 128 with
  | 0 => hbmTy0_0 i
  | 1 => hbmTy0_1 i
  | _ => ⟨S16384x10, .i32⟩

abbrev bufTy : (tb : Table) → Fin (tcTables nBuf tb) → BufTy
  | .hbm, ⟨i, _⟩ => hbmTy i
  | _, _ => ⟨S16384x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_call1_v0 : Ref sig .tc := ⟨.hbm, 105, rfl⟩
abbrev main_call1_v1 : Ref sig .tc := ⟨.hbm, 106, rfl⟩
abbrev main_v71 : Ref sig .tc := ⟨.hbm, 107, rfl⟩
abbrev main_cst_19 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_c_21 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_23 : Ref sig .tc := ⟨.hbm, 131, rfl⟩
abbrev main_v91 : Ref sig .tc := ⟨.hbm, 132, rfl⟩
abbrev main_v92 : Ref sig .tc := ⟨.hbm, 133, rfl⟩
abbrev main_cst_24 : Ref sig .tc := ⟨.hbm, 134, rfl⟩
abbrev main_v93 : Ref sig .tc := ⟨.hbm, 135, rfl⟩
abbrev main_v94 : Ref sig .tc := ⟨.hbm, 136, rfl⟩
abbrev main_cst_25 : Ref sig .tc := ⟨.hbm, 137, rfl⟩
abbrev main_v95 : Ref sig .tc := ⟨.hbm, 138, rfl⟩
abbrev main_v96 : Ref sig .tc := ⟨.hbm, 139, rfl⟩
abbrev main_cst_26 : Ref sig .tc := ⟨.hbm, 140, rfl⟩
abbrev main_v97 : Ref sig .tc := ⟨.hbm, 141, rfl⟩
abbrev main_v98 : Ref sig .tc := ⟨.hbm, 142, rfl⟩
abbrev main_cst_27 : Ref sig .tc := ⟨.hbm, 143, rfl⟩
abbrev main_call2_v0 : Ref sig .tc := ⟨.hbm, 144, rfl⟩
abbrev main_call2_v1 : Ref sig .tc := ⟨.hbm, 145, rfl⟩
abbrev main_v99 : Ref sig .tc := ⟨.hbm, 146, rfl⟩
abbrev main_cst_28 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_29 : Ref sig .tc := ⟨.hbm, 154, rfl⟩
abbrev main_v106 : Ref sig .tc := ⟨.hbm, 155, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  bcast_S_S16384x10x10 : S_.BroadcastsInDim S16384x10x10 (![] : Fin 0 → Fin S16384x10x10.rank)
  bcast_S16384x10x10_S16384x10x10x1_0_1_2 : S16384x10x10.BroadcastsInDim S16384x10x10x1 (![0, 1, 2] : Fin 3 → Fin S16384x10x10x1.rank)
  bcast_S16384x10x64_S16384x10x1x64_0_1_3 : S16384x10x64.BroadcastsInDim S16384x10x1x64 (![0, 1, 3] : Fin 3 → Fin S16384x10x1x64.rank)
  bcast_S16384x10x1x64_S16384x10x10x64_0_1_2_3 : S16384x10x1x64.BroadcastsInDim S16384x10x10x64 (![0, 1, 2, 3] : Fin 4 → Fin S16384x10x10x64.rank)
  natLt_1_32 : 1 < 32
  reducesTo_S16384x10x10_S16384x10_d2 : S16384x10x10.ReducesTo [2] S16384x10
  h_S_ : 0 < S_.numel
  reducesTo_S16384x10x10x64_S16384x10x64_d2 : S16384x10x10x64.ReducesTo [2] S16384x10x64
  bcast_S16384x10x1_S16384x10x64_0_1_2 : S16384x10x1.BroadcastsInDim S16384x10x64 (![0, 1, 2] : Fin 3 → Fin S16384x10x64.rank)
  reducesTo_S16384x10x64_S16384x10_d2 : S16384x10x64.ReducesTo [2] S16384x10
  bcast_S_S16384x10x1 : S_.BroadcastsInDim S16384x10x1 (![] : Fin 0 → Fin S16384x10x1.rank)
  bcast_S16384x64_S16384x1x64_0_2 : S16384x64.BroadcastsInDim S16384x1x64 (![0, 2] : Fin 2 → Fin S16384x1x64.rank)
  bcast_S16384x1x64_S16384x10x64_0_1_2 : S16384x1x64.BroadcastsInDim S16384x10x64 (![0, 1, 2] : Fin 3 → Fin S16384x10x64.rank)
  reducesTo_S16384x10_S16384_d1 : S16384x10.ReducesTo [1] S16384
  reducesTo_S16384x10x64_S16384x64_d1 : S16384x10x64.ReducesTo [1] S16384x64
  bcast_S16384x1_S16384x64_0_1 : S16384x1.BroadcastsInDim S16384x64 (![0, 1] : Fin 2 → Fin S16384x64.rank)
  transposes_S64x64_S64x64_1_0 : S64x64.Transposes [1, 0] S64x64
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50_S16384_d1 : S16384x50.ReducesTo [1] S16384
  reducesTo_S16384x50x64_S16384x64_d1 : S16384x50x64.ReducesTo [1] S16384x64
  reducesTo_S16384x64_S16384_d1 : S16384x64.ReducesTo [1] S16384
  gather_S2001x64_S16384x1_S16384x64_1_0_n_n_0_1_164_wf : GatherDims.WF S2001x64 S16384x1 S16384x64 [1] [0] [] [0] [] 1 ![1, 64]
  gather_S100001x64_S16384x10x1_S16384x10x64_2_0_n_n_0_2_164_wf : GatherDims.WF S100001x64 S16384x10x1 S16384x10x64 [2] [0] [] [0] [] 2 ![1, 64]
  gather_S2001x64_S16384x10x10x1_S16384x10x10x64_3_0_n_n_0_3_164_wf : GatherDims.WF S2001x64 S16384x10x10x1 S16384x10x10x64 [3] [0] [] [0] [] 3 ![1, 64]
  dot_S16384x10x10x64_S64x64_S16384x10x10x64_3_1_012_0_n_n_wf : DotDims.WF S16384x10x10x64 S64x64 S16384x10x10x64 [3] [1] [0, 1, 2] [0] [] []
  dot_S16384x10x64_S64x64_S16384x10x64_2_1_01_0_n_n_wf : DotDims.WF S16384x10x64 S64x64 S16384x10x64 [2] [1] [0, 1] [0] [] []
  dot_S16384x64_S64x64_S16384x64_1_0_0_1_n_n_wf : DotDims.WF S16384x64 S64x64 S16384x64 [1] [0] [0] [1] [] []
  gather_S100001x64_S16384x50x1_S16384x50x64_2_0_n_n_0_2_164_wf : GatherDims.WF S100001x64 S16384x50x1 S16384x50x64 [2] [0] [] [0] [] 2 ![1, 64]
  dot_S16384x50x64_S64x64_S16384x50x64_2_1_01_0_n_n_wf : DotDims.WF S16384x50x64 S64x64 S16384x50x64 [2] [1] [0, 1] [0] [] []

variable [Facts₀]

def gather_S2001x64_S16384x1_S16384x64_1_0_n_n_0_1_164 : GatherDims S2001x64 S16384x1 S16384x64 where
  offsetDims := [1]
  collapsedSliceDims := [0]
  operandBatchingDims := []
  startIndicesBatchingDims := []
  startIndexMap := [0]
  indexVectorDim := 1
  sliceSizes := ![1, 64]
  wf := gather_S2001x64_S16384x1_S16384x64_1_0_n_n_0_1_164_wf
def gather_S100001x64_S16384x10x1_S16384x10x64_2_0_n_n_0_2_164 : GatherDims S100001x64 S16384x10x1 S16384x10x64 where
  offsetDims := [2]
  collapsedSliceDims := [0]
  operandBatchingDims := []
  startIndicesBatchingDims := []
  startIndexMap := [0]
  indexVectorDim := 2
  sliceSizes := ![1, 64]
  wf := gather_S100001x64_S16384x10x1_S16384x10x64_2_0_n_n_0_2_164_wf
def gather_S2001x64_S16384x10x10x1_S16384x10x10x64_3_0_n_n_0_3_164 : GatherDims S2001x64 S16384x10x10x1 S16384x10x10x64 where
  offsetDims := [3]
  collapsedSliceDims := [0]
  operandBatchingDims := []
  startIndicesBatchingDims := []
  startIndexMap := [0]
  indexVectorDim := 3
  sliceSizes := ![1, 64]
  wf := gather_S2001x64_S16384x10x10x1_S16384x10x10x64_3_0_n_n_0_3_164_wf
def dot_S16384x10x10x64_S64x64_S16384x10x10x64_3_1_012_0_n_n : DotDims S16384x10x10x64 S64x64 S16384x10x10x64 where
  lhsContracting := [3]
  rhsContracting := [1]
  lhsNonContracting := [0, 1, 2]
  rhsNonContracting := [0]
  lhsBatch := []
  rhsBatch := []
  wf := dot_S16384x10x10x64_S64x64_S16384x10x10x64_3_1_012_0_n_n_wf
def dot_S16384x10x64_S64x64_S16384x10x64_2_1_01_0_n_n : DotDims S16384x10x64 S64x64 S16384x10x64 where
  lhsContracting := [2]
  rhsContracting := [1]
  lhsNonContracting := [0, 1]
  rhsNonContracting := [0]
  lhsBatch := []
  rhsBatch := []
  wf := dot_S16384x10x64_S64x64_S16384x10x64_2_1_01_0_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S100001x64_S16384x50x1_S16384x50x64_2_0_n_n_0_2_164 : GatherDims S100001x64 S16384x50x1 S16384x50x64 where
  offsetDims := [2]
  collapsedSliceDims := [0]
  operandBatchingDims := []
  startIndicesBatchingDims := []
  startIndexMap := [0]
  indexVectorDim := 2
  sliceSizes := ![1, 64]
  wf := gather_S100001x64_S16384x50x1_S16384x50x64_2_0_n_n_0_2_164_wf
def dot_S16384x50x64_S64x64_S16384x50x64_2_1_01_0_n_n : DotDims S16384x50x64 S64x64 S16384x50x64 where
  lhsContracting := [2]
  rhsContracting := [1]
  lhsNonContracting := [0, 1]
  rhsNonContracting := [0]
  lhsBatch := []
  rhsBatch := []
  wf := dot_S16384x50x64_S64x64_S16384x50x64_2_1_01_0_n_n_wf

class Facts : Prop extends Facts₀ where

variable [Facts]
-- ==== Proof.RefStages.lean ====
/-
  The host stages both programs share, and the reference's result as one term of its arguments.

  Both programs look rows of the two tables up by the same index arrays (negative indices wrapped, then a gather)
  and compute the same three arrays of averaging weights 1/(count + 1e-8), cut to 0 where that is at least 1e8,
  from the index arrays alone. The reference then applies the linear maps to every gathered neighbour, adds over
  the neighbour axis, scales, activates and normalises, and repeats the pattern for the second layer and the user
  side; its result is the row-wise dot product of the two activated sides.
-/
import proofs.«121466_j80178449482027_2_alg».proof.ReferenceIdeal
import proofs.«121466_j80178449482027_2_alg».proof.Proof.Gen.ReferenceIdeal
import Idealize.ShloMosaic.PureOps.Ideal
import Idealize.ShloMosaic.PureOps.Ideal.Laws

noncomputable section

namespace Cert.Hgnn.Ref

open Cert.ReferenceIdeal Idealize.ShloMosaic
open Cert.ReferenceIdeal.Facts₀ Cert.ReferenceIdeal.Facts

/-- Index normalisation: a negative index has the axis extent added. -/
def wrap {s : Shape} (x : IVec s 32) (n : BitVec 32) (hb : S_.BroadcastsInDim s (![] : Fin 0 → Fin s.rank)) : IVec s 32 :=
  select (cmpi .slt x (broadcastInDim s ![] hb (constantI S_ 32 0#32))) (addi x (broadcastInDim s ![] hb (constantI S_ 32 n))) x

/-- The averaging weight over the reduced axes: 1/(number of non-zero indices + 1e-8), 0 where that reaches 1e8. -/
def avgW {s t : Shape} (x : IVec s 32) (hbs : S_.BroadcastsInDim s (![] : Fin 0 → Fin s.rank)) {axes : List (Fin s.rank)}
    (hr : s.ReducesTo axes t) (hu : 0 < S_.numel) (hbt : S_.BroadcastsInDim t (![] : Fin 0 → Fin t.rank)) (h132 : 1 < 32) :
    FVec Ideal t .f32 :=
  select
    (cmpf .oge
      (Host.divf (broadcastInDim t ![] hbt (constant (F := Ideal) S_ .f32 0x3F800000#32))
        (addf (sitofp .f32 (Host.reduce IntOp.addi (extui 32 (cmpi .ne x (broadcastInDim s ![] hbs (constantI S_ 32 0#32))) h132)
            (constantI S_ 32 0#32) hr hu))
          (broadcastInDim t ![] hbt (constant (F := Ideal) S_ .f32 0x322BCC77#32))))
      (broadcastInDim t ![] hbt (constant (F := Ideal) S_ .f32 0x4CBEBC20#32)))
    (broadcastInDim t ![] hbt (id (constant (F := Ideal) S_ .f32 0x00000000#32)))
    (Host.divf (broadcastInDim t ![] hbt (constant (F := Ideal) S_ .f32 0x3F800000#32))
      (addf (sitofp .f32 (Host.reduce IntOp.addi (extui 32 (cmpi .ne x (broadcastInDim s ![] hbs (constantI S_ 32 0#32))) h132)
          (constantI S_ 32 0#32) hr hu))
        (broadcastInDim t ![] hbt (constant (F := Ideal) S_ .f32 0x322BCC77#32))))

/-- First-hop rows of the first table. -/
def ES (x0 : IVec S16384x10 32) (x4 : FVec Ideal S100001x64 .f32) : FVec Ideal S16384x10x64 .f32 :=
  Host.gather gather_S100001x64_S16384x10x1_S16384x10x64_2_0_n_n_0_2_164 x4
    (broadcastInDim S16384x10x1 ![0, 1] bcast_S16384x10_S16384x10x1_0_1 (wrap x0 100001#32 bcast_S_S16384x10))

/-- Second-hop rows of the second table. -/
def ED (x1 : IVec S16384x10x10 32) (x5 : FVec Ideal S2001x64 .f32) : FVec Ideal S16384x10x10x64 .f32 :=
  Host.gather gather_S2001x64_S16384x10x10x1_S16384x10x10x64_3_0_n_n_0_3_164 x5
    (broadcastInDim S16384x10x10x1 ![0, 1, 2] bcast_S16384x10x10_S16384x10x10x1_0_1_2 (wrap x1 2001#32 bcast_S_S16384x10x10))

/-- The target rows of the second table. -/
def TD (x3 : IVec S16384 32) (x5 : FVec Ideal S2001x64 .f32) : FVec Ideal S16384x64 .f32 :=
  Host.gather gather_S2001x64_S16384x1_S16384x64_1_0_n_n_0_1_164 x5
    (broadcastInDim S16384x1 ![0] bcast_S16384_S16384x1_0 (wrap x3 2001#32 bcast_S_S16384))

/-- The user side's rows of the first table. -/
def EU (x2 : IVec S16384x50 32) (x4 : FVec Ideal S100001x64 .f32) : FVec Ideal S16384x50x64 .f32 :=
  Host.gather gather_S100001x64_S16384x50x1_S16384x50x64_2_0_n_n_0_2_164 x4
    (broadcastInDim S16384x50x1 ![0, 1] bcast_S16384x50_S16384x50x1_0_1 (wrap x2 100001#32 bcast_S_S16384x50))

def W2 (x1 : IVec S16384x10x10 32) : FVec Ideal S16384x10 .f32 :=
  avgW x1 bcast_S_S16384x10x10 reducesTo_S16384x10x10_S16384x10_d2 h_S_ bcast_S_S16384x10 natLt_1_32
def W1 (x0 : IVec S16384x10 32) : FVec Ideal S16384 .f32 :=
  avgW x0 bcast_S_S16384x10 reducesTo_S16384x10_S16384_d1 h_S_ bcast_S_S16384 natLt_1_32
def WU (x2 : IVec S16384x50 32) : FVec Ideal S16384 .f32 :=
  avgW x2 bcast_S_S16384x50 reducesTo_S16384x50_S16384_d1 h_S_ bcast_S_S16384 natLt_1_32

/-- The zero scalar every host sum starts from. -/
abbrev z0 : FVec Ideal S_ .f32 := constant (F := Ideal) S_ .f32 0x00000000#32

/-! Layout helpers: an array repeated along a new axis. -/

/-- A first-hop vector repeated for each of its second-hop neighbours: (b,k,j,d) ↦ es (b,k,d). -/
def repJ {α : Type} (es : S16384x10x64.Idx → α) : S16384x10x10x64.Idx → α :=
  broadcastInDim S16384x10x10x64 ![0, 1, 2, 3] bcast_S16384x10x1x64_S16384x10x10x64_0_1_2_3
    (broadcastInDim S16384x10x1x64 ![0, 1, 3] bcast_S16384x10x64_S16384x10x1x64_0_1_3 es)

/-- A per-(row, neighbour) number kept with a unit last axis: (b,k,u) ↦ w (b,k). -/
def colK {α : Type} (w : S16384x10.Idx → α) : S16384x10x1.Idx → α :=
  broadcastInDim S16384x10x1 ![0, 1] bcast_S16384x10_S16384x10x1_0_1 w

/-- ... spread over the 64 coordinates: (b,k,e) ↦ c (b,k,0). -/
def spreadE {α : Type} (c : S16384x10x1.Idx → α) : S16384x10x64.Idx → α :=
  broadcastInDim S16384x10x64 ![0, 1, 2] bcast_S16384x10x1_S16384x10x64_0_1_2 c

/-- The target vector repeated for each first-hop neighbour: (b,k,d) ↦ td (b,d). -/
def repK {α : Type} (td : S16384x64.Idx → α) : S16384x10x64.Idx → α :=
  broadcastInDim S16384x10x64 ![0, 1, 2] bcast_S16384x1x64_S16384x10x64_0_1_2
    (broadcastInDim S16384x1x64 ![0, 2] bcast_S16384x64_S16384x1x64_0_2 td)

/-- A per-row number spread over the row's 64 coordinates: (b,e) ↦ w b. -/
def rowE {α : Type} (w : S16384.Idx → α) : S16384x64.Idx → α :=
  broadcastInDim S16384x64 ![0, 1] bcast_S16384x1_S16384x64_0_1 (broadcastInDim S16384x1 ![0] bcast_S16384_S16384x1_0 w)

/-- The normalisation bound as a [16384,10,1] array. -/
def epsCol : FVec Ideal S16384x10x1 .f32 :=
  broadcastInDim S16384x10x1 ![] bcast_S_S16384x10x1 (constant (F := Ideal) S_ .f32 0x2B8CBCCC#32)

/-- The two maps applied to every second-hop neighbour. -/
def msg4 (es : FVec Ideal S16384x10x64 .f32) (ed : FVec Ideal S16384x10x10x64 .f32) (x7 x8 : FVec Ideal S64x64 .f32) :
    FVec Ideal S16384x10x10x64 .f32 :=
  addf (Host.dotGeneral dot_S16384x10x10x64_S64x64_S16384x10x10x64_3_1_012_0_n_n none ed x7)
    (Host.dotGeneral dot_S16384x10x10x64_S64x64_S16384x10x10x64_3_1_012_0_n_n none
      (mulf ed (repJ es)) x8)

/-- The first layer's activation. -/
def act1 (es : FVec Ideal S16384x10x64 .f32) (ed : FVec Ideal S16384x10x10x64 .f32) (w2 : FVec Ideal S16384x10 .f32)
    (x7 x8 : FVec Ideal S64x64 .f32) : FVec Ideal S16384x10x64 .f32 :=
  Host.tanh (addf (Host.dotGeneral dot_S16384x10x64_S64x64_S16384x10x64_2_1_01_0_n_n none es x7)
    (mulf (Host.reduceAdd (msg4 es ed x7 x8) z0 reducesTo_S16384x10x10x64_S16384x10x64_d2 h_S_)
      (spreadE (colK w2))))

/-- ... divided by its bounded Euclidean length. -/
def norm1 (p : FVec Ideal S16384x10x64 .f32) : FVec Ideal S16384x10x64 .f32 :=
  Host.divf p (spreadE
    (maximumf (Host.sqrt (colK (Host.reduceAdd (mulf p p) z0 reducesTo_S16384x10x64_S16384x10_d2 h_S_))) epsCol))

/-- The second layer's activation. -/
def act2 (u : FVec Ideal S16384x10x64 .f32) (td : FVec Ideal S16384x64 .f32) (w1 : FVec Ideal S16384 .f32)
    (x9 x10 : FVec Ideal S64x64 .f32) : FVec Ideal S16384x64 .f32 :=
  Host.tanh (addf
    (mulf (Host.reduceAdd
        (addf (Host.dotGeneral dot_S16384x10x64_S64x64_S16384x10x64_2_1_01_0_n_n none u x9)
          (Host.dotGeneral dot_S16384x10x64_S64x64_S16384x10x64_2_1_01_0_n_n none
            (mulf u (repK td)) x10))
        z0 reducesTo_S16384x10x64_S16384x64_d1 h_S_)
      (rowE w1))
    (Host.dotGeneral dot_S16384x64_S64x64_S16384x64_1_0_0_1_n_n none td (transpose S64x64 [1, 0] x9 transposes_S64x64_S64x64_1_0)))

/-- The user side's activation. -/
def actU (eu : FVec Ideal S16384x50x64 .f32) (wu : FVec Ideal S16384 .f32) (x6 : FVec Ideal S64x64 .f32) : FVec Ideal S16384x64 .f32 :=
  Host.tanh (mulf (Host.reduceAdd (Host.dotGeneral dot_S16384x50x64_S64x64_S16384x50x64_2_1_01_0_n_n none eu x6) z0
      reducesTo_S16384x50x64_S16384x64_d1 h_S_)
    (rowE wu))

/-- The reference's result from the shared stages. -/
def score (es : FVec Ideal S16384x10x64 .f32) (ed : FVec Ideal S16384x10x10x64 .f32) (td : FVec Ideal S16384x64 .f32)
    (eu : FVec Ideal S16384x50x64 .f32) (w2 : FVec Ideal S16384x10 .f32) (w1 wu : FVec Ideal S16384 .f32)
    (x6 x7 x8 x9 x10 : FVec Ideal S64x64 .f32) : FVec Ideal S16384 .f32 :=
  Host.reduceAdd (mulf (act2 (norm1 (act1 es ed w2 x7 x8)) td w1 x9 x10) (actU eu wu x6)) z0 reducesTo_S16384x64_S16384_d1 h_S_

/-- The reference's result as one term of its eleven arguments. -/
def result (x0 : IVec S16384x10 32) (x1 : IVec S16384x10x10 32) (x2 : IVec S16384x50 32) (x3 : IVec S16384 32)
    (x4 : FVec Ideal S100001x64 .f32) (x5 : FVec Ideal S2001x64 .f32) (x6 x7 x8 x9 x10 : FVec Ideal S64x64 .f32) :
    FVec Ideal S16384 .f32 :=
  score (ES x0 x4) (ED x1 x5) (TD x3 x5) (EU x2 x4) (W2 x1) (W1 x0) (WU x2) x6 x7 x8 x9 x10

end Cert.Hgnn.Ref

end
-- ==== Proof.Prologue.lean ====
/-
  The arrays the kernel's region finds.

  Before the region the kernel's @main runs the same host stages as the reference on the same arguments: the four
  gathers, the three arrays of averaging weights, the two sums of gathered rows over the inner neighbour axis, and
  five changes of float format (the identity on the extended reals). Each window's array is that stage's value.
-/
import proofs.«121466_j80178449482027_2_alg».proof.Proof.Gen.KernelIdeal.Frame
import proofs.«121466_j80178449482027_2_alg».proof.Proof.RefStages
import Idealize.ShloMosaic.Lib.StableHlo.Run

set_option maxRecDepth 16384

noncomputable section

namespace Cert.Hgnn.Prologue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Reads one buffer after the host operations that precede the region. -/
macro "read_stage" : tactic => `(tactic| (
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl))

set_option maxHeartbeats 8000000 in
/-- Window 0: the first-hop rows of the first table. -/
theorem v42 (c : Dev nD) : (V m c main_v42 : S16384x10x64.Idx → EReal) = Ref.ES (m ((c : Thread nD τ).loc main_arg0)) (m ((c : Thread nD τ).loc main_arg4)) := by read_stage

set_option maxHeartbeats 8000000 in
/-- Window 1: the second-hop rows of the second table, added over the second-hop axis. -/
theorem v50 (c : Dev nD) : (V m c main_v50 : S16384x10x64.Idx → EReal)
    = Host.reduceAdd (Ref.ED (m ((c : Thread nD τ).loc main_arg1)) (m ((c : Thread nD τ).loc main_arg5))) Ref.z0 reducesTo_S16384x10x10x64_S16384x10x64_d2 h_S_ := by read_stage

set_option maxHeartbeats 8000000 in
/-- Window 2: the target rows. -/
theorem v57 (c : Dev nD) : (V m c main_v57 : S16384x64.Idx → EReal) = Ref.TD (m ((c : Thread nD τ).loc main_arg3)) (m ((c : Thread nD τ).loc main_arg5)) := by read_stage

set_option maxHeartbeats 8000000 in
/-- Window 3: the user-side rows, added over their axis. -/
theorem v65 (c : Dev nD) : (V m c main_v65 : S16384x64.Idx → EReal)
    = Host.reduceAdd (Ref.EU (m ((c : Thread nD τ).loc main_arg2)) (m ((c : Thread nD τ).loc main_arg4))) Ref.z0 reducesTo_S16384x50x64_S16384x64_d1 h_S_ := by read_stage

set_option maxHeartbeats 8000000 in
/-- Windows 4, 5, 6: the three averaging weights. -/
theorem v11 (c : Dev nD) : (V m c main_v11 : S16384x10.Idx → EReal) = Ref.W2 (m ((c : Thread nD τ).loc main_arg1)) := by read_stage
set_option maxHeartbeats 8000000 in
theorem v23 (c : Dev nD) : (V m c main_v23 : S16384.Idx → EReal) = Ref.W1 (m ((c : Thread nD τ).loc main_arg0)) := by read_stage
set_option maxHeartbeats 8000000 in
theorem v35 (c : Dev nD) : (V m c main_v35 : S16384.Idx → EReal) = Ref.WU (m ((c : Thread nD τ).loc main_arg2)) := by read_stage

set_option maxHeartbeats 8000000 in
/-- Windows 7 to 11: the five weight matrices (a change of float format is the identity). -/
theorem v66 (c : Dev nD) : (V m c main_v66 : S64x64.Idx → EReal) = (m ((c : Thread nD τ).loc main_arg6)) := by read_stage
set_option maxHeartbeats 8000000 in
theorem v67 (c : Dev nD) : (V m c main_v67 : S64x64.Idx → EReal) = (m ((c : Thread nD τ).loc main_arg7)) := by read_stage
set_option maxHeartbeats 8000000 in
theorem v68 (c : Dev nD) : (V m c main_v68 : S64x64.Idx → EReal) = (m ((c : Thread nD τ).loc main_arg8)) := by read_stage
set_option maxHeartbeats 8000000 in
theorem v69 (c : Dev nD) : (V m c main_v69 : S64x64.Idx → EReal) = (m ((c : Thread nD τ).loc main_arg9)) := by read_stage
set_option maxHeartbeats 8000000 in
theorem v70 (c : Dev nD) : (V m c main_v70 : S64x64.Idx → EReal) = (m ((c : Thread nD τ).loc main_arg10)) := by read_stage

end Cert.Hgnn.Prologue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibPairLayout.lean ====
/-
  Arrays indexed by a pair of rows, read at an entry.

  A pairwise computation holds, for a block of `a` rows against `b` rows, one vector of `c` numbers per
  pair: an array of shape [a, b, c]. Such an array is built from a per-row matrix [a, c] (constant along
  the second axis), from a per-row matrix [b, c] (constant along the first), or from one vector [c]
  (constant along both); it is flattened to [a·b, c], pair (p, q) going to row p·b + q, for a matrix
  product over all pairs at once, and cut back. Each of these is read here at an entry. Generic in the sizes.
-/
import Idealize.ShloMosaic.Lib.ValueIdx
import Idealize.ShloMosaic.Lib.ValueLayout
import Idealize.ShloMosaic.Lib.Pipeline.Value

noncomputable section

namespace Cert.PairLayout

open Idealize.ShloMosaic Idealize.ShloMosaic.ValueIdx

variable {α : Type} {a b c n : ℕ}

/-- Pair (p, q) is row p·b + q of the flattened array. -/
theorem flat_lt (hn : n = a * b) (p : Fin a) (q : Fin b) : p.val * b + q.val < n := by
  have hp := p.isLt
  have hq := q.isLt
  calc p.val * b + q.val < p.val * b + b := by omega
    _ = (p.val + 1) * b := by rw [Nat.add_mul, Nat.one_mul]
    _ ≤ a * b := Nat.mul_le_mul_right b hp
    _ = n := hn.symm

/-- The row of the flattened array that holds pair (p, q). -/
abbrev flatRow (hn : n = a * b) (p : Fin a) (q : Fin b) : Fin n := ⟨p.val * b + q.val, flat_lt hn p q⟩

/-- A matrix [a, c] spread along a new second axis reads, at (p, q, o), its entry (p, o). -/
theorem spread_first (P : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (o : Fin c) :
    broadcastTo ⟨3, ![a, b, c]⟩ (shapeCast ⟨3, ![a, 1, c]⟩ P h1) h2 (ix3 p q o) = P (ix2 p o) := by
  refine (broadcastTo_apply _ h2 (ix3 p q o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply P h1 _ _ (by
      rw [Shape.rowMajor_val_two, Shape.rowMajor_val_three]
      show p.val * c + o.val = (p.val * 1 + 0) * c + o.val
      rw [Nat.mul_one, Nat.add_zero])

/-- A matrix [b, c] spread along a new first axis reads, at (p, q, o), its entry (q, o). -/
theorem spread_second (Q : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (q : Fin b) (o : Fin c) :
    broadcastTo ⟨3, ![a, b, c]⟩ (shapeCast ⟨3, ![1, b, c]⟩ Q h1) h2 (ix3 p q o) = Q (ix2 q o) := by
  refine (broadcastTo_apply _ h2 (ix3 p q o) (ix3 (0 : Fin 1) q o) fun ax => ?_).trans ?_
  · match ax with
    | ⟨0, _⟩ => rfl
    | ⟨1, _⟩ =>
      show q.val = if b = 1 then 0 else q.val
      split
      · have := q.isLt; omega
      · rfl
    | ⟨2, _⟩ =>
      show o.val = if c = 1 then 0 else o.val
      split
      · have := o.isLt; omega
      · rfl
  · exact shapeCast_ab_1ab_apply Q h1 0 q o

/-- A vector [c] spread over both pair axes reads, at (p, q, o), its entry o. -/
theorem spread_both (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (o : Fin c) :
    broadcastTo ⟨3, ![a, b, c]⟩ (shapeCast ⟨3, ![1, 1, c]⟩ v h1) h2 (ix3 p q o) = v (ix1 o) := by
  refine (broadcastTo_apply _ h2 (ix3 p q o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply v h1 _ _ (by
      rw [Shape.rowMajor_val_one, Shape.rowMajor_val_three]
      show o.val = (0 * 1 + 0) * c + o.val
      omega)

/-- A vector [c] spread over the rows of a matrix [n, c] reads, at (r, o), its entry o. -/
theorem spread_rows (v : (⟨1, ![c]⟩ : Shape).Idx → α)
    (h1 : (⟨1, ![c]⟩ : Shape).ShapeCasts ⟨2, ![1, c]⟩) (h2 : (⟨2, ![1, c]⟩ : Shape).Broadcasts ⟨2, ![n, c]⟩)
    (r : Fin n) (o : Fin c) :
    broadcastTo ⟨2, ![n, c]⟩ (shapeCast ⟨2, ![1, c]⟩ v h1) h2 (ix2 r o) = v (ix1 o) :=
  (broadcastTo_1b_ab_apply _ h2 r o).trans (shapeCast_a_1a_apply v h1 0 o)

/-- The pair array flattened: row p·b + q holds pair (p, q). -/
theorem flatten_apply (X : (⟨3, ![a, b, c]⟩ : Shape).Idx → α) (hn : n = a * b)
    (h : (⟨3, ![a, b, c]⟩ : Shape).ShapeCasts ⟨2, ![n, c]⟩) (p : Fin a) (q : Fin b) (o : Fin c) :
    shapeCast ⟨2, ![n, c]⟩ X h (ix2 (flatRow hn p q) o) = X (ix3 p q o) :=
  shapeCast_apply X h _ _ (by
    rw [Shape.rowMajor_val_three, Shape.rowMajor_val_two]
    rfl)

/-- A matrix over all pairs cut back to the pair axes: pair (p, q) is row p·b + q. -/
theorem unflatten_apply (Y : (⟨2, ![n, c]⟩ : Shape).Idx → α) (hn : n = a * b)
    (h : (⟨2, ![n, c]⟩ : Shape).ShapeCasts ⟨3, ![a, b, c]⟩) (p : Fin a) (q : Fin b) (o : Fin c) :
    shapeCast ⟨3, ![a, b, c]⟩ Y h (ix3 p q o) = Y (ix2 (flatRow hn p q) o) :=
  shapeCast_apply Y h _ _ (by
    rw [Shape.rowMajor_val_three, Shape.rowMajor_val_two]
    rfl)

end Cert.PairLayout

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.LibNeighPool.lean ====
/-
  A layer that pools over neighbours, entry by entry, on the extended reals.

  Every row p of a batch has K neighbours, each a vector of D numbers. A neighbour's vector goes through an
  affine layer and the rectifier (`hidden`); the K results of a row are added (`nsum`) and divided by a
  constant (`pooled`: the mean when the constant is K); the pooled rows are multiplied by a second weight
  matrix, the product of the row's own vector with a third matrix is added, and the rectifier is taken once
  more (`layer`). Nothing is asked of the entries: no law used here fails at an infinity.

  The vector unit computes `nsum` by flattening the [A, K, D] block to [A·K, D] (neighbour k of row p is row
  p·K + k), one matrix product into zero, a bias row broadcast over the rows, a maximum with a zero splat,
  cutting the result back to [A, K, H] and summing over the middle axis; that is `nsum` at every entry
  (`kernel_nsum`). Computed on a block of rows, `layer` gives the rows of the whole (`layer_rows`).
  Generic in all sizes.
-/
import proofs.«121466_j80178449482027_2_alg».proof.Proof.LibDense
import proofs.«121466_j80178449482027_2_alg».proof.Proof.LibPairLayout

noncomputable section

open scoped BigOperators

namespace Cert.NeighPool

open Idealize.ShloMosaic Idealize.ShloMosaic.ValueIdx Cert.Dense Cert.PairLayout

variable {A B K D H O E n : ℕ}

/-- An array of extended reals indexed by (row, neighbour, coordinate). -/
abbrev Ten (a b c : ℕ) : Type := (⟨3, ![a, b, c]⟩ : Shape).Idx → EReal

/-- Neighbour k of row p after the affine layer and the rectifier, at coordinate h:
    max(Σ_d X(p,k,d)·W(d,h) + β(h), 0). -/
def hidden (X : Ten A K D) (W : Mat D H) (β : Fin H → EReal) (p : Fin A) (k : Fin K) (h : Fin H) : EReal :=
  max ((∑ d : Fin D, X (ix3 p k d) * W (ix2 d h)) + β h) 0

/-- The sum over a row's neighbours. -/
def nsum (X : Ten A K D) (W : Mat D H) (β : Fin H → EReal) : Mat A H :=
  fun i => ∑ k : Fin K, hidden X W β (i 0) k (i 1)

/-- The sum divided by a constant. -/
def pooled (X : Ten A K D) (W : Mat D H) (β : Fin H → EReal) (c : EReal) : Mat A H :=
  fun i => Ideal.div (nsum X W β i) c

/-- The row's own projection plus the pooled projection, rectified. -/
def layer (S : Mat A E) (Ws : Mat E O) (P : Mat A H) (Wn : Mat H O) : Mat A O :=
  relu (fun i => mm S Ws i + mm P Wn i)

/-- The index over (p, q) with k inserted on the middle axis is (p, k, q). -/
theorem lift_mid (h : (⟨3, ![A, K, H]⟩ : Shape).Reduces [1] ⟨2, ![A, H]⟩) (p : Fin A) (q : Fin H) (k : Fin K) :
    h.lift (ix2 p q) k = ix3 p k q :=
  funext fun c => Fin.ext (by
    match c with
    | ⟨0, _⟩ => rfl
    | ⟨1, _⟩ => rfl
    | ⟨2, _⟩ => rfl)

/-- A sum over the middle axis of an [A, K, H] array, read at (p, q), is the sum over k of the entries (p, k, q). -/
theorem sum_mid (Y : FVec Ideal ⟨3, ![A, K, H]⟩ .f32) (h : (⟨3, ![A, K, H]⟩ : Shape).Reduces [1] ⟨2, ![A, H]⟩)
    (hφ : FKind.Formats .f32) (hacc : (0x00000000#32 : BitVec 32) = FKind.add.neutral .f32 hφ) (p : Fin A) (q : Fin H) :
    multiReduction .add [1] ⟨2, ![A, H]⟩ Y 0x00000000#32 h hφ hacc (ix2 p q) = ∑ k : Fin K, Y (ix3 p k q) :=
  (Ideal.multiReduction_add_single Y 0x00000000#32 h hφ hacc (ix2 p q)).trans
    (Finset.sum_congr rfl fun k _ => congrArg Y (lift_mid h p q k))

/-- The vector unit's neighbour sum: flatten, one product into zero, the bias row over the rows, the rectifier,
    cut back, sum over the neighbours. -/
theorem kernel_nsum (X : FVec Ideal ⟨3, ![A, K, D]⟩ .f32) (W : FVec Ideal ⟨2, ![D, H]⟩ .f32) (b : FVec Ideal ⟨2, ![1, H]⟩ .f32)
    (hn : n = A * K)
    (h1 : (⟨3, ![A, K, D]⟩ : Shape).ShapeCasts ⟨2, ![n, D]⟩)
    (h0 : (⟨2, ![1, H]⟩ : Shape).ShapeCasts ⟨2, ![1, H]⟩)
    (h2 : (⟨2, ![1, H]⟩ : Shape).Broadcasts ⟨2, ![n, H]⟩)
    (h3 : (⟨2, ![n, H]⟩ : Shape).ShapeCasts ⟨3, ![A, K, H]⟩)
    (h4 : (⟨3, ![A, K, H]⟩ : Shape).Reduces [1] ⟨2, ![A, H]⟩)
    (hφ : FKind.Formats .f32) (hacc : (0x00000000#32 : BitVec 32) = FKind.add.neutral .f32 hφ)
    (tr : FTy.bf16.bits < FTy.f32.bits) :
    multiReduction .add [1] ⟨2, ![A, H]⟩
      (shapeCast ⟨3, ![A, K, H]⟩
        (maximumf
          (addf
            (matmul (DotDims.plain n D H) none (truncf .bf16 (shapeCast ⟨2, ![n, D]⟩ X h1) tr) (truncf .bf16 W tr)
              (constant (F := Ideal) ⟨2, ![n, H]⟩ .f32 0x00000000#32))
            (broadcastTo ⟨2, ![n, H]⟩ (shapeCast ⟨2, ![1, H]⟩ b h0) h2))
          (broadcast ⟨2, ![n, H]⟩ (Scalar.ofBits (F := Ideal) .f32 0x00000000#32)))
        h3)
      0x00000000#32 h4 hφ hacc
    = nsum X W (fun h => b (ix2 (0 : Fin 1) h)) := by
  rw [shapeCast_self b h0]
  have e : maximumf
          (addf
            (matmul (DotDims.plain n D H) none (truncf .bf16 (shapeCast ⟨2, ![n, D]⟩ X h1) tr) (truncf .bf16 W tr)
              (constant (F := Ideal) ⟨2, ![n, H]⟩ .f32 0x00000000#32))
            (broadcastTo ⟨2, ![n, H]⟩ b h2))
          (broadcast ⟨2, ![n, H]⟩ (Scalar.ofBits (F := Ideal) .f32 0x00000000#32))
        = relu (affine2 (shapeCast ⟨2, ![n, D]⟩ X h1) W b) :=
    (congrArg (fun Y => maximumf Y (broadcast ⟨2, ![n, H]⟩ (Scalar.ofBits (F := Ideal) .f32 0x00000000#32)))
      (addf_matmul_broadcastTo none (truncf .bf16 (shapeCast ⟨2, ![n, D]⟩ X h1) tr) (truncf .bf16 W tr) b h2)).trans
      (maximumf_splat_zero _)
  rw [e]
  funext j
  obtain ⟨p, q, rfl⟩ : ∃ (p : Fin A) (q : Fin H), j = ix2 p q := ⟨j 0, j 1, eq_ix2 j⟩
  refine (sum_mid _ h4 hφ hacc p q).trans ?_
  unfold nsum
  refine Finset.sum_congr rfl fun k _ => ?_
  rw [unflatten_apply _ hn h3 p k q]
  show max ((∑ d : Fin D, shapeCast ⟨2, ![n, D]⟩ X h1 (ix2 (flatRow hn p k) d) * W (ix2 d q)) + b (ix2 (0 : Fin 1) q)) 0
      = hidden X W (fun h => b (ix2 (0 : Fin 1) h)) p k q
  unfold hidden
  exact congrArg (fun s => max (s + b (ix2 (0 : Fin 1) q)) 0)
    (Finset.sum_congr rfl fun d _ => congrArg (· * W (ix2 d q)) (flatten_apply X hn h1 p k d))

/-- The vector unit's pooled projection: the sums divided by a splat, times the weights, into zero. -/
theorem kernel_proj (Sm : FVec Ideal ⟨2, ![A, H]⟩ .f32) (c : Ideal .f32) (Wn : FVec Ideal ⟨2, ![H, O]⟩ .f32)
    (tr : FTy.bf16.bits < FTy.f32.bits) :
    matmul (DotDims.plain A H O) none (truncf .bf16 (divf Sm (broadcast ⟨2, ![A, H]⟩ c)) tr) (truncf .bf16 Wn tr)
      (constant (F := Ideal) ⟨2, ![A, O]⟩ .f32 0x00000000#32)
    = mm (fun i => Ideal.div (Sm i) c) Wn :=
  matmul_plain_zero none (truncf .bf16 (divf Sm (broadcast ⟨2, ![A, H]⟩ c)) tr) (truncf .bf16 Wn tr)

/-- The vector unit's last step: the row's own product into zero, plus the pooled projection, rectified. -/
theorem kernel_combine (S : FVec Ideal ⟨2, ![A, E]⟩ .f32) (Ws : FVec Ideal ⟨2, ![E, O]⟩ .f32) (V : FVec Ideal ⟨2, ![A, O]⟩ .f32)
    (tr : FTy.bf16.bits < FTy.f32.bits) :
    maximumf
      (addf
        (matmul (DotDims.plain A E O) none (truncf .bf16 S tr) (truncf .bf16 Ws tr)
          (constant (F := Ideal) ⟨2, ![A, O]⟩ .f32 0x00000000#32))
        V)
      (broadcast ⟨2, ![A, O]⟩ (Scalar.ofBits (F := Ideal) .f32 0x00000000#32))
    = relu (fun i => mm S Ws i + V i) :=
  (congrArg (fun Y => maximumf (addf Y V) (broadcast ⟨2, ![A, O]⟩ (Scalar.ofBits (F := Ideal) .f32 0x00000000#32)))
    (matmul_plain_zero none (truncf .bf16 S tr) (truncf .bf16 Ws tr))).trans (maximumf_splat_zero _)

/-- Rows of the neighbour sum: on a block whose row p is row ρ p of the whole array, the sums are the whole
    array's at those rows. -/
theorem hidden_rows (X : Ten B K D) (blk : Ten A K D) (W : Mat D H) (β : Fin H → EReal) (ρ : Fin A → Fin B)
    (hX : ∀ p k d, blk (ix3 p k d) = X (ix3 (ρ p) k d)) (p : Fin A) (k : Fin K) (h : Fin H) :
    hidden blk W β p k h = hidden X W β (ρ p) k h := by
  unfold hidden
  exact congrArg (fun s => max (s + β h) 0) (Finset.sum_congr rfl fun d _ => congrArg (· * W (ix2 d h)) (hX p k d))

theorem pooled_rows (X : Ten B K D) (blk : Ten A K D) (W : Mat D H) (β : Fin H → EReal) (c : EReal) (ρ : Fin A → Fin B)
    (hX : ∀ p k d, blk (ix3 p k d) = X (ix3 (ρ p) k d)) (p : Fin A) (h : Fin H) :
    pooled blk W β c (ix2 p h) = pooled X W β c (ix2 (ρ p) h) := by
  show Ideal.div (∑ k : Fin K, hidden blk W β p k h) c = Ideal.div (∑ k : Fin K, hidden X W β (ρ p) k h) c
  exact congrArg (fun s => Ideal.div s c) (Finset.sum_congr rfl fun k _ => hidden_rows X blk W β ρ hX p k h)

/-- Rows of the layer: computed on a block of rows, with the whole weight matrices, it gives the rows of the whole. -/
theorem layer_rows (S : Mat B E) (Sblk : Mat A E) (Ws : Mat E O) (X : Ten B K D) (blk : Ten A K D) (W : Mat D H)
    (β : Fin H → EReal) (c : EReal) (Wn : Mat H O) (ρ : Fin A → Fin B)
    (hS : ∀ p e, Sblk (ix2 p e) = S (ix2 (ρ p) e)) (hX : ∀ p k d, blk (ix3 p k d) = X (ix3 (ρ p) k d))
    (p : Fin A) (o : Fin O) :
    layer Sblk Ws (pooled blk W β c) Wn (ix2 p o) = layer S Ws (pooled X W β c) Wn (ix2 (ρ p) o) := by
  show max (mm Sblk Ws (ix2 p o) + mm (pooled blk W β c) Wn (ix2 p o)) 0
      = max (mm S Ws (ix2 (ρ p) o) + mm (pooled X W β c) Wn (ix2 (ρ p) o)) 0
  rw [mm_rows S Sblk Ws ρ hS p o, mm_rows (pooled X W β c) (pooled blk W β c) Wn ρ (pooled_rows X blk W β c ρ hX) p o]

end Cert.NeighPool

end
-- ==== Proof.LibLinSum.lean ====
/-
  Bias-free linear maps and finite sums of real entries, on the extended reals.

  `lin x W e = Σ_d x d · W e d` is coordinate e of x·Wᵀ. Adding finitely many vectors first and applying the map once
  is applying it to each and adding — also when every vector is first multiplied, coordinate by coordinate, by one
  fixed vector — PROVIDED the entries are real: a product distributes over a finite sum of reals, which fails at the
  infinities of the extended reals, so the sums are carried through the embedding of the reals (which commutes with
  finite sums and with products). Also: the hyperbolic tangent of any extended real is real, and a real divided by
  anything but zero is real (an infinite divisor gives zero). Generic in the sizes and the index types.
-/
import Idealize.ShloMosaic.PureOps.Ideal
import Idealize.ShloMosaic.PureOps.Ideal.Laws

noncomputable section

open scoped BigOperators

namespace Cert.Hgnn

open Idealize.ShloMosaic

variable {D : ℕ}

/-- A bias-free linear map applied to a vector: coordinate e of x·Wᵀ. -/
def lin (x : Fin D → EReal) (W : Fin D → Fin D → EReal) (e : Fin D) : EReal := ∑ d : Fin D, x d * W e d

/-! ## Sums of reals on the extended reals -/

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a finite sum of reals. -/
theorem sum_mul_real {ι : Type} (s : Finset ι) (f : ι → ℝ) (w : ℝ) :
    (∑ i ∈ s, (f i : EReal)) * (w : EReal) = ∑ i ∈ s, (f i : EReal) * (w : EReal) := by
  rw [← coe_sum, ← EReal.coe_mul, Finset.sum_mul, coe_sum]
  exact Finset.sum_congr rfl fun i _ => EReal.coe_mul _ _

/-- A finite sum of reals is a real. -/
theorem sum_real {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- Adding the neighbours first and applying a linear map once is applying it to each and adding, for real entries. -/
theorem sum_lin {ι : Type} [Fintype ι] (g : ι → Fin D → EReal) (W : Fin D → Fin D → EReal)
    (hg : ∀ j d, ∃ r : ℝ, g j d = (r : EReal)) (hW : ∀ e d, ∃ r : ℝ, W e d = (r : EReal)) (e : Fin D) :
    ∑ j : ι, lin (g j) W e = lin (fun d => ∑ j : ι, g j d) W e := by
  choose g' hg' using hg
  choose w' hw' using hW
  unfold lin
  rw [Finset.sum_comm]
  refine Finset.sum_congr rfl fun d _ => ?_
  simp only [hg', hw']
  exact (sum_mul_real Finset.univ (fun j => g' j d) (w' e d)).symm

/-- The same with every neighbour first multiplied, coordinate by coordinate, by one real vector. -/
theorem sum_lin_mul {ι : Type} [Fintype ι] (g : ι → Fin D → EReal) (s : Fin D → EReal) (W : Fin D → Fin D → EReal)
    (hg : ∀ j d, ∃ r : ℝ, g j d = (r : EReal)) (hs : ∀ d, ∃ r : ℝ, s d = (r : EReal))
    (hW : ∀ e d, ∃ r : ℝ, W e d = (r : EReal)) (e : Fin D) :
    ∑ j : ι, lin (fun d => g j d * s d) W e = lin (fun d => (∑ j : ι, g j d) * s d) W e := by
  choose g' hg' using hg
  choose s' hs' using hs
  choose w' hw' using hW
  unfold lin
  rw [Finset.sum_comm]
  refine Finset.sum_congr rfl fun d _ => ?_
  simp only [hg', hs', hw']
  rw [sum_mul_real Finset.univ (fun j => g' j d) (s' d)]
  simp only [← EReal.coe_mul]
  exact (sum_mul_real Finset.univ (fun j => g' j d * s' d) (w' e d)).symm

/-- Both maps at once. -/
theorem sum_lin2 {ι : Type} [Fintype ι] (g : ι → Fin D → EReal) (s : Fin D → EReal) (W W' : Fin D → Fin D → EReal)
    (hg : ∀ j d, ∃ r : ℝ, g j d = (r : EReal)) (hs : ∀ d, ∃ r : ℝ, s d = (r : EReal))
    (hW : ∀ e d, ∃ r : ℝ, W e d = (r : EReal)) (hW' : ∀ e d, ∃ r : ℝ, W' e d = (r : EReal)) (e : Fin D) :
    ∑ j : ι, (lin (g j) W e + lin (fun d => g j d * s d) W' e)
      = lin (fun d => ∑ j : ι, g j d) W e + lin (fun d => (∑ j : ι, g j d) * s d) W' e := by
  rw [Finset.sum_add_distrib, sum_lin g W hg hW e, sum_lin_mul g s W' hg hs hW' e]

/-! ## Reals that stay real -/

/-- The hyperbolic tangent of any extended real is a real. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- A real divided by anything but zero is a real (an infinite divisor gives zero). -/
theorem div_real (x y : EReal) (hx : ∃ r : ℝ, x = (r : EReal)) (hy : y ≠ 0) : ∃ r : ℝ, Ideal.div x y = (r : EReal) := by
  obtain ⟨a, rfl⟩ := hx
  unfold Ideal.div
  rw [if_neg hy]
  induction y using EReal.rec with
  | bot => exact ⟨0, by rw [EReal.inv_bot, mul_zero]; rfl⟩
  | coe b => exact ⟨a * b⁻¹, by rw [← EReal.coe_inv, ← EReal.coe_mul]⟩
  | top => exact ⟨0, by rw [EReal.inv_top, mul_zero]; rfl⟩

end Cert.Hgnn

end
-- ==== Proof.Spec.lean ====
/-
  The score of one batch row, on the extended reals, in the two arrangements the two programs use.

  A row has K first-hop neighbours with a D-vector each (`es`), J second-hop neighbours under each of them
  (`ed`), a target D-vector (`td`) and M user-side neighbours (`eu`). Every message is linear without a bias:
  `lin x W e = Σ_d x d · W e d`. One arrangement applies the linear maps to every neighbour and adds the results;
  the other adds the neighbours first and applies the maps once. For real entries (neither infinity) the two agree,
  because a product distributes over a finite sum of reals; on the extended reals that law fails at the infinities,
  so the sums are carried through the embedding of the reals. The first layer's output is a hyperbolic tangent
  divided by a positive bound, hence real whatever it is computed from, which is what the second layer needs.
-/
import proofs.«121466_j80178449482027_2_alg».proof.Proof.LibLinSum

noncomputable section

open scoped BigOperators

namespace Cert.Hgnn

open Idealize.ShloMosaic

variable {K J M D : ℕ}

/-- tanh of a pre-activation vector divided by max(its Euclidean length after tanh, eps). -/
def unit (a : Fin D → EReal) (eps : EReal) (e : Fin D) : EReal :=
  Ideal.div (Ideal.tanh (a e)) (max (Ideal.sqrt (∑ e' : Fin D, Ideal.tanh (a e') * Ideal.tanh (a e'))) eps)

/-- The dot product of the two activated sides. -/
def score (mds mdd mus : Fin D → EReal) : EReal := ∑ e : Fin D, Ideal.tanh (mds e + mdd e) * Ideal.tanh (mus e)

/-- First-layer output, neighbours of the second hop added BEFORE the linear maps (`sd k d = Σ_j ed k j d`). -/
def unitK (es sd : Fin K → Fin D → EReal) (w2 : Fin K → EReal) (eps : EReal) (W21 W22 : Fin D → Fin D → EReal)
    (k : Fin K) : Fin D → EReal :=
  unit (fun e => lin (es k) W21 e + (lin (sd k) W21 e + lin (fun d => es k d * sd k d) W22 e) * w2 k) eps

/-- First-layer output, the linear maps applied to every second-hop neighbour and the results added. -/
def unitR (es : Fin K → Fin D → EReal) (ed : Fin K → Fin J → Fin D → EReal) (w2 : Fin K → EReal) (eps : EReal)
    (W21 W22 : Fin D → Fin D → EReal) (k : Fin K) : Fin D → EReal :=
  unit (fun e => lin (es k) W21 e
    + (∑ j : Fin J, (lin (ed k j) W21 e + lin (fun d => ed k j d * es k d) W22 e)) * w2 k) eps

/-- The row's score from the SUM `s1` of the first-layer outputs over the first-hop neighbours. -/
def tailS (s1 td su : Fin D → EReal) (w1 wu : EReal) (Wu W11 W12 : Fin D → Fin D → EReal) : EReal :=
  score (fun e => (lin s1 W11 e + lin (fun d => s1 d * td d) W12 e) * w1) (fun e => lin td W11 e) (fun e => lin su Wu e * wu)

/-- The row's score from the first-layer output `u`, sums before the maps. -/
def tailK (u : Fin K → Fin D → EReal) (td su : Fin D → EReal) (w1 wu : EReal) (Wu W11 W12 : Fin D → Fin D → EReal) : EReal :=
  tailS (fun d => ∑ k : Fin K, u k d) td su w1 wu Wu W11 W12

/-- The row's score from the first-layer output `u`, maps before the sums. -/
def tailR (u : Fin K → Fin D → EReal) (td : Fin D → EReal) (eu : Fin M → Fin D → EReal) (w1 wu : EReal)
    (Wu W11 W12 : Fin D → Fin D → EReal) : EReal :=
  score (fun e => (∑ k : Fin K, (lin (u k) W11 e + lin (fun d => u k d * td d) W12 e)) * w1)
    (fun e => lin td W11 e) (fun e => (∑ m : Fin M, lin (eu m) Wu e) * wu)

/-! ## The first layer's output is real -/

/-- So the normalised activation is real whenever the bound is positive. -/
theorem unit_real (a : Fin D → EReal) (eps : EReal) (heps : 0 < eps) (e : Fin D) : ∃ r : ℝ, unit a eps e = (r : EReal) :=
  div_real _ _ (tanh_real _) (ne_of_gt (lt_of_lt_of_le heps (le_max_right _ _)))

/-! ## The two arrangements agree -/

theorem unitR_eq_unitK (es : Fin K → Fin D → EReal) (ed : Fin K → Fin J → Fin D → EReal) (w2 : Fin K → EReal) (eps : EReal)
    (W21 W22 : Fin D → Fin D → EReal)
    (hes : ∀ k d, ∃ r : ℝ, es k d = (r : EReal)) (hed : ∀ k j d, ∃ r : ℝ, ed k j d = (r : EReal))
    (h21 : ∀ e d, ∃ r : ℝ, W21 e d = (r : EReal)) (h22 : ∀ e d, ∃ r : ℝ, W22 e d = (r : EReal)) (k : Fin K) :
    unitR es ed w2 eps W21 W22 k = unitK es (fun k d => ∑ j : Fin J, ed k j d) w2 eps W21 W22 k := by
  unfold unitR unitK
  refine congrArg (fun a => unit a eps) (funext fun e => ?_)
  rw [sum_lin2 (ed k) (es k) W21 W22 (hed k) (hes k) h21 h22 e]
  refine congrArg (fun t => lin (es k) W21 e + (lin (fun d => ∑ j : Fin J, ed k j d) W21 e + t) * w2 k) ?_
  exact congrArg (fun x => lin x W22 e) (funext fun d => mul_comm _ _)

theorem tailR_eq_tailK (u : Fin K → Fin D → EReal) (td : Fin D → EReal) (eu : Fin M → Fin D → EReal) (w1 wu : EReal)
    (Wu W11 W12 : Fin D → Fin D → EReal)
    (hu : ∀ k d, ∃ r : ℝ, u k d = (r : EReal)) (htd : ∀ d, ∃ r : ℝ, td d = (r : EReal))
    (heu : ∀ m d, ∃ r : ℝ, eu m d = (r : EReal))
    (hWu : ∀ e d, ∃ r : ℝ, Wu e d = (r : EReal)) (h11 : ∀ e d, ∃ r : ℝ, W11 e d = (r : EReal))
    (h12 : ∀ e d, ∃ r : ℝ, W12 e d = (r : EReal)) :
    tailR u td eu w1 wu Wu W11 W12 = tailK u td (fun d => ∑ m : Fin M, eu m d) w1 wu Wu W11 W12 := by
  unfold tailR tailK tailS
  have e1 : (fun e => (∑ k : Fin K, (lin (u k) W11 e + lin (fun d => u k d * td d) W12 e)) * w1)
      = fun e => (lin (fun d => ∑ k : Fin K, u k d) W11 e + lin (fun d => (∑ k : Fin K, u k d) * td d) W12 e) * w1 :=
    funext fun e => by rw [sum_lin2 u td W11 W12 hu htd h11 h12 e]
  have e2 : (fun e => (∑ m : Fin M, lin (eu m) Wu e) * wu) = fun e => lin (fun d => ∑ m : Fin M, eu m d) Wu e * wu :=
    funext fun e => by rw [sum_lin eu Wu heu hWu e]
  rw [e1, e2]

end Cert.Hgnn

end
-- ==== Proof.Payload.lean ====
/-
  What the kernel body stores for one row of a block.

  The body holds a block of 256 batch rows. For row p it multiplies each of the row's 10 first-hop vectors (and
  their products with the summed second-hop vectors) by the transposed weight matrices — the block is flattened
  so that neighbour k of row p is row 10·p + k, multiplied once, and cut back —, scales by the per-neighbour
  weight, applies tanh and divides by the bounded Euclidean length; the 10 results are added, sent through the
  second pair of maps, scaled, activated, and the dot product with the activated user side is taken. Entry p of
  the stored vector is therefore the row's score (`Hgnn.tailK` of `Hgnn.unitK`) of the block's rows p.
-/
import proofs.«121466_j80178449482027_2_alg».proof.Proof.Gen.KernelIdeal.Frame
import proofs.«121466_j80178449482027_2_alg».proof.Proof.LibDense
import proofs.«121466_j80178449482027_2_alg».proof.Proof.LibPairLayout
import proofs.«121466_j80178449482027_2_alg».proof.Proof.LibColumnLayout
import proofs.«121466_j80178449482027_2_alg».proof.Proof.LibLaneEntry
import proofs.«121466_j80178449482027_2_alg».proof.Proof.LibNeighPool
import proofs.«121466_j80178449482027_2_alg».proof.Proof.Spec

set_option maxRecDepth 16384

noncomputable section

open scoped BigOperators

namespace Cert.Hgnn.Payload

open Cert.KernelIdeal Cert.KernelIdeal.Gen Idealize.ShloMosaic Idealize.ShloMosaic.ValueIdx
open Cert.Dense Cert.PairLayout Cert.ColumnLayout Cert.LaneEntry Cert.NeighPool

/-- The flattened block times a transposed weight matrix: row r, coordinate e is Σ_d X(r,d)·W(e,d). -/
theorem flatLin (X : FVec Ideal S2560x64 .bf16) (W : FVec Ideal S64x64 .bf16) (ht : S64x64.Transposes [1, 0] S64x64)
    (r : Fin 2560) (e : Fin 64) :
    matmul dot_S2560x64_S64x64_S2560x64_1_0_0_1_n_n none X (transpose S64x64 [1, 0] W ht)
      (constant S2560x64 .f32 0x00000000#32) (ix2 r e) = ∑ d : Fin 64, X (ix2 r d) * W (ix2 e d) := by
  show matmul (DotDims.plain 2560 64 64) none X (transpose S64x64 [1, 0] W ht)
      (constant (F := Ideal) ⟨2, ![2560, 64]⟩ .f32 0x00000000#32) (ix2 r e) = _
  rw [matmul_plain_zero]
  show ∑ d : Fin 64, X (ix2 r d) * transpose S64x64 [1, 0] W ht (ix2 d e) = _
  exact Finset.sum_congr rfl fun d _ => congrArg (X (ix2 r d) * ·) (transpose_ix2_apply W ht d e)

/-- A block of rows times a transposed weight matrix. -/
theorem rowLin (X : FVec Ideal S256x64 .bf16) (W : FVec Ideal S64x64 .bf16) (ht : S64x64.Transposes [1, 0] S64x64)
    (p : Fin 256) (e : Fin 64) :
    matmul dot_S256x64_S64x64_S256x64_1_0_0_1_n_n none X (transpose S64x64 [1, 0] W ht)
      (constant S256x64 .f32 0x00000000#32) (ix2 p e) = ∑ d : Fin 64, X (ix2 p d) * W (ix2 e d) := by
  show matmul (DotDims.plain 256 64 64) none X (transpose S64x64 [1, 0] W ht)
      (constant (F := Ideal) ⟨2, ![256, 64]⟩ .f32 0x00000000#32) (ix2 p e) = _
  rw [matmul_plain_zero]
  show ∑ d : Fin 64, X (ix2 p d) * transpose S64x64 [1, 0] W ht (ix2 d e) = _
  exact Finset.sum_congr rfl fun d _ => congrArg (X (ix2 p d) * ·) (transpose_ix2_apply W ht d e)

/-- Neighbour k of row p is row 10·p + k of the flattened block. -/
theorem flat_apply {α : Type} (X : S256x10x64.Idx → α) (h : S256x10x64.ShapeCasts S2560x64) (p : Fin 256) (k : Fin 10) (d : Fin 64) :
    shapeCast S2560x64 X h (ix2 (flatRow (by norm_num : 2560 = 256 * 10) p k) d) = X (ix3 p k d) :=
  flatten_apply X (by norm_num : 2560 = 256 * 10) h p k d

theorem unflat_apply {α : Type} (Y : S2560x64.Idx → α) (h : S2560x64.ShapeCasts S256x10x64) (p : Fin 256) (k : Fin 10) (e : Fin 64) :
    shapeCast S256x10x64 Y h (ix3 p k e) = Y (ix2 (flatRow (by norm_num : 2560 = 256 * 10) p k) e) :=
  unflatten_apply Y (by norm_num : 2560 = 256 * 10) h p k e

/-- A [256,10] matrix kept with a unit last axis reads, at (p,k,u), its entry (p,k). -/
theorem col3_apply {α : Type} (v : S256x10.Idx → α) (h : S256x10.ShapeCasts S256x10x1) (p : Fin 256) (k : Fin 10) (u : Fin 1) :
    shapeCast S256x10x1 v h (ix3 p k u) = v (ix2 p k) :=
  shapeCast_apply v h _ _ (by
    have hu : u.val = 0 := by omega
    rw [Shape.rowMajor_val_two, Shape.rowMajor_val_three]
    show p.val * 10 + k.val = (p.val * 10 + k.val) * 1 + u.val
    omega)

/-- That column spread over the 64 coordinates reads, at (p,k,e), the column at (p,k,0). -/
theorem spread3_apply {α : Type} (c : S256x10x1.Idx → α) (h : S256x10x1.Broadcasts S256x10x64) (p : Fin 256) (k : Fin 10) (e : Fin 64) :
    broadcastTo S256x10x64 c h (ix3 p k e) = c (ix3 p k (0 : Fin 1)) := by
  refine broadcastTo_apply c h (ix3 p k e) (ix3 p k (0 : Fin 1)) fun ax => ?_
  match ax with
  | ⟨0, _⟩ => rfl
  | ⟨1, _⟩ => rfl
  | ⟨2, _⟩ => rfl

/-- A sum over the last axis of a [256,10,64] array reads, at (p,k), the sum over e of the entries (p,k,e). -/
theorem lane3 (Y : FVec Ideal S256x10x64 .f32) (h : S256x10x64.Reduces [2] S256x10)
    (hφ : FKind.Formats .f32) (hacc : (0x00000000#32 : BitVec 32) = FKind.add.neutral .f32 hφ) (p : Fin 256) (k : Fin 10) :
    multiReduction .add [2] S256x10 Y 0x00000000#32 h hφ hacc (ix2 p k) = ∑ e : Fin 64, Y (ix3 p k e) :=
  (Ideal.multiReduction_add_single Y 0x00000000#32 h hφ hacc (ix2 p k)).trans
    (Finset.sum_congr rfl fun e _ => congrArg Y (funext fun ax => Fin.ext (by
      match ax with | ⟨0, _⟩ => rfl | ⟨1, _⟩ => rfl | ⟨2, _⟩ => rfl)))

theorem mid3 (Y : FVec Ideal S256x10x64 .f32) (h : S256x10x64.Reduces [1] S256x64)
    (hφ : FKind.Formats .f32) (hacc : (0x00000000#32 : BitVec 32) = FKind.add.neutral .f32 hφ) (p : Fin 256) (d : Fin 64) :
    multiReduction .add [1] S256x64 Y 0x00000000#32 h hφ hacc (ix2 p d) = ∑ k : Fin 10, Y (ix3 p k d) :=
  sum_mid Y h hφ hacc p d

theorem lane2 (Y : FVec Ideal S256x64 .f32) (h : S256x64.Reduces [1] S256)
    (hφ : FKind.Formats .f32) (hacc : (0x00000000#32 : BitVec 32) = FKind.add.neutral .f32 hφ) (p : Fin 256) :
    multiReduction .add [1] S256 Y 0x00000000#32 h hφ hacc (ix1 p) = ∑ e : Fin 64, Y (ix2 p e) :=
  laneSum Y h hφ hacc p

/-- The three sums as the body spells them (accumulator word zero, its neutrality by reflexivity). -/
theorem lane3s (Y : FVec Ideal S256x10x64 .f32) (h : S256x10x64.Reduces [2] S256x10) (p : Fin 256) (k : Fin 10) :
    multiReduction .add [2] S256x10 Y 0x00000000#32 h (.inl rfl) rfl (ix2 p k) = ∑ e : Fin 64, Y (ix3 p k e) := lane3 Y h _ _ p k
theorem mid3s (Y : FVec Ideal S256x10x64 .f32) (h : S256x10x64.Reduces [1] S256x64) (p : Fin 256) (d : Fin 64) :
    multiReduction .add [1] S256x64 Y 0x00000000#32 h (.inl rfl) rfl (ix2 p d) = ∑ k : Fin 10, Y (ix3 p k d) := mid3 Y h _ _ p d
theorem lane2s (Y : FVec Ideal S256x64 .f32) (h : S256x64.Reduces [1] S256) (p : Fin 256) :
    multiReduction .add [1] S256 Y 0x00000000#32 h (.inl rfl) rfl (ix1 p) = ∑ e : Fin 64, Y (ix2 p e) := lane2 Y h _ _ p

theorem col2_apply {α : Type} (v : S256.Idx → α) (h : S256.ShapeCasts S256x1) (p : Fin 256) (u : Fin 1) :
    shapeCast S256x1 v h (ix2 p u) = v (ix1 p) := shapeCast_a_a1_apply v h p u

theorem spread2_apply {α : Type} (c : S256x1.Idx → α) (h : S256x1.Broadcasts S256x64) (p : Fin 256) (e : Fin 64) :
    broadcastTo S256x64 c h (ix2 p e) = c (ix2 p (0 : Fin 1)) := broadcastTo_a1_ab_apply c h p e

theorem tanh_apply {s : Shape} (v : FVec Ideal s .f32) (i : s.Idx) : tanh v i = Ideal.tanh (v i) := rfl
theorem sqrt_apply {s : Shape} (v : FVec Ideal s .f32) (i : s.Idx) : sqrt v i = Ideal.sqrt (v i) := rfl

/-! ## The body's value in three steps -/

/-- The first layer's activation on the block: tanh of the row's own product plus the weighted message. -/
def blkPre (x0 x1 : FVec Ideal S256x10x64 .f32) (x4 : FVec Ideal S256x10 .f32) (w21 w22 : FVec Ideal S64x64 .bf16) :
    FVec Ideal S256x10x64 .f32 :=
  tanh (addf
    (shapeCast S256x10x64
      (matmul dot_S2560x64_S64x64_S2560x64_1_0_0_1_n_n none
        (shapeCast S2560x64 (truncf .bf16 x0 bitsLt_bf16_f32) shapeCasts_S256x10x64_S2560x64)
        (transpose S64x64 [1, 0] w21 transposes_S64x64_p1_0_S64x64) (constant S2560x64 .f32 0x00000000#32))
      shapeCasts_S2560x64_S256x10x64)
    (mulf
      (shapeCast S256x10x64
        (addf
          (matmul dot_S2560x64_S64x64_S2560x64_1_0_0_1_n_n none
            (shapeCast S2560x64 (truncf .bf16 x1 bitsLt_bf16_f32) shapeCasts_S256x10x64_S2560x64)
            (transpose S64x64 [1, 0] w21 transposes_S64x64_p1_0_S64x64) (constant S2560x64 .f32 0x00000000#32))
          (matmul dot_S2560x64_S64x64_S2560x64_1_0_0_1_n_n none
            (shapeCast S2560x64 (truncf .bf16 (mulf x0 x1) bitsLt_bf16_f32) shapeCasts_S256x10x64_S2560x64)
            (transpose S64x64 [1, 0] w22 transposes_S64x64_p1_0_S64x64) (constant S2560x64 .f32 0x00000000#32)))
        shapeCasts_S2560x64_S256x10x64)
      (broadcastTo S256x10x64 (shapeCast S256x10x1 x4 shapeCasts_S256x10_S256x10x1) broadcasts_S256x10x1_S256x10x64)))

/-- The activation divided by its bounded Euclidean length along the 64 coordinates. -/
def blkUnit (pre : FVec Ideal S256x10x64 .f32) : FVec Ideal S256x10x64 .f32 :=
  divf pre (broadcastTo S256x10x64
    (maximumf
      (sqrt (shapeCast S256x10x1
        (multiReduction .add [2] S256x10 (mulf pre pre) 0x00000000#32 reduces_S256x10x64_S256x10 (.inl rfl) rfl)
        shapeCasts_S256x10_S256x10x1))
      (broadcast S256x10x1 (Scalar.ofBits (F := Ideal) .f32 0x2B8CBCCC#32)))
    broadcasts_S256x10x1_S256x10x64)

/-- The sum of the 10 first-hop outputs of each row. -/
def blkSum (u : FVec Ideal S256x10x64 .f32) : FVec Ideal S256x64 .f32 :=
  multiReduction .add [1] S256x64 u 0x00000000#32 reduces_S256x10x64_S256x64 (.inl rfl) rfl

/-- The two activated sides, multiplied coordinate by coordinate (the last sum is taken of this). -/
def blkProd (s1 x2 x3 : FVec Ideal S256x64 .f32) (x5 x6 : FVec Ideal S256 .f32) (wu w11 w12 : FVec Ideal S64x64 .bf16) :
    FVec Ideal S256x64 .f32 :=
  mulf
    (tanh (addf
      (mulf
        (addf
          (matmul dot_S256x64_S64x64_S256x64_1_0_0_1_n_n none (truncf .bf16 s1 bitsLt_bf16_f32)
            (transpose S64x64 [1, 0] w11 transposes_S64x64_p1_0_S64x64) (constant S256x64 .f32 0x00000000#32))
          (matmul dot_S256x64_S64x64_S256x64_1_0_0_1_n_n none (truncf .bf16 (mulf s1 x2) bitsLt_bf16_f32)
            (transpose S64x64 [1, 0] w12 transposes_S64x64_p1_0_S64x64) (constant S256x64 .f32 0x00000000#32)))
        (broadcastTo S256x64 (shapeCast S256x1 x5 shapeCasts_S256_S256x1) broadcasts_S256x1_S256x64))
      (matmul dot_S256x64_S64x64_S256x64_1_0_0_1_n_n none (truncf .bf16 x2 bitsLt_bf16_f32)
        (transpose S64x64 [1, 0] w11 transposes_S64x64_p1_0_S64x64) (constant S256x64 .f32 0x00000000#32))))
    (tanh (mulf
      (matmul dot_S256x64_S64x64_S256x64_1_0_0_1_n_n none (truncf .bf16 x3 bitsLt_bf16_f32)
        (transpose S64x64 [1, 0] wu transposes_S64x64_p1_0_S64x64) (constant S256x64 .f32 0x00000000#32))
      (broadcastTo S256x64 (shapeCast S256x1 x6 shapeCasts_S256_S256x1) broadcasts_S256x1_S256x64)))

/-- The body's stored vector is the row sums of that product, over the three steps. -/
theorem pay_eq (x0 x1 : Vec Ideal S256x10x64 .f32) (x2 x3 : Vec Ideal S256x64 .f32) (x4 : Vec Ideal S256x10 .f32)
    (x5 x6 : Vec Ideal S256 .f32) (x7 x8 x9 x10 x11 : Vec Ideal S64x64 .bf16) :
    k0_pay1 (k0_pay2 x7) (k0_pay3 x8) (k0_pay4 x10) (k0_pay5 x11) (k0_pay8 x2) (k0_pay9 x3) (k0_pay10 x4) (k0_pay11 x5)
        (k0_pay12 x6) (k0_pay13 x0 x1) (k0_pay14 x0) (k0_pay15 x8 x1) (k0_pay16 x9) (constant S2560x64 .f32 0x00000000#32)
      = multiReduction .add [1] S256 (blkProd (blkSum (blkUnit (blkPre x0 x1 x4 x8 x9))) x2 x3 x5 x6 x7 x10 x11)
          0x00000000#32 reduces_S256x64_S256 (.inl rfl) rfl := by
  simp only [k0_pay1, k0_pay2, k0_pay3, k0_pay4, k0_pay5, k0_pay6, k0_pay7, k0_pay8, k0_pay9, k0_pay10, k0_pay11, k0_pay12,
    k0_pay13, k0_pay14, k0_pay15, k0_pay16, shapeCast_self]
  rfl

theorem blkPre_apply (x0 x1 : FVec Ideal S256x10x64 .f32) (x4 : FVec Ideal S256x10 .f32) (w21 w22 : FVec Ideal S64x64 .bf16)
    (p : Fin 256) (k : Fin 10) (e : Fin 64) :
    blkPre x0 x1 x4 w21 w22 (ix3 p k e)
      = Ideal.tanh (Hgnn.lin (fun d => x0 (ix3 p k d)) (fun e d => w21 (ix2 e d)) e
          + (Hgnn.lin (fun d => x1 (ix3 p k d)) (fun e d => w21 (ix2 e d)) e
              + Hgnn.lin (fun d => x0 (ix3 p k d) * x1 (ix3 p k d)) (fun e d => w22 (ix2 e d)) e) * x4 (ix2 p k)) := by
  unfold blkPre Hgnn.lin
  simp only [tanh_apply, addf_apply, mulf_apply, unflat_apply, spread3_apply, col3_apply]
  rw [flatLin, flatLin, flatLin]
  simp only [flat_apply, truncf_apply, mulf_apply]

theorem blkUnit_apply (pre : FVec Ideal S256x10x64 .f32) (p : Fin 256) (k : Fin 10) (e : Fin 64) :
    blkUnit pre (ix3 p k e)
      = Ideal.div (pre (ix3 p k e))
          (max (Ideal.sqrt (∑ e' : Fin 64, pre (ix3 p k e') * pre (ix3 p k e'))) (Ideal.ofBits .f32 0x2B8CBCCC#32)) := by
  unfold blkUnit
  refine congrArg (Ideal.div (pre (ix3 p k e))) ?_
  refine (spread3_apply _ _ p k e).trans ?_
  refine congrArg (fun s => max (Ideal.sqrt s) (Ideal.ofBits .f32 0x2B8CBCCC#32)) ?_
  refine (col3_apply _ _ p k (0 : Fin 1)).trans ?_
  exact lane3 _ _ _ _ p k

theorem blkSum_apply (u : FVec Ideal S256x10x64 .f32) (p : Fin 256) (d : Fin 64) :
    blkSum u (ix2 p d) = ∑ k : Fin 10, u (ix3 p k d) := mid3 u _ _ _ p d

theorem blkProd_apply (s1 x2 x3 : FVec Ideal S256x64 .f32) (x5 x6 : FVec Ideal S256 .f32) (wu w11 w12 : FVec Ideal S64x64 .bf16)
    (p : Fin 256) (e : Fin 64) :
    blkProd s1 x2 x3 x5 x6 wu w11 w12 (ix2 p e)
      = Ideal.tanh ((Hgnn.lin (fun d => s1 (ix2 p d)) (fun e d => w11 (ix2 e d)) e
            + Hgnn.lin (fun d => s1 (ix2 p d) * x2 (ix2 p d)) (fun e d => w12 (ix2 e d)) e) * x5 (ix1 p)
          + Hgnn.lin (fun d => x2 (ix2 p d)) (fun e d => w11 (ix2 e d)) e)
        * Ideal.tanh (Hgnn.lin (fun d => x3 (ix2 p d)) (fun e d => wu (ix2 e d)) e * x6 (ix1 p)) := by
  unfold blkProd Hgnn.lin
  simp only [tanh_apply, addf_apply, mulf_apply, spread2_apply, col2_apply]
  rw [rowLin, rowLin, rowLin, rowLin]
  simp only [truncf_apply, mulf_apply]

/-- Entry p of what the body stores is the row's score from the blocks' rows p. -/
theorem out_apply (x0 x1 : Vec Ideal S256x10x64 .f32) (x2 x3 : Vec Ideal S256x64 .f32) (x4 : Vec Ideal S256x10 .f32)
    (x5 x6 : Vec Ideal S256 .f32) (x7 x8 x9 x10 x11 : Vec Ideal S64x64 .bf16) (p : Fin 256) :
    k0_pay1 (k0_pay2 x7) (k0_pay3 x8) (k0_pay4 x10) (k0_pay5 x11) (k0_pay8 x2) (k0_pay9 x3) (k0_pay10 x4) (k0_pay11 x5)
        (k0_pay12 x6) (k0_pay13 x0 x1) (k0_pay14 x0) (k0_pay15 x8 x1) (k0_pay16 x9) (constant S2560x64 .f32 0x00000000#32) (ix1 p)
      = Hgnn.tailK
          (Hgnn.unitK (fun k d => x0 (ix3 p k d)) (fun k d => x1 (ix3 p k d)) (fun k => x4 (ix2 p k))
            (Ideal.ofBits .f32 0x2B8CBCCC#32) (fun e d => x8 (ix2 e d)) (fun e d => x9 (ix2 e d)))
          (fun d => x2 (ix2 p d)) (fun d => x3 (ix2 p d)) (x5 (ix1 p)) (x6 (ix1 p))
          (fun e d => x7 (ix2 e d)) (fun e d => x10 (ix2 e d)) (fun e d => x11 (ix2 e d)) := by
  rw [pay_eq]
  refine (lane2 _ _ _ _ p).trans ?_
  unfold Hgnn.tailK Hgnn.tailS Hgnn.score
  refine Finset.sum_congr rfl fun e _ => ?_
  rw [blkProd_apply]
  have hs : ∀ d : Fin 64, blkSum (blkUnit (blkPre x0 x1 x4 x8 x9)) (ix2 p d)
      = ∑ k : Fin 10, Hgnn.unitK (fun k d => x0 (ix3 p k d)) (fun k d => x1 (ix3 p k d)) (fun k => x4 (ix2 p k))
          (Ideal.ofBits .f32 0x2B8CBCCC#32) (fun e d => x8 (ix2 e d)) (fun e d => x9 (ix2 e d)) k d := by
    intro d
    rw [blkSum_apply]
    refine Finset.sum_congr rfl fun k _ => ?_
    rw [blkUnit_apply]
    unfold Hgnn.unitK Hgnn.unit
    simp only [blkPre_apply]
  simp only [hs]

end Cert.Hgnn.Payload

end
-- ==== Proof.KernelValue.lean ====
/-
  The kernel's result array.

  The grid has 64 points; point t stages rows 256·t … 256·t + 255 of every batch-indexed array and all of each
  weight matrix, and writes back rows 256·t … of the result. What it writes is, row by row, the row's score of the
  staged rows (`Payload.out_apply`), and a row of a block is the row 256·t + p of the array, so every point writes
  the block of ONE function of the arrays — the score of row b from row b of each array. The 64 blocks cover the
  16384 rows, so after the run the result array is that function.
-/
import proofs.«121466_j80178449482027_2_alg».proof.Proof.Gen.KernelIdeal.Value
import proofs.«121466_j80178449482027_2_alg».proof.Proof.Payload

set_option maxRecDepth 16384

noncomputable section

namespace Cert.Hgnn.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The score of batch row b from row b of twelve arrays. -/
def rowScore (A0 A1 : S16384x10x64.Idx → EReal) (A2 A3 : S16384x64.Idx → EReal) (A4 : S16384x10.Idx → EReal)
    (A5 A6 : S16384.Idx → EReal) (A7 A8 A9 A10 A11 : S64x64.Idx → EReal) (b : Fin 16384) : EReal :=
  Hgnn.tailK
    (Hgnn.unitK (fun k d => A0 (ix3 b k d)) (fun k d => A1 (ix3 b k d)) (fun k => A4 (ix2 b k))
      (Ideal.ofBits .f32 0x2B8CBCCC#32) (fun e d => A8 (ix2 e d)) (fun e d => A9 (ix2 e d)))
    (fun d => A2 (ix2 b d)) (fun d => A3 (ix2 b d)) (A5 (ix1 b)) (A6 (ix1 b))
    (fun e d => A7 (ix2 e d)) (fun e d => A10 (ix2 e d)) (fun e d => A11 (ix2 e d))

/-- The score of every batch row. -/
def scoreOf (A0 A1 : S16384x10x64.Idx → EReal) (A2 A3 : S16384x64.Idx → EReal) (A4 : S16384x10.Idx → EReal)
    (A5 A6 : S16384.Idx → EReal) (A7 A8 A9 A10 A11 : S64x64.Idx → EReal) : S16384.Idx → EReal :=
  fun i => rowScore A0 A1 A2 A3 A4 A5 A6 A7 A8 A9 A10 A11 (i 0)

/-- The result array as one function of the arrays the region finds behind its twelve input windows. -/
def G (c : Dev nD) : S16384.Idx → EReal :=
  scoreOf (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9)) (V m c (Pipeline.arrRef spec0 10)) (V m c (Pipeline.arrRef spec0 11))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 64 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 1) = t.val := (by decide +kernel : ∀ t : Fin grid0.N, _)
theorem idx6 : ∀ t : Fin cfg0.N, win0_6.index t (0 : Fin 1) = t.val := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 1) = t.val := (by decide +kernel : ∀ t : Fin grid0.N, _)

/-- Row p of point t's blocks is row 256·t + p of the arrays. -/
def rowOf (t : Fin cfg0.N) (p : Fin 256) : Fin 16384 :=
  ⟨t.val * 256 + p.val, by have h1 := t.isLt; have hN : cfg0.N = 64 := N_0; have h2 := p.isLt; omega⟩

/-! ## Where a block's entry sits in its array -/

theorem emb0 (t : Fin cfg0.N) (p : Fin 256) (k : Fin 10) (d : Fin 64) :
    ((cfg0.win 0).blk t).view.emb (ix3 p k d) = ix3 (rowOf t p) k d := by
  obtain ⟨e0, e1, e2⟩ := idx0 t
  funext a; apply Fin.ext
  match a with
  | ⟨0, _⟩ => show win0_0.index t (0 : Fin 3) * 256 + 1 * p.val = t.val * 256 + p.val; omega
  | ⟨1, _⟩ => show win0_0.index t (1 : Fin 3) * 10 + 1 * k.val = k.val; omega
  | ⟨2, _⟩ => show win0_0.index t (2 : Fin 3) * 64 + 1 * d.val = d.val; omega

theorem emb1 (t : Fin cfg0.N) (p : Fin 256) (k : Fin 10) (d : Fin 64) :
    ((cfg0.win 1).blk t).view.emb (ix3 p k d) = ix3 (rowOf t p) k d := by
  obtain ⟨e0, e1, e2⟩ := idx1 t
  funext a; apply Fin.ext
  match a with
  | ⟨0, _⟩ => show win0_1.index t (0 : Fin 3) * 256 + 1 * p.val = t.val * 256 + p.val; omega
  | ⟨1, _⟩ => show win0_1.index t (1 : Fin 3) * 10 + 1 * k.val = k.val; omega
  | ⟨2, _⟩ => show win0_1.index t (2 : Fin 3) * 64 + 1 * d.val = d.val; omega

theorem emb2 (t : Fin cfg0.N) (p : Fin 256) (d : Fin 64) : ((cfg0.win 2).blk t).view.emb (ix2 p d) = ix2 (rowOf t p) d := by
  obtain ⟨e0, e1⟩ := idx2 t
  funext a; apply Fin.ext
  match a with
  | ⟨0, _⟩ => show win0_2.index t (0 : Fin 2) * 256 + 1 * p.val = t.val * 256 + p.val; omega
  | ⟨1, _⟩ => show win0_2.index t (1 : Fin 2) * 64 + 1 * d.val = d.val; omega

theorem emb3 (t : Fin cfg0.N) (p : Fin 256) (d : Fin 64) : ((cfg0.win 3).blk t).view.emb (ix2 p d) = ix2 (rowOf t p) d := by
  obtain ⟨e0, e1⟩ := idx3 t
  funext a; apply Fin.ext
  match a with
  | ⟨0, _⟩ => show win0_3.index t (0 : Fin 2) * 256 + 1 * p.val = t.val * 256 + p.val; omega
  | ⟨1, _⟩ => show win0_3.index t (1 : Fin 2) * 64 + 1 * d.val = d.val; omega

theorem emb4 (t : Fin cfg0.N) (p : Fin 256) (k : Fin 10) : ((cfg0.win 4).blk t).view.emb (ix2 p k) = ix2 (rowOf t p) k := by
  obtain ⟨e0, e1⟩ := idx4 t
  funext a; apply Fin.ext
  match a with
  | ⟨0, _⟩ => show win0_4.index t (0 : Fin 2) * 256 + 1 * p.val = t.val * 256 + p.val; omega
  | ⟨1, _⟩ => show win0_4.index t (1 : Fin 2) * 10 + 1 * k.val = k.val; omega

theorem emb5 (t : Fin cfg0.N) (p : Fin 256) : ((cfg0.win 5).blk t).view.emb (ix1 p) = ix1 (rowOf t p) := by
  have e0 := idx5 t
  funext a; apply Fin.ext
  match a with
  | ⟨0, _⟩ => show win0_5.index t (0 : Fin 1) * 256 + 1 * p.val = t.val * 256 + p.val; omega

theorem emb6 (t : Fin cfg0.N) (p : Fin 256) : ((cfg0.win 6).blk t).view.emb (ix1 p) = ix1 (rowOf t p) := by
  have e0 := idx6 t
  funext a; apply Fin.ext
  match a with
  | ⟨0, _⟩ => show win0_6.index t (0 : Fin 1) * 256 + 1 * p.val = t.val * 256 + p.val; omega

theorem emb12 (t : Fin cfg0.N) (p : Fin 256) : ((cfg0.win 12).blk t).view.emb (ix1 p) = ix1 (rowOf t p) := by
  have e0 := idx12 t
  funext a; apply Fin.ext
  match a with
  | ⟨0, _⟩ => show win0_12.index t (0 : Fin 1) * 256 + 1 * p.val = t.val * 256 + p.val; omega

theorem emb7 (t : Fin cfg0.N) (e d : Fin 64) : ((cfg0.win 7).blk t).view.emb (ix2 e d) = ix2 e d := by
  obtain ⟨e0, e1⟩ := idx7 t
  funext a; apply Fin.ext
  match a with
  | ⟨0, _⟩ => show win0_7.index t (0 : Fin 2) * 64 + 1 * e.val = e.val; omega
  | ⟨1, _⟩ => show win0_7.index t (1 : Fin 2) * 64 + 1 * d.val = d.val; omega

theorem emb8 (t : Fin cfg0.N) (e d : Fin 64) : ((cfg0.win 8).blk t).view.emb (ix2 e d) = ix2 e d := by
  obtain ⟨e0, e1⟩ := idx8 t
  funext a; apply Fin.ext
  match a with
  | ⟨0, _⟩ => show win0_8.index t (0 : Fin 2) * 64 + 1 * e.val = e.val; omega
  | ⟨1, _⟩ => show win0_8.index t (1 : Fin 2) * 64 + 1 * d.val = d.val; omega

theorem emb9 (t : Fin cfg0.N) (e d : Fin 64) : ((cfg0.win 9).blk t).view.emb (ix2 e d) = ix2 e d := by
  obtain ⟨e0, e1⟩ := idx9 t
  funext a; apply Fin.ext
  match a with
  | ⟨0, _⟩ => show win0_9.index t (0 : Fin 2) * 64 + 1 * e.val = e.val; omega
  | ⟨1, _⟩ => show win0_9.index t (1 : Fin 2) * 64 + 1 * d.val = d.val; omega

theorem emb10 (t : Fin cfg0.N) (e d : Fin 64) : ((cfg0.win 10).blk t).view.emb (ix2 e d) = ix2 e d := by
  obtain ⟨e0, e1⟩ := idx10 t
  funext a; apply Fin.ext
  match a with
  | ⟨0, _⟩ => show win0_10.index t (0 : Fin 2) * 64 + 1 * e.val = e.val; omega
  | ⟨1, _⟩ => show win0_10.index t (1 : Fin 2) * 64 + 1 * d.val = d.val; omega

theorem emb11 (t : Fin cfg0.N) (e d : Fin 64) : ((cfg0.win 11).blk t).view.emb (ix2 e d) = ix2 e d := by
  obtain ⟨e0, e1⟩ := idx11 t
  funext a; apply Fin.ext
  match a with
  | ⟨0, _⟩ => show win0_11.index t (0 : Fin 2) * 64 + 1 * e.val = e.val; omega
  | ⟨1, _⟩ => show win0_11.index t (1 : Fin 2) * 64 + 1 * d.val = d.val; omega

/-! ## What point t writes back -/

/-! ## A block's entry read off an array -/

theorem read0 (A : S16384x10x64.Idx → EReal) (t : Fin cfg0.N) (p : Fin 256) (k : Fin 10) (d : Fin 64) :
    ((cfg0.win 0).blk t).view.read (Elt Ideal) A (ix3 p k d) = A (ix3 (rowOf t p) k d) := congrArg A (emb0 t p k d)
theorem read1 (A : S16384x10x64.Idx → EReal) (t : Fin cfg0.N) (p : Fin 256) (k : Fin 10) (d : Fin 64) :
    ((cfg0.win 1).blk t).view.read (Elt Ideal) A (ix3 p k d) = A (ix3 (rowOf t p) k d) := congrArg A (emb1 t p k d)
theorem read2 (A : S16384x64.Idx → EReal) (t : Fin cfg0.N) (p : Fin 256) (d : Fin 64) :
    ((cfg0.win 2).blk t).view.read (Elt Ideal) A (ix2 p d) = A (ix2 (rowOf t p) d) := congrArg A (emb2 t p d)
theorem read3 (A : S16384x64.Idx → EReal) (t : Fin cfg0.N) (p : Fin 256) (d : Fin 64) :
    ((cfg0.win 3).blk t).view.read (Elt Ideal) A (ix2 p d) = A (ix2 (rowOf t p) d) := congrArg A (emb3 t p d)
theorem read4 (A : S16384x10.Idx → EReal) (t : Fin cfg0.N) (p : Fin 256) (k : Fin 10) :
    ((cfg0.win 4).blk t).view.read (Elt Ideal) A (ix2 p k) = A (ix2 (rowOf t p) k) := congrArg A (emb4 t p k)
theorem read5 (A : S16384.Idx → EReal) (t : Fin cfg0.N) (p : Fin 256) :
    ((cfg0.win 5).blk t).view.read (Elt Ideal) A (ix1 p) = A (ix1 (rowOf t p)) := congrArg A (emb5 t p)
theorem read6 (A : S16384.Idx → EReal) (t : Fin cfg0.N) (p : Fin 256) :
    ((cfg0.win 6).blk t).view.read (Elt Ideal) A (ix1 p) = A (ix1 (rowOf t p)) := congrArg A (emb6 t p)
theorem read7 (A : S64x64.Idx → EReal) (t : Fin cfg0.N) (e d : Fin 64) :
    ((cfg0.win 7).blk t).view.read (Elt Ideal) A (ix2 e d) = A (ix2 e d) := congrArg A (emb7 t e d)
theorem read8 (A : S64x64.Idx → EReal) (t : Fin cfg0.N) (e d : Fin 64) :
    ((cfg0.win 8).blk t).view.read (Elt Ideal) A (ix2 e d) = A (ix2 e d) := congrArg A (emb8 t e d)
theorem read9 (A : S64x64.Idx → EReal) (t : Fin cfg0.N) (e d : Fin 64) :
    ((cfg0.win 9).blk t).view.read (Elt Ideal) A (ix2 e d) = A (ix2 e d) := congrArg A (emb9 t e d)
theorem read10 (A : S64x64.Idx → EReal) (t : Fin cfg0.N) (e d : Fin 64) :
    ((cfg0.win 10).blk t).view.read (Elt Ideal) A (ix2 e d) = A (ix2 e d) := congrArg A (emb10 t e d)
theorem read11 (A : S64x64.Idx → EReal) (t : Fin cfg0.N) (e d : Fin 64) :
    ((cfg0.win 11).blk t).view.read (Elt Ideal) A (ix2 e d) = A (ix2 e d) := congrArg A (emb11 t e d)

/-! ## What point t writes back -/

/-- Over ANY twelve arrays and any twelve blocks whose rows are rows 256·t + p of the arrays: what the body leaves of
    the blocks is block t of the arrays' row scores. -/
theorem flushed_gen (A0 A1 : S16384x10x64.Idx → EReal) (A2 A3 : S16384x64.Idx → EReal) (A4 : S16384x10.Idx → EReal)
    (A5 A6 : S16384.Idx → EReal) (A7 A8 A9 A10 A11 : S64x64.Idx → EReal) (t : Fin cfg0.N)
    (x0 x1 : Vec Ideal S256x10x64 .f32) (x2 x3 : Vec Ideal S256x64 .f32) (x4 : Vec Ideal S256x10 .f32)
    (x5 x6 : Vec Ideal S256 .f32) (x7 x8 x9 x10 x11 : Vec Ideal S64x64 .bf16)
    (h0 : ∀ p k d, x0 (ix3 p k d) = A0 (ix3 (rowOf t p) k d)) (h1 : ∀ p k d, x1 (ix3 p k d) = A1 (ix3 (rowOf t p) k d))
    (h2 : ∀ p d, x2 (ix2 p d) = A2 (ix2 (rowOf t p) d)) (h3 : ∀ p d, x3 (ix2 p d) = A3 (ix2 (rowOf t p) d))
    (h4 : ∀ p k, x4 (ix2 p k) = A4 (ix2 (rowOf t p) k)) (h5 : ∀ p, x5 (ix1 p) = A5 (ix1 (rowOf t p)))
    (h6 : ∀ p, x6 (ix1 p) = A6 (ix1 (rowOf t p))) (h7 : ∀ e d, x7 (ix2 e d) = A7 (ix2 e d)) (h8 : ∀ e d, x8 (ix2 e d) = A8 (ix2 e d))
    (h9 : ∀ e d, x9 (ix2 e d) = A9 (ix2 e d)) (h10 : ∀ e d, x10 (ix2 e d) = A10 (ix2 e d)) (h11 : ∀ e d, x11 (ix2 e d) = A11 (ix2 e d)) :
    (cfg0.win 12).cut (grid0.coords t) (out0_12 x0 x1 x2 x3 x4 x5 x6 x7 x8 x9 x10 x11)
      = ((cfg0.win 12).blk t).view.read (Elt Ideal) (scoreOf A0 A1 A2 A3 A4 A5 A6 A7 A8 A9 A10 A11) := by
  unfold out0_12
  rw [View.canon_unit_zero hz1]
  simp only [View.ld_unit_zero (S := S64x64) hz2, View.ld_unit_zero (S := S256x10x64) hz3, View.ld_unit_zero (S := S256x64) hz2,
    View.ld_unit_zero (S := S256x10) hz2, View.ld_unit_zero (S := S256) hz1]
  funext j
  obtain ⟨p, rfl⟩ : ∃ p : Fin 256, j = ix1 p := ⟨j 0, eq_ix1 j⟩
  show k0_pay1 (k0_pay2 x7) (k0_pay3 x8) (k0_pay4 x10) (k0_pay5 x11) (k0_pay8 x2) (k0_pay9 x3) (k0_pay10 x4) (k0_pay11 x5)
      (k0_pay12 x6) (k0_pay13 x0 x1) (k0_pay14 x0) (k0_pay15 x8 x1) (k0_pay16 x9) (constant S2560x64 .f32 0x00000000#32) (ix1 p)
    = scoreOf A0 A1 A2 A3 A4 A5 A6 A7 A8 A9 A10 A11 (((cfg0.win 12).blk t).view.emb (ix1 p))
  rw [Payload.out_apply, emb12]
  simp only [h0, h1, h2, h3, h4, h5, h6, h7, h8, h9, h10, h11]
  rfl

/-- Point t writes block t of `G`. -/
theorem flushed_eq (c : Dev nD) (t : Fin cfg0.N) :
    (dats m 0 c).flushed 12 t = ((cfg0.win 12).blk t).view.read (Elt Ideal) (G m c) := by
  rw [Value.flushed12]
  exact flushed_gen _ _ _ _ _ _ _ _ _ _ _ _ t _ _ _ _ _ _ _ _ _ _ _ _
    (fun p k d => read0 _ t p k d) (fun p k d => read1 _ t p k d) (fun p d => read2 _ t p d) (fun p d => read3 _ t p d)
    (fun p k => read4 _ t p k) (fun p => read5 _ t p) (fun p => read6 _ t p) (fun e d => read7 _ t e d)
    (fun e d => read8 _ t e d) (fun e d => read9 _ t e d) (fun e d => read10 _ t e d) (fun e d => read11 _ t e d)

/-- Every row is in the block of the point 256 rows wide that holds it. -/
theorem cover (i : S16384.Idx) : ∃ t : Fin cfg0.N, (cfg0.win 12).flush t = true ∧ i ∈ ((cfg0.win 12).blk t).view.set := by
  have hi : (i 0).val < 16384 := (i 0).isLt
  have hN : cfg0.N = 64 := N_0
  have hlt : (i 0).val / 256 < cfg0.N := by omega
  refine ⟨⟨(i 0).val / 256, hlt⟩, flush0_12 _, ?_⟩
  show i ∈ ((View.whole main_v71).slice (win0_12.rect ⟨(i 0).val / 256, hlt⟩)).set
  rw [View.set_slice_whole, Rect.mem_set_unit]
  intro a
  have e0 := idx12 ⟨(i 0).val / 256, hlt⟩
  match a with
  | ⟨0, _⟩ =>
    show win0_12.index ⟨(i 0).val / 256, hlt⟩ (0 : Fin 1) * 256 ≤ (i 0).val
      ∧ (i 0).val < win0_12.index ⟨(i 0).val / 256, hlt⟩ (0 : Fin 1) * 256 + 256
    rw [e0]
    show (i 0).val / 256 * 256 ≤ (i 0).val ∧ (i 0).val < (i 0).val / 256 * 256 + 256
    omega

/-- After the run the result array is `G`. -/
theorem final (c : Dev nD) : (dats m 0 c).arrAt 12 cfg0.N = G m c :=
  (dats m 0 c).arrAt_eq_of_cover 12 (G m c) (fun t _ => flushed_eq m c t) cover

/-- The kernel's run: the result array ends at `G`, the arguments unchanged. -/
theorem run : θ_run defs (onTc (τ := τ) (main (F := Ideal))) ⟨m, fun _ => 0, ρ⟩ fun r => ∀ c : Dev nD,
      r.2.mem ((c : Thread nD τ).loc main_v71) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.Hgnn.KernelValue

end
-- ==== Proof.RefRead.lean ====
/-
  The reference's result read at one batch row.

  Each host operation is read at an entry: a general dot product with one contracted axis as the sum over that
  axis, a sum over one axis from the zero scalar as the plain sum over that axis's coordinates, a broadcast as its
  operand at the kept coordinates. Composed, the result at row b is the row's score in the arrangement that applies
  the linear maps to every neighbour before adding (`Hgnn.tailR` of `Hgnn.unitR`) of row b of the shared stages.
-/
import proofs.«121466_j80178449482027_2_alg».proof.Proof.RefStages
import proofs.«121466_j80178449482027_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Hgnn.RefRead

open Cert.ReferenceIdeal Idealize.ShloMosaic Idealize.ShloMosaic.ValueIdx Cert.Hgnn.Ref

/-! ## General dot products with the last axis contracted against the matrix's second axis -/

theorem dot4_apply_l0 (i : S16384x10x10x64.Idx) (q : dot_S16384x10x10x64_S64x64_S16384x10x10x64_3_1_012_0_n_n.contr.Idx) : (dot_S16384x10x10x64_S64x64_S16384x10x10x64_3_1_012_0_n_n.lhsIdx i q 0).val = (i 0).val := by
  unfold DotDims.lhsIdx
  rw [dif_neg (show ¬(0 : Fin S16384x10x10x64.rank) ∈ dot_S16384x10x10x64_S64x64_S16384x10x10x64_3_1_012_0_n_n.lhsBatch by decide), dif_pos (show (0 : Fin S16384x10x10x64.rank) ∈ dot_S16384x10x10x64_S64x64_S16384x10x10x64_3_1_012_0_n_n.lhsNonContracting by decide)]
  rfl
theorem dot4_apply_l1 (i : S16384x10x10x64.Idx) (q : dot_S16384x10x10x64_S64x64_S16384x10x10x64_3_1_012_0_n_n.contr.Idx) : (dot_S16384x10x10x64_S64x64_S16384x10x10x64_3_1_012_0_n_n.lhsIdx i q 1).val = (i 1).val := by
  unfold DotDims.lhsIdx
  rw [dif_neg (show ¬(1 : Fin S16384x10x10x64.rank) ∈ dot_S16384x10x10x64_S64x64_S16384x10x10x64_3_1_012_0_n_n.lhsBatch by decide), dif_pos (show (1 : Fin S16384x10x10x64.rank) ∈ dot_S16384x10x10x64_S64x64_S16384x10x10x64_3_1_012_0_n_n.lhsNonContracting by decide)]
  rfl
theorem dot4_apply_l2 (i : S16384x10x10x64.Idx) (q : dot_S16384x10x10x64_S64x64_S16384x10x10x64_3_1_012_0_n_n.contr.Idx) : (dot_S16384x10x10x64_S64x64_S16384x10x10x64_3_1_012_0_n_n.lhsIdx i q 2).val = (i 2).val := by
  unfold DotDims.lhsIdx
  rw [dif_neg (show ¬(2 : Fin S16384x10x10x64.rank) ∈ dot_S16384x10x10x64_S64x64_S16384x10x10x64_3_1_012_0_n_n.lhsBatch by decide), dif_pos (show (2 : Fin S16384x10x10x64.rank) ∈ dot_S16384x10x10x64_S64x64_S16384x10x10x64_3_1_012_0_n_n.lhsNonContracting by decide)]
  rfl
theorem dot4_apply_r0 (i : S16384x10x10x64.Idx) (q : dot_S16384x10x10x64_S64x64_S16384x10x10x64_3_1_012_0_n_n.contr.Idx) : (dot_S16384x10x10x64_S64x64_S16384x10x10x64_3_1_012_0_n_n.rhsIdx i q 0).val = (i 3).val := by
  unfold DotDims.rhsIdx
  rw [dif_neg (show ¬(0 : Fin S64x64.rank) ∈ dot_S16384x10x10x64_S64x64_S16384x10x10x64_3_1_012_0_n_n.rhsBatch by decide), dif_pos (show (0 : Fin S64x64.rank) ∈ dot_S16384x10x10x64_S64x64_S16384x10x10x64_3_1_012_0_n_n.rhsNonContracting by decide)]
  rfl
/-- Every second-hop vector times a weight matrix's rows. -/
theorem dot4_apply (X : FVec Ideal S16384x10x10x64 .f32) (W : FVec Ideal S64x64 .f32) (b : Fin 16384) (k : Fin 10) (j : Fin 10) (e : Fin 64) :
    Host.dotGeneral (F := Ideal) dot_S16384x10x10x64_S64x64_S16384x10x10x64_3_1_012_0_n_n none X W (ix4 b k j e) = ∑ d : Fin 64, X (ix4 b k j d) * W (ix2 e d) := by
  simp only [Host.dotGeneral]
  rw [Ideal.dotGeneral_apply, ← Equiv.sum_comp (contrEquiv1 dot_S16384x10x10x64_S64x64_S16384x10x10x64_3_1_012_0_n_n 64 rfl rfl).symm]
  refine Finset.sum_congr rfl fun d _ => ?_
  have hk := contrEquiv1_symm_val dot_S16384x10x10x64_S64x64_S16384x10x10x64_3_1_012_0_n_n 64 rfl rfl d
  have el : dot_S16384x10x10x64_S64x64_S16384x10x10x64_3_1_012_0_n_n.lhsIdx (ix4 b k j e) ((contrEquiv1 dot_S16384x10x10x64_S64x64_S16384x10x10x64_3_1_012_0_n_n 64 rfl rfl).symm d) = ix4 b k j d :=
    funext fun a => Fin.ext (by
      match a with
      | ⟨0, _⟩ => exact dot4_apply_l0 _ _
      | ⟨1, _⟩ => exact dot4_apply_l1 _ _
      | ⟨2, _⟩ => exact dot4_apply_l2 _ _
      | ⟨3, _⟩ => exact (dot_S16384x10x10x64_S64x64_S16384x10x10x64_3_1_012_0_n_n.lhsIdx_val_of_single rfl _ _).trans hk)
  have er : dot_S16384x10x10x64_S64x64_S16384x10x10x64_3_1_012_0_n_n.rhsIdx (ix4 b k j e) ((contrEquiv1 dot_S16384x10x10x64_S64x64_S16384x10x10x64_3_1_012_0_n_n 64 rfl rfl).symm d) = ix2 e d :=
    funext fun a => Fin.ext (by
      match a with
      | ⟨0, _⟩ => exact dot4_apply_r0 _ _
      | ⟨1, _⟩ => exact (dot_S16384x10x10x64_S64x64_S16384x10x10x64_3_1_012_0_n_n.rhsIdx_val_of_single rfl _ _).trans hk)
  rw [el, er]

theorem dot3_apply_l0 (i : S16384x10x64.Idx) (q : dot_S16384x10x64_S64x64_S16384x10x64_2_1_01_0_n_n.contr.Idx) : (dot_S16384x10x64_S64x64_S16384x10x64_2_1_01_0_n_n.lhsIdx i q 0).val = (i 0).val := by
  unfold DotDims.lhsIdx
  rw [dif_neg (show ¬(0 : Fin S16384x10x64.rank) ∈ dot_S16384x10x64_S64x64_S16384x10x64_2_1_01_0_n_n.lhsBatch by decide), dif_pos (show (0 : Fin S16384x10x64.rank) ∈ dot_S16384x10x64_S64x64_S16384x10x64_2_1_01_0_n_n.lhsNonContracting by decide)]
  rfl
theorem dot3_apply_l1 (i : S16384x10x64.Idx) (q : dot_S16384x10x64_S64x64_S16384x10x64_2_1_01_0_n_n.contr.Idx) : (dot_S16384x10x64_S64x64_S16384x10x64_2_1_01_0_n_n.lhsIdx i q 1).val = (i 1).val := by
  unfold DotDims.lhsIdx
  rw [dif_neg (show ¬(1 : Fin S16384x10x64.rank) ∈ dot_S16384x10x64_S64x64_S16384x10x64_2_1_01_0_n_n.lhsBatch by decide), dif_pos (show (1 : Fin S16384x10x64.rank) ∈ dot_S16384x10x64_S64x64_S16384x10x64_2_1_01_0_n_n.lhsNonContracting by decide)]
  rfl
theorem dot3_apply_r0 (i : S16384x10x64.Idx) (q : dot_S16384x10x64_S64x64_S16384x10x64_2_1_01_0_n_n.contr.Idx) : (dot_S16384x10x64_S64x64_S16384x10x64_2_1_01_0_n_n.rhsIdx i q 0).val = (i 2).val := by
  unfold DotDims.rhsIdx
  rw [dif_neg (show ¬(0 : Fin S64x64.rank) ∈ dot_S16384x10x64_S64x64_S16384x10x64_2_1_01_0_n_n.rhsBatch by decide), dif_pos (show (0 : Fin S64x64.rank) ∈ dot_S16384x10x64_S64x64_S16384x10x64_2_1_01_0_n_n.rhsNonContracting by decide)]
  rfl
/-- Every first-hop vector times a weight matrix's rows. -/
theorem dot3_apply (X : FVec Ideal S16384x10x64 .f32) (W : FVec Ideal S64x64 .f32) (b : Fin 16384) (k : Fin 10) (e : Fin 64) :
    Host.dotGeneral (F := Ideal) dot_S16384x10x64_S64x64_S16384x10x64_2_1_01_0_n_n none X W (ix3 b k e) = ∑ d : Fin 64, X (ix3 b k d) * W (ix2 e d) := by
  simp only [Host.dotGeneral]
  rw [Ideal.dotGeneral_apply, ← Equiv.sum_comp (contrEquiv1 dot_S16384x10x64_S64x64_S16384x10x64_2_1_01_0_n_n 64 rfl rfl).symm]
  refine Finset.sum_congr rfl fun d _ => ?_
  have hk := contrEquiv1_symm_val dot_S16384x10x64_S64x64_S16384x10x64_2_1_01_0_n_n 64 rfl rfl d
  have el : dot_S16384x10x64_S64x64_S16384x10x64_2_1_01_0_n_n.lhsIdx (ix3 b k e) ((contrEquiv1 dot_S16384x10x64_S64x64_S16384x10x64_2_1_01_0_n_n 64 rfl rfl).symm d) = ix3 b k d :=
    funext fun a => Fin.ext (by
      match a with
      | ⟨0, _⟩ => exact dot3_apply_l0 _ _
      | ⟨1, _⟩ => exact dot3_apply_l1 _ _
      | ⟨2, _⟩ => exact (dot_S16384x10x64_S64x64_S16384x10x64_2_1_01_0_n_n.lhsIdx_val_of_single rfl _ _).trans hk)
  have er : dot_S16384x10x64_S64x64_S16384x10x64_2_1_01_0_n_n.rhsIdx (ix3 b k e) ((contrEquiv1 dot_S16384x10x64_S64x64_S16384x10x64_2_1_01_0_n_n 64 rfl rfl).symm d) = ix2 e d :=
    funext fun a => Fin.ext (by
      match a with
      | ⟨0, _⟩ => exact dot3_apply_r0 _ _
      | ⟨1, _⟩ => exact (dot_S16384x10x64_S64x64_S16384x10x64_2_1_01_0_n_n.rhsIdx_val_of_single rfl _ _).trans hk)
  rw [el, er]

theorem dot3u_apply_l0 (i : S16384x50x64.Idx) (q : dot_S16384x50x64_S64x64_S16384x50x64_2_1_01_0_n_n.contr.Idx) : (dot_S16384x50x64_S64x64_S16384x50x64_2_1_01_0_n_n.lhsIdx i q 0).val = (i 0).val := by
  unfold DotDims.lhsIdx
  rw [dif_neg (show ¬(0 : Fin S16384x50x64.rank) ∈ dot_S16384x50x64_S64x64_S16384x50x64_2_1_01_0_n_n.lhsBatch by decide), dif_pos (show (0 : Fin S16384x50x64.rank) ∈ dot_S16384x50x64_S64x64_S16384x50x64_2_1_01_0_n_n.lhsNonContracting by decide)]
  rfl
theorem dot3u_apply_l1 (i : S16384x50x64.Idx) (q : dot_S16384x50x64_S64x64_S16384x50x64_2_1_01_0_n_n.contr.Idx) : (dot_S16384x50x64_S64x64_S16384x50x64_2_1_01_0_n_n.lhsIdx i q 1).val = (i 1).val := by
  unfold DotDims.lhsIdx
  rw [dif_neg (show ¬(1 : Fin S16384x50x64.rank) ∈ dot_S16384x50x64_S64x64_S16384x50x64_2_1_01_0_n_n.lhsBatch by decide), dif_pos (show (1 : Fin S16384x50x64.rank) ∈ dot_S16384x50x64_S64x64_S16384x50x64_2_1_01_0_n_n.lhsNonContracting by decide)]
  rfl
theorem dot3u_apply_r0 (i : S16384x50x64.Idx) (q : dot_S16384x50x64_S64x64_S16384x50x64_2_1_01_0_n_n.contr.Idx) : (dot_S16384x50x64_S64x64_S16384x50x64_2_1_01_0_n_n.rhsIdx i q 0).val = (i 2).val := by
  unfold DotDims.rhsIdx
  rw [dif_neg (show ¬(0 : Fin S64x64.rank) ∈ dot_S16384x50x64_S64x64_S16384x50x64_2_1_01_0_n_n.rhsBatch by decide), dif_pos (show (0 : Fin S64x64.rank) ∈ dot_S16384x50x64_S64x64_S16384x50x64_2_1_01_0_n_n.rhsNonContracting by decide)]
  rfl
/-- Every user-side vector times a weight matrix's rows. -/
theorem dot3u_apply (X : FVec Ideal S16384x50x64 .f32) (W : FVec Ideal S64x64 .f32) (b : Fin 16384) (k : Fin 50) (e : Fin 64) :
    Host.dotGeneral (F := Ideal) dot_S16384x50x64_S64x64_S16384x50x64_2_1_01_0_n_n none X W (ix3 b k e) = ∑ d : Fin 64, X (ix3 b k d) * W (ix2 e d) := by
  simp only [Host.dotGeneral]
  rw [Ideal.dotGeneral_apply, ← Equiv.sum_comp (contrEquiv1 dot_S16384x50x64_S64x64_S16384x50x64_2_1_01_0_n_n 64 rfl rfl).symm]
  refine Finset.sum_congr rfl fun d _ => ?_
  have hk := contrEquiv1_symm_val dot_S16384x50x64_S64x64_S16384x50x64_2_1_01_0_n_n 64 rfl rfl d
  have el : dot_S16384x50x64_S64x64_S16384x50x64_2_1_01_0_n_n.lhsIdx (ix3 b k e) ((contrEquiv1 dot_S16384x50x64_S64x64_S16384x50x64_2_1_01_0_n_n 64 rfl rfl).symm d) = ix3 b k d :=
    funext fun a => Fin.ext (by
      match a with
      | ⟨0, _⟩ => exact dot3u_apply_l0 _ _
      | ⟨1, _⟩ => exact dot3u_apply_l1 _ _
      | ⟨2, _⟩ => exact (dot_S16384x50x64_S64x64_S16384x50x64_2_1_01_0_n_n.lhsIdx_val_of_single rfl _ _).trans hk)
  have er : dot_S16384x50x64_S64x64_S16384x50x64_2_1_01_0_n_n.rhsIdx (ix3 b k e) ((contrEquiv1 dot_S16384x50x64_S64x64_S16384x50x64_2_1_01_0_n_n 64 rfl rfl).symm d) = ix2 e d :=
    funext fun a => Fin.ext (by
      match a with
      | ⟨0, _⟩ => exact dot3u_apply_r0 _ _
      | ⟨1, _⟩ => exact (dot_S16384x50x64_S64x64_S16384x50x64_2_1_01_0_n_n.rhsIdx_val_of_single rfl _ _).trans hk)
  rw [el, er]

theorem dotT_l0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem dotT_r1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl
/-- The target rows times an explicitly transposed weight matrix. -/
theorem dotT_apply (X : FVec Ideal S16384x64 .f32) (W : FVec Ideal S64x64 .f32) (ht : S64x64.Transposes [1, 0] S64x64)
    (b : Fin 16384) (e : Fin 64) :
    Host.dotGeneral (F := Ideal) dot_S16384x64_S64x64_S16384x64_1_0_0_1_n_n none X (transpose S64x64 [1, 0] W ht) (ix2 b e)
      = ∑ d : Fin 64, X (ix2 b d) * W (ix2 e d) := by
  simp only [Host.dotGeneral]
  rw [Ideal.dotGeneral_apply, ← Equiv.sum_comp (contrEquiv1 dot_S16384x64_S64x64_S16384x64_1_0_0_1_n_n 64 rfl rfl).symm]
  refine Finset.sum_congr rfl fun d _ => ?_
  have hk := contrEquiv1_symm_val dot_S16384x64_S64x64_S16384x64_1_0_0_1_n_n 64 rfl rfl d
  have el : dot_S16384x64_S64x64_S16384x64_1_0_0_1_n_n.lhsIdx (ix2 b e) ((contrEquiv1 dot_S16384x64_S64x64_S16384x64_1_0_0_1_n_n 64 rfl rfl).symm d) = ix2 b d :=
    funext fun a => Fin.ext (by
      match a with
      | ⟨0, _⟩ => exact dotT_l0 _ _
      | ⟨1, _⟩ => exact (dot_S16384x64_S64x64_S16384x64_1_0_0_1_n_n.lhsIdx_val_of_single rfl _ _).trans hk)
  have er : dot_S16384x64_S64x64_S16384x64_1_0_0_1_n_n.rhsIdx (ix2 b e) ((contrEquiv1 dot_S16384x64_S64x64_S16384x64_1_0_0_1_n_n 64 rfl rfl).symm d) = ix2 d e :=
    funext fun a => Fin.ext (by
      match a with
      | ⟨0, _⟩ => exact (dot_S16384x64_S64x64_S16384x64_1_0_0_1_n_n.rhsIdx_val_of_single rfl _ _).trans hk
      | ⟨1, _⟩ => exact dotT_r1 _ _)
  rw [el, er, transpose_ix2_apply W ht d e]

/-! ## Sums over one axis, from the zero scalar -/

/-- The sum over the second-hop neighbours. -/
theorem sumJ_apply (X : FVec Ideal S16384x10x10x64 .f32) (hr : S16384x10x10x64.ReducesTo [2] S16384x10x64) (hu : 0 < S_.numel) (b : Fin 16384) (k : Fin 10) (e : Fin 64) :
    Host.reduceAdd X z0 hr hu (ix3 b k e) = ∑ j : Fin 10, X (ix4 b k j e) := by
  simp only [Host.reduceAdd, Ideal.hostReduceAdd_def]
  rw [Ideal.hostReduceAdd_single hr (by decide)]
  refine (congrArg (· + _) (Ideal.ofBits_zero_f32)).trans ((zero_add _).trans (Finset.sum_congr rfl fun j _ => ?_))
  exact congrArg X (funext fun a => Fin.ext (by match a with | ⟨0, _⟩ => rfl | ⟨1, _⟩ => rfl | ⟨2, _⟩ => rfl | ⟨3, _⟩ => rfl))

/-- The sum over the coordinates of a first-hop vector. -/
theorem sumE3_apply (X : FVec Ideal S16384x10x64 .f32) (hr : S16384x10x64.ReducesTo [2] S16384x10) (hu : 0 < S_.numel) (b : Fin 16384) (k : Fin 10) :
    Host.reduceAdd X z0 hr hu (ix2 b k) = ∑ e : Fin 64, X (ix3 b k e) := by
  simp only [Host.reduceAdd, Ideal.hostReduceAdd_def]
  rw [Ideal.hostReduceAdd_single hr (by decide)]
  refine (congrArg (· + _) (Ideal.ofBits_zero_f32)).trans ((zero_add _).trans (Finset.sum_congr rfl fun e _ => ?_))
  exact congrArg X (funext fun a => Fin.ext (by match a with | ⟨0, _⟩ => rfl | ⟨1, _⟩ => rfl | ⟨2, _⟩ => rfl))

/-- The sum over the first-hop neighbours. -/
theorem sumK_apply (X : FVec Ideal S16384x10x64 .f32) (hr : S16384x10x64.ReducesTo [1] S16384x64) (hu : 0 < S_.numel) (b : Fin 16384) (e : Fin 64) :
    Host.reduceAdd X z0 hr hu (ix2 b e) = ∑ k : Fin 10, X (ix3 b k e) := by
  simp only [Host.reduceAdd, Ideal.hostReduceAdd_def]
  rw [Ideal.hostReduceAdd_single hr (by decide)]
  refine (congrArg (· + _) (Ideal.ofBits_zero_f32)).trans ((zero_add _).trans (Finset.sum_congr rfl fun k _ => ?_))
  exact congrArg X (funext fun a => Fin.ext (by match a with | ⟨0, _⟩ => rfl | ⟨1, _⟩ => rfl | ⟨2, _⟩ => rfl))

/-- The sum over the user-side neighbours. -/
theorem sumM_apply (X : FVec Ideal S16384x50x64 .f32) (hr : S16384x50x64.ReducesTo [1] S16384x64) (hu : 0 < S_.numel) (b : Fin 16384) (e : Fin 64) :
    Host.reduceAdd X z0 hr hu (ix2 b e) = ∑ m : Fin 50, X (ix3 b m e) := by
  simp only [Host.reduceAdd, Ideal.hostReduceAdd_def]
  rw [Ideal.hostReduceAdd_single hr (by decide)]
  refine (congrArg (· + _) (Ideal.ofBits_zero_f32)).trans ((zero_add _).trans (Finset.sum_congr rfl fun m _ => ?_))
  exact congrArg X (funext fun a => Fin.ext (by match a with | ⟨0, _⟩ => rfl | ⟨1, _⟩ => rfl | ⟨2, _⟩ => rfl))

/-- The sum over the coordinates of a row. -/
theorem sumE2_apply (X : FVec Ideal S16384x64 .f32) (hr : S16384x64.ReducesTo [1] S16384) (hu : 0 < S_.numel) (b : Fin 16384) :
    Host.reduceAdd X z0 hr hu (ix1 b) = ∑ e : Fin 64, X (ix2 b e) := by
  simp only [Host.reduceAdd, Ideal.hostReduceAdd_def]
  rw [Ideal.hostReduceAdd_single hr (by decide)]
  refine (congrArg (· + _) (Ideal.ofBits_zero_f32)).trans ((zero_add _).trans (Finset.sum_congr rfl fun e _ => ?_))
  exact congrArg X (funext fun a => Fin.ext (by match a with | ⟨0, _⟩ => rfl | ⟨1, _⟩ => rfl))

/-! ## Broadcasts -/

theorem repJ_apply {α : Type} (es : S16384x10x64.Idx → α) (b : Fin 16384) (k j : Fin 10) (d : Fin 64) :
    repJ es (ix4 b k j d) = es (ix3 b k d) := by
  unfold repJ
  exact (broadcastInDim_apply ![0, 1, 2, 3] _ _ (ix4 b k j d) (ix4 b k (0 : Fin 1) d) (fun a => by match a with | ⟨0, _⟩ => rfl | ⟨1, _⟩ => rfl | ⟨2, _⟩ => rfl | ⟨3, _⟩ => rfl)).trans
    (broadcastInDim_apply ![0, 1, 3] _ es (ix4 b k (0 : Fin 1) d) (ix3 b k d) (fun a => by match a with | ⟨0, _⟩ => rfl | ⟨1, _⟩ => rfl | ⟨2, _⟩ => rfl))

theorem colK_apply {α : Type} (w : S16384x10.Idx → α) (b : Fin 16384) (k : Fin 10) (u : Fin 1) :
    colK w (ix3 b k u) = w (ix2 b k) := by
  unfold colK
  exact broadcastInDim_apply ![0, 1] _ w (ix3 b k u) (ix2 b k) (fun a => by match a with | ⟨0, _⟩ => rfl | ⟨1, _⟩ => rfl)

theorem spreadE_apply {α : Type} (c : S16384x10x1.Idx → α) (b : Fin 16384) (k : Fin 10) (e : Fin 64) :
    spreadE c (ix3 b k e) = c (ix3 b k (0 : Fin 1)) := by
  unfold spreadE
  exact broadcastInDim_apply ![0, 1, 2] _ c (ix3 b k e) (ix3 b k (0 : Fin 1)) (fun a => by match a with | ⟨0, _⟩ => rfl | ⟨1, _⟩ => rfl | ⟨2, _⟩ => rfl)

theorem epsCol_apply (i : S16384x10x1.Idx) : epsCol i = Ideal.ofBits .f32 0x2B8CBCCC#32 := by
  unfold epsCol
  exact broadcastInDim_apply ![] _ _ i ix0 (fun a => a.elim0)

theorem repK_apply {α : Type} (td : S16384x64.Idx → α) (b : Fin 16384) (k : Fin 10) (d : Fin 64) :
    repK td (ix3 b k d) = td (ix2 b d) := by
  unfold repK
  exact (broadcastInDim_apply ![0, 1, 2] _ _ (ix3 b k d) (ix3 b (0 : Fin 1) d) (fun a => by match a with | ⟨0, _⟩ => rfl | ⟨1, _⟩ => rfl | ⟨2, _⟩ => rfl)).trans
    (broadcastInDim_apply ![0, 2] _ td (ix3 b (0 : Fin 1) d) (ix2 b d) (fun a => by match a with | ⟨0, _⟩ => rfl | ⟨1, _⟩ => rfl))

theorem rowE_apply {α : Type} (w : S16384.Idx → α) (b : Fin 16384) (e : Fin 64) : rowE w (ix2 b e) = w (ix1 b) := by
  unfold rowE
  exact (broadcastInDim_apply ![0, 1] _ _ (ix2 b e) (ix2 b (0 : Fin 1)) (fun a => by match a with | ⟨0, _⟩ => rfl | ⟨1, _⟩ => rfl)).trans
    (broadcastInDim_apply ![0] _ w (ix2 b (0 : Fin 1)) (ix1 b) (fun a => by match a with | ⟨0, _⟩ => rfl))

theorem htanh_apply {s : Shape} (v : FVec Ideal s .f32) (i : s.Idx) : Host.tanh v i = Ideal.tanh (v i) := rfl
theorem hsqrt_apply {s : Shape} (v : FVec Ideal s .f32) (i : s.Idx) : Host.sqrt v i = Ideal.sqrt (v i) := rfl
theorem hdivf_apply {s : Shape} (a c : FVec Ideal s .f32) (i : s.Idx) : Host.divf a c i = Ideal.div (a i) (c i) := rfl

/-! ## The stages at an entry -/

theorem msg4_apply (es : FVec Ideal S16384x10x64 .f32) (ed : FVec Ideal S16384x10x10x64 .f32) (x7 x8 : FVec Ideal S64x64 .f32)
    (b : Fin 16384) (k j : Fin 10) (e : Fin 64) :
    msg4 es ed x7 x8 (ix4 b k j e)
      = Hgnn.lin (fun d => ed (ix4 b k j d)) (fun e d => x7 (ix2 e d)) e
        + Hgnn.lin (fun d => ed (ix4 b k j d) * es (ix3 b k d)) (fun e d => x8 (ix2 e d)) e := by
  unfold msg4 Hgnn.lin
  simp only [addf_apply, dot4_apply, mulf_apply, repJ_apply]

theorem act1_apply (es : FVec Ideal S16384x10x64 .f32) (ed : FVec Ideal S16384x10x10x64 .f32) (w2 : FVec Ideal S16384x10 .f32)
    (x7 x8 : FVec Ideal S64x64 .f32) (b : Fin 16384) (k : Fin 10) (e : Fin 64) :
    act1 es ed w2 x7 x8 (ix3 b k e)
      = Ideal.tanh (Hgnn.lin (fun d => es (ix3 b k d)) (fun e d => x7 (ix2 e d)) e
          + (∑ j : Fin 10, (Hgnn.lin (fun d => ed (ix4 b k j d)) (fun e d => x7 (ix2 e d)) e
              + Hgnn.lin (fun d => ed (ix4 b k j d) * es (ix3 b k d)) (fun e d => x8 (ix2 e d)) e)) * w2 (ix2 b k)) := by
  unfold act1
  simp only [htanh_apply, addf_apply, mulf_apply, dot3_apply, sumJ_apply, msg4_apply, spreadE_apply, colK_apply]
  rfl

theorem norm1_apply (p : FVec Ideal S16384x10x64 .f32) (b : Fin 16384) (k : Fin 10) (e : Fin 64) :
    norm1 p (ix3 b k e)
      = Ideal.div (p (ix3 b k e))
          (max (Ideal.sqrt (∑ e' : Fin 64, p (ix3 b k e') * p (ix3 b k e'))) (Ideal.ofBits .f32 0x2B8CBCCC#32)) := by
  unfold norm1
  simp only [hdivf_apply, spreadE_apply, maximumf_apply, hsqrt_apply, colK_apply, sumE3_apply, mulf_apply, epsCol_apply]

theorem act2_apply (u : FVec Ideal S16384x10x64 .f32) (td : FVec Ideal S16384x64 .f32) (w1 : FVec Ideal S16384 .f32)
    (x9 x10 : FVec Ideal S64x64 .f32) (b : Fin 16384) (e : Fin 64) :
    act2 u td w1 x9 x10 (ix2 b e)
      = Ideal.tanh ((∑ k : Fin 10, (Hgnn.lin (fun d => u (ix3 b k d)) (fun e d => x9 (ix2 e d)) e
              + Hgnn.lin (fun d => u (ix3 b k d) * td (ix2 b d)) (fun e d => x10 (ix2 e d)) e)) * w1 (ix1 b)
          + Hgnn.lin (fun d => td (ix2 b d)) (fun e d => x9 (ix2 e d)) e) := by
  unfold act2 Hgnn.lin
  simp only [htanh_apply, addf_apply, mulf_apply, dot3_apply, sumK_apply, repK_apply, rowE_apply]
  rw [dotT_apply]

theorem actU_apply (eu : FVec Ideal S16384x50x64 .f32) (wu : FVec Ideal S16384 .f32) (x6 : FVec Ideal S64x64 .f32)
    (b : Fin 16384) (e : Fin 64) :
    actU eu wu x6 (ix2 b e)
      = Ideal.tanh ((∑ m : Fin 50, Hgnn.lin (fun d => eu (ix3 b m d)) (fun e d => x6 (ix2 e d)) e) * wu (ix1 b)) := by
  unfold actU Hgnn.lin
  simp only [htanh_apply, mulf_apply, dot3u_apply, sumM_apply, rowE_apply]

/-- The reference's result at row b is the row's score, linear maps before sums, of row b of the stages. -/
theorem score_apply (es : FVec Ideal S16384x10x64 .f32) (ed : FVec Ideal S16384x10x10x64 .f32) (td : FVec Ideal S16384x64 .f32)
    (eu : FVec Ideal S16384x50x64 .f32) (w2 : FVec Ideal S16384x10 .f32) (w1 wu : FVec Ideal S16384 .f32)
    (x6 x7 x8 x9 x10 : FVec Ideal S64x64 .f32) (b : Fin 16384) :
    Ref.score es ed td eu w2 w1 wu x6 x7 x8 x9 x10 (ix1 b)
      = Hgnn.tailR
          (Hgnn.unitR (fun k d => es (ix3 b k d)) (fun k j d => ed (ix4 b k j d)) (fun k => w2 (ix2 b k))
            (Ideal.ofBits .f32 0x2B8CBCCC#32) (fun e d => x7 (ix2 e d)) (fun e d => x8 (ix2 e d)))
          (fun d => td (ix2 b d)) (fun m d => eu (ix3 b m d)) (w1 (ix1 b)) (wu (ix1 b))
          (fun e d => x6 (ix2 e d)) (fun e d => x9 (ix2 e d)) (fun e d => x10 (ix2 e d)) := by
  unfold Ref.score Hgnn.tailR Hgnn.score Hgnn.unitR Hgnn.unit
  simp only [sumE2_apply, mulf_apply, act2_apply, actU_apply, norm1_apply, act1_apply]

end Cert.Hgnn.RefRead

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«121466_j80178449482027_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«121466_j80178449482027_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Finite.lean ====
/-
  Every float argument is real.

  The precondition is the conjunction, over the seven float arguments, of "every entry has absolute value below
  +∞". A conjunction of one-bit words that is 1 has every conjunct 1, and a conjunct that is 1 says every entry of
  its array is neither infinity.
-/
import proofs.«121466_j80178449482027_2_alg».proof.Pre_finite_inputs
import proofs.«121466_j80178449482027_2_alg».proof.Proof.LibFinite

noncomputable section

namespace Cert.Hgnn

open Idealize.ShloMosaic Idealize.ShloMosaic.ValueIdx Cert.Pre_finite_inputs Cert.Gcn

/-- The precondition, all ones, gives that the two tables and the five weight matrices have real entries. -/
theorem args_real [Cert.Pre_finite_inputs.Facts] (x0 : IVec S16384x10 32) (x1 : IVec S16384x10x10 32) (x2 : IVec S16384x50 32)
    (x3 : IVec S16384 32) (x4 : FVec Ideal S100001x64 .f32) (x5 : FVec Ideal S2001x64 .f32)
    (x6 x7 x8 x9 x10 : FVec Ideal S64x64 .f32)
    (h : Cert.Pre_finite_inputs.fn (F := Ideal) x0 x1 x2 x3 x4 x5 x6 x7 x8 x9 x10 = fun _ => 1#1) :
    Finite x4 ∧ Finite x5 ∧ Finite x6 ∧ Finite x7 ∧ Finite x8 ∧ Finite x9 ∧ Finite x10 := by
  have h0 := congrFun h ix0
  dsimp only [Cert.Pre_finite_inputs.fn, Cert.Pre_finite_inputs.fn_part1] at h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨c4, c5⟩ := IntOp.andi_eq_one.1 h0
  exact ⟨finite_of_all x4 _ _ _ c4, finite_of_all x5 _ _ _ c5, finite_of_all x6 _ _ _ c6, finite_of_all x7 _ _ _ c7,
    finite_of_all x8 _ _ _ c8, finite_of_all x9 _ _ _ c9, finite_of_all x10 _ _ _ c10⟩

end Cert.Hgnn

end
-- ==== Proof.Bridge.lean ====
/-
  The kernel's result array is the reference's result.

  Row by row: the kernel's array holds the row's score with the neighbours added before the linear maps, over the
  shared stages (its own host sums of the gathered rows read as plain sums); the reference's holds the score with
  the maps applied first. Under the precondition the tables and the weight matrices have real entries, so the
  gathered rows have too, the first layer's output is real because its bound is a positive real, and the two
  arrangements agree.
-/
import proofs.«121466_j80178449482027_2_alg».proof.Proof.Prologue
import proofs.«121466_j80178449482027_2_alg».proof.Proof.KernelValue
import proofs.«121466_j80178449482027_2_alg».proof.Proof.RefRead
import proofs.«121466_j80178449482027_2_alg».proof.Proof.Finite

set_option maxRecDepth 16384

noncomputable section

open scoped BigOperators

namespace Cert.Hgnn.Bridge

open Cert.KernelIdeal Cert.KernelIdeal.Gen Idealize.ShloMosaic Idealize.ShloMosaic.TcCoe Idealize.SL.Sem Idealize.ShloMosaic.ValueIdx Cert.Gcn

/-- The normalisation bound, the f32 word nearest 1e-12, is a positive real. -/
theorem eps_pos : (0 : EReal) < Ideal.ofBits .f32 0x2B8CBCCC#32 := by
  simp [Ideal.ofBits, Ideal.ieee]
  norm_cast
  positivity

/-- A gather of an array of real entries has real entries: each is an entry of the operand. -/
theorem gather_real {s si t : Shape} {w : ℕ} (g : GatherDims s si t) (x : s.Idx → EReal) (idx : IVec si w) (hx : Finite x) :
    Finite (Host.gather g x idx) := fun j => hx _

variable (m : (ℓ : Loc nD τ sig) → Buf (Elt Ideal) ℓ)

set_option maxHeartbeats 4000000 in
/-- Under the precondition the kernel's result array is the reference's result term of the same arguments. -/
theorem G_eq [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    KernelValue.G m c = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h4, h5, h6, h7, h8, h9, h10⟩ := args_real _ _ _ _ _ _ _ _ _ _ _ hpre
  have e0 : (V m c (Pipeline.arrRef spec0 0) : S16384x10x64.Idx → EReal) = Ref.ES (m ((c : Thread nD τ).loc main_arg0)) (m ((c : Thread nD τ).loc main_arg4)) := Prologue.v42 m c
  have e1 : (V m c (Pipeline.arrRef spec0 1) : S16384x10x64.Idx → EReal)
      = Host.reduceAdd (Ref.ED (m ((c : Thread nD τ).loc main_arg1)) (m ((c : Thread nD τ).loc main_arg5))) Ref.z0 reducesTo_S16384x10x10x64_S16384x10x64_d2 h_S_ := Prologue.v50 m c
  have e2 : (V m c (Pipeline.arrRef spec0 2) : S16384x64.Idx → EReal) = Ref.TD (m ((c : Thread nD τ).loc main_arg3)) (m ((c : Thread nD τ).loc main_arg5)) := Prologue.v57 m c
  have e3 : (V m c (Pipeline.arrRef spec0 3) : S16384x64.Idx → EReal)
      = Host.reduceAdd (Ref.EU (m ((c : Thread nD τ).loc main_arg2)) (m ((c : Thread nD τ).loc main_arg4))) Ref.z0 reducesTo_S16384x50x64_S16384x64_d1 h_S_ := Prologue.v65 m c
  have e4 : (V m c (Pipeline.arrRef spec0 4) : S16384x10.Idx → EReal) = Ref.W2 (m ((c : Thread nD τ).loc main_arg1)) := Prologue.v11 m c
  have e5 : (V m c (Pipeline.arrRef spec0 5) : S16384.Idx → EReal) = Ref.W1 (m ((c : Thread nD τ).loc main_arg0)) := Prologue.v23 m c
  have e6 : (V m c (Pipeline.arrRef spec0 6) : S16384.Idx → EReal) = Ref.WU (m ((c : Thread nD τ).loc main_arg2)) := Prologue.v35 m c
  have e7 : (V m c (Pipeline.arrRef spec0 7) : S64x64.Idx → EReal) = (m ((c : Thread nD τ).loc main_arg6)) := Prologue.v66 m c
  have e8 : (V m c (Pipeline.arrRef spec0 8) : S64x64.Idx → EReal) = (m ((c : Thread nD τ).loc main_arg7)) := Prologue.v67 m c
  have e9 : (V m c (Pipeline.arrRef spec0 9) : S64x64.Idx → EReal) = (m ((c : Thread nD τ).loc main_arg8)) := Prologue.v68 m c
  have e10 : (V m c (Pipeline.arrRef spec0 10) : S64x64.Idx → EReal) = (m ((c : Thread nD τ).loc main_arg9)) := Prologue.v69 m c
  have e11 : (V m c (Pipeline.arrRef spec0 11) : S64x64.Idx → EReal) = (m ((c : Thread nD τ).loc main_arg10)) := Prologue.v70 m c
  unfold KernelValue.G
  rw [e0, e1, e2, e3, e4, e5, e6, e7, e8, e9, e10, e11]
  funext i
  obtain ⟨b, rfl⟩ : ∃ b : Fin 16384, i = ix1 b := ⟨i 0, eq_ix1 i⟩
  show KernelValue.rowScore _ _ _ _ _ _ _ _ _ _ _ _ b = Ref.score _ _ _ _ _ _ _ _ _ _ _ _ (ix1 b)
  rw [RefRead.score_apply]
  unfold KernelValue.rowScore
  simp only [RefRead.sumJ_apply, RefRead.sumM_apply]
  have hes : Finite (Ref.ES (m ((c : Thread nD τ).loc main_arg0)) (m ((c : Thread nD τ).loc main_arg4))) := gather_real _ _ _ h4
  have hed : Finite (Ref.ED (m ((c : Thread nD τ).loc main_arg1)) (m ((c : Thread nD τ).loc main_arg5))) := gather_real _ _ _ h5
  have htd : Finite (Ref.TD (m ((c : Thread nD τ).loc main_arg3)) (m ((c : Thread nD τ).loc main_arg5))) := gather_real _ _ _ h5
  have heu : Finite (Ref.EU (m ((c : Thread nD τ).loc main_arg2)) (m ((c : Thread nD τ).loc main_arg4))) := gather_real _ _ _ h4
  have hU := funext fun k => Hgnn.unitR_eq_unitK
    (fun k d => Ref.ES (m ((c : Thread nD τ).loc main_arg0)) (m ((c : Thread nD τ).loc main_arg4)) (ix3 b k d))
    (fun k j d => Ref.ED (m ((c : Thread nD τ).loc main_arg1)) (m ((c : Thread nD τ).loc main_arg5)) (ix4 b k j d))
    (fun k => Ref.W2 (m ((c : Thread nD τ).loc main_arg1)) (ix2 b k)) (Ideal.ofBits .f32 0x2B8CBCCC#32)
    (fun e d => (m ((c : Thread nD τ).loc main_arg7) : S64x64.Idx → EReal) (ix2 e d))
    (fun e d => (m ((c : Thread nD τ).loc main_arg8) : S64x64.Idx → EReal) (ix2 e d))
    (fun k d => hes _) (fun k j d => hed _) (fun e d => h7 _) (fun e d => h8 _) k
  rw [hU]
  exact (Hgnn.tailR_eq_tailK _ _ _ _ _ _ _ _ (fun k d => Hgnn.unit_real _ _ eps_pos d) (fun d => htd _) (fun m' d => heu _)
    (fun e d => h6 _) (fun e d => h9 _) (fun e d => h10 _)).symm

end Cert.Hgnn.Bridge

end
-- ==== Proof.RefRun.lean ====
/-
  The reference program's run.

  The reference is a straight line of host operations. Run from any memory, every weakly fair execution ends with
  the result buffer holding `Ref.result` of the eleven argument arrays — the gathers, the averaging weights and the
  two layers of `RefStages` composed — and with the arguments as they were.
-/
import proofs.«121466_j80178449482027_2_alg».proof.Proof.RefStages
import Idealize.ShloMosaic.Lib.StableHlo.Run

noncomputable section

namespace Cert.Hgnn.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 145 operations, in order (a called function's operations stand in its call's place, spelt `TRef.…`). -/
abbrev ops : List (HloOp τ sig (Elt F)) :=
  [ nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg3 main_v0 main_v1 (cmpi .slt : (⟨S16384, .i32⟩ : BufTy).Contents (Elt F) → (⟨S16384, .i32⟩ : BufTy).Contents (Elt F) → (⟨S16384, .i1⟩ : BufTy).Contents (Elt F)),
    nullary main_c_0 (constantI S_ 32 2001#32),
    unary main_c_0 main_v2 (broadcastInDim S16384 ![] bcast_S_S16384 : (⟨S_, .i32⟩ : BufTy).Contents (Elt F) → (⟨S16384, .i32⟩ : BufTy).Contents (Elt F)),
    binary main_arg3 main_v2 main_v3 (addi : (⟨S16384, .i32⟩ : BufTy).Contents (Elt F) → (⟨S16384, .i32⟩ : BufTy).Contents (Elt F) → (⟨S16384, .i32⟩ : BufTy).Contents (Elt F)),
    ternary main_v1 main_v3 main_arg3 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v4 main_v5 (broadcastInDim S16384x1 ![0] bcast_S16384_S16384x1_0 : (⟨S16384, .i32⟩ : BufTy).Contents (Elt F) → (⟨S16384x1, .i32⟩ : BufTy).Contents (Elt F)),
    binary main_arg5 main_v5 main_v6 ((fun x i => Host.gather gather_S2001x64_S16384x1_S16384x64_1_0_n_n_0_1_164 x i) : (⟨S2001x64, .f32⟩ : BufTy).Contents (Elt F) → (⟨S16384x1, .i32⟩ : BufTy).Contents (Elt F) → (⟨S16384x64, .f32⟩ : BufTy).Contents (Elt F)),
    nullary main_c_1 (constantI S_ 32 0#32),
    unary main_c_1 main_v7 (broadcastInDim S16384x10 ![] bcast_S_S16384x10 : (⟨S_, .i32⟩ : BufTy).Contents (Elt F) → (⟨S16384x10, .i32⟩ : BufTy).Contents (Elt F)),
    binary main_arg0 main_v7 main_v8 (cmpi .slt : (⟨S16384x10, .i32⟩ : BufTy).Contents (Elt F) → (⟨S16384x10, .i32⟩ : BufTy).Contents (Elt F) → (⟨S16384x10, .i1⟩ : BufTy).Contents (Elt F)),
    nullary main_c_2 (constantI S_ 32 100001#32),
    unary main_c_2 main_v9 (broadcastInDim S16384x10 ![] bcast_S_S16384x10 : (⟨S_, .i32⟩ : BufTy).Contents (Elt F) → (⟨S16384x10, .i32⟩ : BufTy).Contents (Elt F)),
    binary main_arg0 main_v9 main_v10 (addi : (⟨S16384x10, .i32⟩ : BufTy).Contents (Elt F) → (⟨S16384x10, .i32⟩ : BufTy).Contents (Elt F) → (⟨S16384x10, .i32⟩ : BufTy).Contents (Elt F)),
    ternary main_v8 main_v10 main_arg0 main_v11 (select : (⟨S16384x10, .i1⟩ : BufTy).Contents (Elt F) → (⟨S16384x10, .i32⟩ : BufTy).Contents (Elt F) → (⟨S16384x10, .i32⟩ : BufTy).Contents (Elt F) → (⟨S16384x10, .i32⟩ : BufTy).Contents (Elt F)),
    unary main_v11 main_v12 (broadcastInDim S16384x10x1 ![0, 1] bcast_S16384x10_S16384x10x1_0_1 : (⟨S16384x10, .i32⟩ : BufTy).Contents (Elt F) → (⟨S16384x10x1, .i32⟩ : BufTy).Contents (Elt F)),
    binary main_arg4 main_v12 main_v13 ((fun x i => Host.gather gather_S100001x64_S16384x10x1_S16384x10x64_2_0_n_n_0_2_164 x i) : (⟨S100001x64, .f32⟩ : BufTy).Contents (Elt F) → (⟨S16384x10x1, .i32⟩ : BufTy).Contents (Elt F) → (⟨S16384x10x64, .f32⟩ : BufTy).Contents (Elt F)),
    nullary main_c_3 (constantI S_ 32 0#32),
    unary main_c_3 main_v14 (broadcastInDim S16384x10x10 ![] bcast_S_S16384x10x10 : (⟨S_, .i32⟩ : BufTy).Contents (Elt F) → (⟨S16384x10x10, .i32⟩ : BufTy).Contents (Elt F)),
    binary main_arg1 main_v14 main_v15 (cmpi .slt : (⟨S16384x10x10, .i32⟩ : BufTy).Contents (Elt F) → (⟨S16384x10x10, .i32⟩ : BufTy).Contents (Elt F) → (⟨S16384x10x10, .i1⟩ : BufTy).Contents (Elt F)),
    nullary main_c_4 (constantI S_ 32 2001#32),
    unary main_c_4 main_v16 (broadcastInDim S16384x10x10 ![] bcast_S_S16384x10x10 : (⟨S_, .i32⟩ : BufTy).Contents (Elt F) → (⟨S16384x10x10, .i32⟩ : BufTy).Contents (Elt F)),
    binary main_arg1 main_v16 main_v17 (addi : (⟨S16384x10x10, .i32⟩ : BufTy).Contents (Elt F) → (⟨S16384x10x10, .i32⟩ : BufTy).Contents (Elt F) → (⟨S16384x10x10, .i32⟩ : BufTy).Contents (Elt F)),
    ternary main_v15 main_v17 main_arg1 main_v18 (select : (⟨S16384x10x10, .i1⟩ : BufTy).Contents (Elt F) → (⟨S16384x10x10, .i32⟩ : BufTy).Contents (Elt F) → (⟨S16384x10x10, .i32⟩ : BufTy).Contents (Elt F) → (⟨S16384x10x10, .i32⟩ : BufTy).Contents (Elt F)),
    unary main_v18 main_v19 (broadcastInDim S16384x10x10x1 ![0, 1, 2] bcast_S16384x10x10_S16384x10x10x1_0_1_2 : (⟨S16384x10x10, .i32⟩ : BufTy).Contents (Elt F) → (⟨S16384x10x10x1, .i32⟩ : BufTy).Contents (Elt F)),
    binary main_arg5 main_v19 main_v20 ((fun x i => Host.gather gather_S2001x64_S16384x10x10x1_S16384x10x10x64_3_0_n_n_0_3_164 x i) : (⟨S2001x64, .f32⟩ : BufTy).Contents (Elt F) → (⟨S16384x10x10x1, .i32⟩ : BufTy).Contents (Elt F) → (⟨S16384x10x10x64, .f32⟩ : BufTy).Contents (Elt F)),
    binary main_v20 main_arg7 main_v21 ((fun l r => Host.dotGeneral dot_S16384x10x10x64_S64x64_S16384x10x10x64_3_1_012_0_n_n none l r) : (⟨S16384x10x10x64, .f32⟩ : BufTy).Contents (Elt F) → (⟨S64x64, .f32⟩ : BufTy).Contents (Elt F) → (⟨S16384x10x10x64, .f32⟩ : BufTy).Contents (Elt F)),
    unary main_v13 main_v22 (broadcastInDim S16384x10x1x64 ![0, 1, 3] bcast_S16384x10x64_S16384x10x1x64_0_1_3 : (⟨S16384x10x64, .f32⟩ : BufTy).Contents (Elt F) → (⟨S16384x10x1x64, .f32⟩ : BufTy).Contents (Elt F)),
    unary main_v22 main_v23 (broadcastInDim S16384x10x10x64 ![0, 1, 2, 3] bcast_S16384x10x1x64_S16384x10x10x64_0_1_2_3 : (⟨S16384x10x1x64, .f32⟩ : BufTy).Contents (Elt F) → (⟨S16384x10x10x64, .f32⟩ : BufTy).Contents (Elt F)),
    binary main_v20 main_v23 main_v24 (mulf : (⟨S16384x10x10x64, .f32⟩ : BufTy).Contents (Elt F) → (⟨S16384x10x10x64, .f32⟩ : BufTy).Contents (Elt F) → (⟨S16384x10x10x64, .f32⟩ : BufTy).Contents (Elt F)),
    binary main_v24 main_arg8 main_v25 ((fun l r => Host.dotGeneral dot_S16384x10x10x64_S64x64_S16384x10x10x64_3_1_012_0_n_n none l r) : (⟨S16384x10x10x64, .f32⟩ : BufTy).Contents (Elt F) → (⟨S64x64, .f32⟩ : BufTy).Contents (Elt F) → (⟨S16384x10x10x64, .f32⟩ : BufTy).Contents (Elt F)),
    binary main_v21 main_v25 main_v26 (addf : (⟨S16384x10x10x64, .f32⟩ : BufTy).Contents (Elt F) → (⟨S16384x10x10x64, .f32⟩ : BufTy).Contents (Elt F) → (⟨S16384x10x10x64, .f32⟩ : BufTy).Contents (Elt F)),
    binary main_v13 main_arg7 main_v27 ((fun l r => Host.dotGeneral dot_S16384x10x64_S64x64_S16384x10x64_2_1_01_0_n_n none l r) : (⟨S16384x10x64, .f32⟩ : BufTy).Contents (Elt F) → (⟨S64x64, .f32⟩ : BufTy).Contents (Elt F) → (⟨S16384x10x64, .f32⟩ : BufTy).Contents (Elt F)),
    nullary main_c_5 (constantI S_ 32 0#32),
    unary main_c_5 main_v28 (broadcastInDim S16384x10x10 ![] bcast_S_S16384x10x10 : (⟨S_, .i32⟩ : BufTy).Contents (Elt F) → (⟨S16384x10x10, .i32⟩ : BufTy).Contents (Elt F)),
    binary main_arg1 main_v28 main_v29 (cmpi .ne : (⟨S16384x10x10, .i32⟩ : BufTy).Contents (Elt F) → (⟨S16384x10x10, .i32⟩ : BufTy).Contents (Elt F) → (⟨S16384x10x10, .i1⟩ : BufTy).Contents (Elt F)),
    unary main_v29 main_v30 ((extui 32 · natLt_1_32) : (⟨S16384x10x10, .i1⟩ : BufTy).Contents (Elt F) → (⟨S16384x10x10, .i32⟩ : BufTy).Contents (Elt F)),
    nullary main_c_6 (constantI S_ 32 0#32),
    binary main_v30 main_c_6 main_v31 ((fun x v => Host.reduce IntOp.addi x v reducesTo_S16384x10x10_S16384x10_d2 h_S_) : (⟨S16384x10x10, .i32⟩ : BufTy).Contents (Elt F) → (⟨S_, .i32⟩ : BufTy).Contents (Elt F) → (⟨S16384x10, .i32⟩ : BufTy).Contents (Elt F)),
    unary main_v31 main_v32 (sitofp .f32 : (⟨S16384x10, .i32⟩ : BufTy).Contents (Elt F) → (⟨S16384x10, .f32⟩ : BufTy).Contents (Elt F)),
    nullary main_cst (constant S_ .f32 0x322BCC77#32),
    unary main_cst main_v33 (broadcastInDim S16384x10 ![] bcast_S_S16384x10 : (⟨S_, .f32⟩ : BufTy).Contents (Elt F) → (⟨S16384x10, .f32⟩ : BufTy).Contents (Elt F)),
    binary main_v32 main_v33 main_v34 (addf : (⟨S16384x10, .f32⟩ : BufTy).Contents (Elt F) → (⟨S16384x10, .f32⟩ : BufTy).Contents (Elt F) → (⟨S16384x10, .f32⟩ : BufTy).Contents (Elt F)),
    nullary main_cst_7 (constant S_ .f32 0x3F800000#32),
    unary main_cst_7 main_v35 (broadcastInDim S16384x10 ![] bcast_S_S16384x10 : (⟨S_, .f32⟩ : BufTy).Contents (Elt F) → (⟨S16384x10, .f32⟩ : BufTy).Contents (Elt F)),
    binary main_v35 main_v34 main_v36 (Host.divf : (⟨S16384x10, .f32⟩ : BufTy).Contents (Elt F) → (⟨S16384x10, .f32⟩ : BufTy).Contents (Elt F) → (⟨S16384x10, .f32⟩ : BufTy).Contents (Elt F)),
    nullary main_cst_8 (constant S_ .f32 0x4CBEBC20#32),
    unary main_cst_8 main_v37 (broadcastInDim S16384x10 ![] bcast_S_S16384x10 : (⟨S_, .f32⟩ : BufTy).Contents (Elt F) → (⟨S16384x10, .f32⟩ : BufTy).Contents (Elt F)),
    binary main_v36 main_v37 main_v38 (cmpf .oge : (⟨S16384x10, .f32⟩ : BufTy).Contents (Elt F) → (⟨S16384x10, .f32⟩ : BufTy).Contents (Elt F) → (⟨S16384x10, .i1⟩ : BufTy).Contents (Elt F)),
    nullary main_cst_9 (constant S_ .f32 0x00000000#32),
    TRef.unary (TRef.of (T := ⟨S_, .f32⟩) main_cst_9) (TRef.of (T := ⟨S_, .f32⟩) main_call0_v0) id,
    TRef.unary (TRef.of (T := ⟨S_, .f32⟩) main_call0_v0) (TRef.of (T := ⟨S16384x10, .f32⟩) main_call0_v1) (broadcastInDim S16384x10 ![] bcast_S_S16384x10),
    TRef.ternary (TRef.of (T := ⟨S16384x10, .i1⟩) main_v38) (TRef.of (T := ⟨S16384x10, .f32⟩) main_call0_v1) (TRef.of (T := ⟨S16384x10, .f32⟩) main_v36) (TRef.of (T := ⟨S16384x10, .f32⟩) main_v39) select,
    nullary main_cst_10 (constant S_ .f32 0x00000000#32),
    binary main_v26 main_cst_10 main_v40 ((fun x v => Host.reduceAdd x v reducesTo_S16384x10x10x64_S16384x10x64_d2 h_S_) : (⟨S16384x10x10x64, .f32⟩ : BufTy).Contents (Elt F) → (⟨S_, .f32⟩ : BufTy).Contents (Elt F) → (⟨S16384x10x64, .f32⟩ : BufTy).Contents (Elt F)),
    unary main_v39 main_v41 (broadcastInDim S16384x10x1 ![0, 1] bcast_S16384x10_S16384x10x1_0_1 : (⟨S16384x10, .f32⟩ : BufTy).Contents (Elt F) → (⟨S16384x10x1, .f32⟩ : BufTy).Contents (Elt F)),
    unary main_v41 main_v42 (broadcastInDim S16384x10x64 ![0, 1, 2] bcast_S16384x10x1_S16384x10x64_0_1_2 : (⟨S16384x10x1, .f32⟩ : BufTy).Contents (Elt F) → (⟨S16384x10x64, .f32⟩ : BufTy).Contents (Elt F)),
    binary main_v40 main_v42 main_v43 (mulf : (⟨S16384x10x64, .f32⟩ : BufTy).Contents (Elt F) → (⟨S16384x10x64, .f32⟩ : BufTy).Contents (Elt F) → (⟨S16384x10x64, .f32⟩ : BufTy).Contents (Elt F)),
    binary main_v27 main_v43 main_v44 (addf : (⟨S16384x10x64, .f32⟩ : BufTy).Contents (Elt F) → (⟨S16384x10x64, .f32⟩ : BufTy).Contents (Elt F) → (⟨S16384x10x64, .f32⟩ : BufTy).Contents (Elt F)),
    unary main_v44 main_v45 (Host.tanh : (⟨S16384x10x64, .f32⟩ : BufTy).Contents (Elt F) → (⟨S16384x10x64, .f32⟩ : BufTy).Contents (Elt F)),
    binary main_v45 main_v45 main_v46 (mulf : (⟨S16384x10x64, .f32⟩ : BufTy).Contents (Elt F) → (⟨S16384x10x64, .f32⟩ : BufTy).Contents (Elt F) → (⟨S16384x10x64, .f32⟩ : BufTy).Contents (Elt F)),
    nullary main_cst_11 (constant S_ .f32 0x00000000#32),
    binary main_v46 main_cst_11 main_v47 ((fun x v => Host.reduceAdd x v reducesTo_S16384x10x64_S16384x10_d2 h_S_) : (⟨S16384x10x64, .f32⟩ : BufTy).Contents (Elt F) → (⟨S_, .f32⟩ : BufTy).Contents (Elt F) → (⟨S16384x10, .f32⟩ : BufTy).Contents (Elt F)),
    unary main_v47 main_v48 (broadcastInDim S16384x10x1 ![0, 1] bcast_S16384x10_S16384x10x1_0_1 : (⟨S16384x10, .f32⟩ : BufTy).Contents (Elt F) → (⟨S16384x10x1, .f32⟩ : BufTy).Contents (Elt F)),
    unary main_v48 main_v49 (Host.sqrt : (⟨S16384x10x1, .f32⟩ : BufTy).Contents (Elt F) → (⟨S16384x10x1, .f32⟩ : BufTy).Contents (Elt F)),
    nullary main_cst_12 (constant S_ .f32 0x2B8CBCCC#32),
    unary main_cst_12 main_v50 (broadcastInDim S16384x10x1 ![] bcast_S_S16384x10x1 : (⟨S_, .f32⟩ : BufTy).Contents (Elt F) → (⟨S16384x10x1, .f32⟩ : BufTy).Contents (Elt F)),
    binary main_v49 main_v50 main_v51 (maximumf : (⟨S16384x10x1, .f32⟩ : BufTy).Contents (Elt F) → (⟨S16384x10x1, .f32⟩ : BufTy).Contents (Elt F) → (⟨S16384x10x1, .f32⟩ : BufTy).Contents (Elt F)),
    unary main_v51 main_v52 (broadcastInDim S16384x10x64 ![0, 1, 2] bcast_S16384x10x1_S16384x10x64_0_1_2 : (⟨S16384x10x1, .f32⟩ : BufTy).Contents (Elt F) → (⟨S16384x10x64, .f32⟩ : BufTy).Contents (Elt F)),
    binary main_v45 main_v52 main_v53 (Host.divf : (⟨S16384x10x64, .f32⟩ : BufTy).Contents (Elt F) → (⟨S16384x10x64, .f32⟩ : BufTy).Contents (Elt F) → (⟨S16384x10x64, .f32⟩ : BufTy).Contents (Elt F)),
    binary main_v53 main_arg9 main_v54 ((fun l r => Host.dotGeneral dot_S16384x10x64_S64x64_S16384x10x64_2_1_01_0_n_n none l r) : (⟨S16384x10x64, .f32⟩ : BufTy).Contents (Elt F) → (⟨S64x64, .f32⟩ : BufTy).Contents (Elt F) → (⟨S16384x10x64, .f32⟩ : BufTy).Contents (Elt F)),
    unary main_v6 main_v55 (broadcastInDim S16384x1x64 ![0, 2] bcast_S16384x64_S16384x1x64_0_2 : (⟨S16384x64, .f32⟩ : BufTy).Contents (Elt F) → (⟨S16384x1x64, .f32⟩ : BufTy).Contents (Elt F)),
    unary main_v55 main_v56 (broadcastInDim S16384x10x64 ![0, 1, 2] bcast_S16384x1x64_S16384x10x64_0_1_2 : (⟨S16384x1x64, .f32⟩ : BufTy).Contents (Elt F) → (⟨S16384x10x64, .f32⟩ : BufTy).Contents (Elt F)),
    binary main_v53 main_v56 main_v57 (mulf : (⟨S16384x10x64, .f32⟩ : BufTy).Contents (Elt F) → (⟨S16384x10x64, .f32⟩ : BufTy).Contents (Elt F) → (⟨S16384x10x64, .f32⟩ : BufTy).Contents (Elt F)),
    binary main_v57 main_arg10 main_v58 ((fun l r => Host.dotGeneral dot_S16384x10x64_S64x64_S16384x10x64_2_1_01_0_n_n none l r) : (⟨S16384x10x64, .f32⟩ : BufTy).Contents (Elt F) → (⟨S64x64, .f32⟩ : BufTy).Contents (Elt F) → (⟨S16384x10x64, .f32⟩ : BufTy).Contents (Elt F)),
    binary main_v54 main_v58 main_v59 (addf : (⟨S16384x10x64, .f32⟩ : BufTy).Contents (Elt F) → (⟨S16384x10x64, .f32⟩ : BufTy).Contents (Elt F) → (⟨S16384x10x64, .f32⟩ : BufTy).Contents (Elt F)),
    nullary main_c_13 (constantI S_ 32 0#32),
    unary main_c_13 main_v60 (broadcastInDim S16384x10 ![] bcast_S_S16384x10 : (⟨S_, .i32⟩ : BufTy).Contents (Elt F) → (⟨S16384x10, .i32⟩ : BufTy).Contents (Elt F)),
    binary main_arg0 main_v60 main_v61 (cmpi .ne : (⟨S16384x10, .i32⟩ : BufTy).Contents (Elt F) → (⟨S16384x10, .i32⟩ : BufTy).Contents (Elt F) → (⟨S16384x10, .i1⟩ : BufTy).Contents (Elt F)),
    unary main_v61 main_v62 ((extui 32 · natLt_1_32) : (⟨S16384x10, .i1⟩ : BufTy).Contents (Elt F) → (⟨S16384x10, .i32⟩ : BufTy).Contents (Elt F)),
    nullary main_c_14 (constantI S_ 32 0#32),
    binary main_v62 main_c_14 main_v63 ((fun x v => Host.reduce IntOp.addi x v reducesTo_S16384x10_S16384_d1 h_S_) : (⟨S16384x10, .i32⟩ : BufTy).Contents (Elt F) → (⟨S_, .i32⟩ : BufTy).Contents (Elt F) → (⟨S16384, .i32⟩ : BufTy).Contents (Elt F)),
    unary main_v63 main_v64 (sitofp .f32 : (⟨S16384, .i32⟩ : BufTy).Contents (Elt F) → (⟨S16384, .f32⟩ : BufTy).Contents (Elt F)),
    nullary main_cst_15 (constant S_ .f32 0x322BCC77#32),
    unary main_cst_15 main_v65 (broadcastInDim S16384 ![] bcast_S_S16384 : (⟨S_, .f32⟩ : BufTy).Contents (Elt F) → (⟨S16384, .f32⟩ : BufTy).Contents (Elt F)),
    binary main_v64 main_v65 main_v66 (addf : (⟨S16384, .f32⟩ : BufTy).Contents (Elt F) → (⟨S16384, .f32⟩ : BufTy).Contents (Elt F) → (⟨S16384, .f32⟩ : BufTy).Contents (Elt F)),
    nullary main_cst_16 (constant S_ .f32 0x3F800000#32),
    unary main_cst_16 main_v67 (broadcastInDim S16384 ![] bcast_S_S16384 : (⟨S_, .f32⟩ : BufTy).Contents (Elt F) → (⟨S16384, .f32⟩ : BufTy).Contents (Elt F)),
    binary main_v67 main_v66 main_v68 (Host.divf : (⟨S16384, .f32⟩ : BufTy).Contents (Elt F) → (⟨S16384, .f32⟩ : BufTy).Contents (Elt F) → (⟨S16384, .f32⟩ : BufTy).Contents (Elt F)),
    nullary main_cst_17 (constant S_ .f32 0x4CBEBC20#32),
    unary main_cst_17 main_v69 (broadcastInDim S16384 ![] bcast_S_S16384 : (⟨S_, .f32⟩ : BufTy).Contents (Elt F) → (⟨S16384, .f32⟩ : BufTy).Contents (Elt F)),
    binary main_v68 main_v69 main_v70 (cmpf .oge : (⟨S16384, .f32⟩ : BufTy).Contents (Elt F) → (⟨S16384, .f32⟩ : BufTy).Contents (Elt F) → (⟨S16384, .i1⟩ : BufTy).Contents (Elt F)),
    nullary main_cst_18 (constant S_ .f32 0x00000000#32),
    TRef.unary (TRef.of (T := ⟨S_, .f32⟩) main_cst_18) (TRef.of (T := ⟨S_, .f32⟩) main_call1_v0) id,
    TRef.unary (TRef.of (T := ⟨S_, .f32⟩) main_call1_v0) (TRef.of (T := ⟨S16384, .f32⟩) main_call1_v1) (broadcastInDim S16384 ![] bcast_S_S16384),
    TRef.ternary (TRef.of (T := ⟨S16384, .i1⟩) main_v70) (TRef.of (T := ⟨S16384, .f32⟩) main_call1_v1) (TRef.of (T := ⟨S16384, .f32⟩) main_v68) (TRef.of (T := ⟨S16384, .f32⟩) main_v71) select,
    nullary main_cst_19 (constant S_ .f32 0x00000000#32),
    binary main_v59 main_cst_19 main_v72 ((fun x v => Host.reduceAdd x v reducesTo_S16384x10x64_S16384x64_d1 h_S_) : (⟨S16384x10x64, .f32⟩ : BufTy).Contents (Elt F) → (⟨S_, .f32⟩ : BufTy).Contents (Elt F) → (⟨S16384x64, .f32⟩ : BufTy).Contents (Elt F)),
    unary main_v71 main_v73 (broadcastInDim S16384x1 ![0] bcast_S16384_S16384x1_0 : (⟨S16384, .f32⟩ : BufTy).Contents (Elt F) → (⟨S16384x1, .f32⟩ : BufTy).Contents (Elt F)),
    unary main_v73 main_v74 (broadcastInDim S16384x64 ![0, 1] bcast_S16384x1_S16384x64_0_1 : (⟨S16384x1, .f32⟩ : BufTy).Contents (Elt F) → (⟨S16384x64, .f32⟩ : BufTy).Contents (Elt F)),
    binary main_v72 main_v74 main_v75 (mulf : (⟨S16384x64, .f32⟩ : BufTy).Contents (Elt F) → (⟨S16384x64, .f32⟩ : BufTy).Contents (Elt F) → (⟨S16384x64, .f32⟩ : BufTy).Contents (Elt F)),
    unary main_arg9 main_v76 ((transpose S64x64 [1, 0] · transposes_S64x64_S64x64_1_0) : (⟨S64x64, .f32⟩ : BufTy).Contents (Elt F) → (⟨S64x64, .f32⟩ : BufTy).Contents (Elt F)),
    binary main_v6 main_v76 main_v77 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    binary main_v75 main_v77 main_v78 (addf : (⟨S16384x64, .f32⟩ : BufTy).Contents (Elt F) → (⟨S16384x64, .f32⟩ : BufTy).Contents (Elt F) → (⟨S16384x64, .f32⟩ : BufTy).Contents (Elt F)),
    unary main_v78 main_v79 (Host.tanh : (⟨S16384x64, .f32⟩ : BufTy).Contents (Elt F) → (⟨S16384x64, .f32⟩ : BufTy).Contents (Elt F)),
    nullary main_c_20 (constantI S_ 32 0#32),
    unary main_c_20 main_v80 (broadcastInDim S16384x50 ![] bcast_S_S16384x50 : (⟨S_, .i32⟩ : BufTy).Contents (Elt F) → (⟨S16384x50, .i32⟩ : BufTy).Contents (Elt F)),
    binary main_arg2 main_v80 main_v81 (cmpi .slt : (⟨S16384x50, .i32⟩ : BufTy).Contents (Elt F) → (⟨S16384x50, .i32⟩ : BufTy).Contents (Elt F) → (⟨S16384x50, .i1⟩ : BufTy).Contents (Elt F)),
    nullary main_c_21 (constantI S_ 32 100001#32),
    unary main_c_21 main_v82 (broadcastInDim S16384x50 ![] bcast_S_S16384x50 : (⟨S_, .i32⟩ : BufTy).Contents (Elt F) → (⟨S16384x50, .i32⟩ : BufTy).Contents (Elt F)),
    binary main_arg2 main_v82 main_v83 (addi : (⟨S16384x50, .i32⟩ : BufTy).Contents (Elt F) → (⟨S16384x50, .i32⟩ : BufTy).Contents (Elt F) → (⟨S16384x50, .i32⟩ : BufTy).Contents (Elt F)),
    ternary main_v81 main_v83 main_arg2 main_v84 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    unary main_v84 main_v85 (broadcastInDim S16384x50x1 ![0, 1] bcast_S16384x50_S16384x50x1_0_1 : (⟨S16384x50, .i32⟩ : BufTy).Contents (Elt F) → (⟨S16384x50x1, .i32⟩ : BufTy).Contents (Elt F)),
    binary main_arg4 main_v85 main_v86 ((fun x i => Host.gather gather_S100001x64_S16384x50x1_S16384x50x64_2_0_n_n_0_2_164 x i) : (⟨S100001x64, .f32⟩ : BufTy).Contents (Elt F) → (⟨S16384x50x1, .i32⟩ : BufTy).Contents (Elt F) → (⟨S16384x50x64, .f32⟩ : BufTy).Contents (Elt F)),
    binary main_v86 main_arg6 main_v87 ((fun l r => Host.dotGeneral dot_S16384x50x64_S64x64_S16384x50x64_2_1_01_0_n_n none l r) : (⟨S16384x50x64, .f32⟩ : BufTy).Contents (Elt F) → (⟨S64x64, .f32⟩ : BufTy).Contents (Elt F) → (⟨S16384x50x64, .f32⟩ : BufTy).Contents (Elt F)),
    nullary main_c_22 (constantI S_ 32 0#32),
    unary main_c_22 main_v88 (broadcastInDim S16384x50 ![] bcast_S_S16384x50 : (⟨S_, .i32⟩ : BufTy).Contents (Elt F) → (⟨S16384x50, .i32⟩ : BufTy).Contents (Elt F)),
    binary main_arg2 main_v88 main_v89 (cmpi .ne : (⟨S16384x50, .i32⟩ : BufTy).Contents (Elt F) → (⟨S16384x50, .i32⟩ : BufTy).Contents (Elt F) → (⟨S16384x50, .i1⟩ : BufTy).Contents (Elt F)),
    unary main_v89 main_v90 ((extui 32 · natLt_1_32) : (⟨S16384x50, .i1⟩ : BufTy).Contents (Elt F) → (⟨S16384x50, .i32⟩ : BufTy).Contents (Elt F)),
    nullary main_c_23 (constantI S_ 32 0#32),
    binary main_v90 main_c_23 main_v91 ((fun x v => Host.reduce IntOp.addi x v reducesTo_S16384x50_S16384_d1 h_S_) : (⟨S16384x50, .i32⟩ : BufTy).Contents (Elt F) → (⟨S_, .i32⟩ : BufTy).Contents (Elt F) → (⟨S16384, .i32⟩ : BufTy).Contents (Elt F)),
    unary main_v91 main_v92 (sitofp .f32 : (⟨S16384, .i32⟩ : BufTy).Contents (Elt F) → (⟨S16384, .f32⟩ : BufTy).Contents (Elt F)),
    nullary main_cst_24 (constant S_ .f32 0x322BCC77#32),
    unary main_cst_24 main_v93 (broadcastInDim S16384 ![] bcast_S_S16384 : (⟨S_, .f32⟩ : BufTy).Contents (Elt F) → (⟨S16384, .f32⟩ : BufTy).Contents (Elt F)),
    binary main_v92 main_v93 main_v94 (addf : (⟨S16384, .f32⟩ : BufTy).Contents (Elt F) → (⟨S16384, .f32⟩ : BufTy).Contents (Elt F) → (⟨S16384, .f32⟩ : BufTy).Contents (Elt F)),
    nullary main_cst_25 (constant S_ .f32 0x3F800000#32),
    unary main_cst_25 main_v95 (broadcastInDim S16384 ![] bcast_S_S16384 : (⟨S_, .f32⟩ : BufTy).Contents (Elt F) → (⟨S16384, .f32⟩ : BufTy).Contents (Elt F)),
    binary main_v95 main_v94 main_v96 (Host.divf : (⟨S16384, .f32⟩ : BufTy).Contents (Elt F) → (⟨S16384, .f32⟩ : BufTy).Contents (Elt F) → (⟨S16384, .f32⟩ : BufTy).Contents (Elt F)),
    nullary main_cst_26 (constant S_ .f32 0x4CBEBC20#32),
    unary main_cst_26 main_v97 (broadcastInDim S16384 ![] bcast_S_S16384 : (⟨S_, .f32⟩ : BufTy).Contents (Elt F) → (⟨S16384, .f32⟩ : BufTy).Contents (Elt F)),
    binary main_v96 main_v97 main_v98 (cmpf .oge : (⟨S16384, .f32⟩ : BufTy).Contents (Elt F) → (⟨S16384, .f32⟩ : BufTy).Contents (Elt F) → (⟨S16384, .i1⟩ : BufTy).Contents (Elt F)),
    nullary main_cst_27 (constant S_ .f32 0x00000000#32),
    TRef.unary (TRef.of (T := ⟨S_, .f32⟩) main_cst_27) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.ternary (TRef.of (T := ⟨S16384, .i1⟩) main_v98) (TRef.of (T := ⟨S16384, .f32⟩) main_call2_v1) (TRef.of (T := ⟨S16384, .f32⟩) main_v96) (TRef.of (T := ⟨S16384, .f32⟩) main_v99) select,
    nullary main_cst_28 (constant S_ .f32 0x00000000#32),
    binary main_v87 main_cst_28 main_v100 ((fun x v => Host.reduceAdd x v reducesTo_S16384x50x64_S16384x64_d1 h_S_) : (⟨S16384x50x64, .f32⟩ : BufTy).Contents (Elt F) → (⟨S_, .f32⟩ : BufTy).Contents (Elt F) → (⟨S16384x64, .f32⟩ : BufTy).Contents (Elt F)),
    unary main_v99 main_v101 (broadcastInDim S16384x1 ![0] bcast_S16384_S16384x1_0 : (⟨S16384, .f32⟩ : BufTy).Contents (Elt F) → (⟨S16384x1, .f32⟩ : BufTy).Contents (Elt F)),
    unary main_v101 main_v102 (broadcastInDim S16384x64 ![0, 1] bcast_S16384x1_S16384x64_0_1 : (⟨S16384x1, .f32⟩ : BufTy).Contents (Elt F) → (⟨S16384x64, .f32⟩ : BufTy).Contents (Elt F)),
    binary main_v100 main_v102 main_v103 (mulf : (⟨S16384x64, .f32⟩ : BufTy).Contents (Elt F) → (⟨S16384x64, .f32⟩ : BufTy).Contents (Elt F) → (⟨S16384x64, .f32⟩ : BufTy).Contents (Elt F)),
    unary main_v103 main_v104 (Host.tanh : (⟨S16384x64, .f32⟩ : BufTy).Contents (Elt F) → (⟨S16384x64, .f32⟩ : BufTy).Contents (Elt F)),
    binary main_v79 main_v104 main_v105 (mulf : (⟨S16384x64, .f32⟩ : BufTy).Contents (Elt F) → (⟨S16384x64, .f32⟩ : BufTy).Contents (Elt F) → (⟨S16384x64, .f32⟩ : BufTy).Contents (Elt F)),
    nullary main_cst_29 (constant S_ .f32 0x00000000#32),
    binary main_v105 main_cst_29 main_v106 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., unary_bufs_sub .., binary_bufs_sub .., nullary_bufs_sub .., binary_bufs_sub ..⟩

set_option maxRecDepth 8192 in
set_option maxHeartbeats 58000000 in
/-- Every weakly fair execution of the reference terminates with its result at `Ref.result` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106)
        = Cert.Hgnn.Ref.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v106).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.Hgnn.RefRun

end
-- ==== Proof.lean ====
/-
  The certificate of the message-passing score kernel against its jnp reference.

  Both programs gather rows of two embedding tables by the same index arrays and form the same averaging weights.
  The kernel adds the gathered second-hop (and user-side) rows on the host, and in its body, 256 batch rows per grid
  point, applies each bias-free linear map ONCE to the added rows; the reference applies the maps to every
  neighbour and adds afterwards. On the extended reals the two agree when the entries are real — the precondition —
  since a product then distributes over a finite sum; the normalised first-layer output is real whatever it is
  computed from, which carries the argument through the second layer. The frames of the two kernel programs are
  the generated ones; the reference's frame is its run with the result dropped; the idealisation rewrote nothing.
-/
import proofs.«121466_j80178449482027_2_alg».proof.Defs
import proofs.«121466_j80178449482027_2_alg».proof.Proof.Gen.Kernel
import proofs.«121466_j80178449482027_2_alg».proof.Proof.Gen.Kernel.Frame
import proofs.«121466_j80178449482027_2_alg».proof.Proof.Gen.KernelIdeal
import proofs.«121466_j80178449482027_2_alg».proof.Proof.Gen.KernelIdeal.Frame
import proofs.«121466_j80178449482027_2_alg».proof.Proof.Gen.KernelIdeal.Value
import proofs.«121466_j80178449482027_2_alg».proof.Proof.Gen.ReferenceIdeal
import proofs.«121466_j80178449482027_2_alg».proof.Proof.Gen.Pre_finite_inputs
import proofs.«121466_j80178449482027_2_alg».proof.Proof.Bridge
import proofs.«121466_j80178449482027_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result forgotten. -/
theorem frame_ri : Cert.frame_ReferenceIdeal := fun m ρ _ =>
  (θ_run Cert.ReferenceIdeal.defs _ _).mono (fun _ h c => (h c).2) (Cert.Hgnn.RefRun.run m ρ)

/-- Both runs end with the result at the reference's term of the (agreeing) arguments. -/
theorem algebraic : Cert.algebraic_KernelIdeal_ReferenceIdeal := by
  intro m ρ m' ρ' hpre hagree
  refine ⟨_, (θ_run Cert.KernelIdeal.defs _ _).mono
      (fun r h c => ⟨(h c).1.trans (Cert.Hgnn.Bridge.G_eq m c (hpre c)), (h c).2⟩) (Cert.Hgnn.KernelValue.run m ρ), ?_⟩
  refine (θ_run Cert.ReferenceIdeal.defs _ _).mono (fun r h c => ⟨(h c).1.trans ?_, (h c).2⟩) (Cert.Hgnn.RefRun.run m' ρ')
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
